-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x8x128 : Shape := ⟨3, ![4, 8, 128]⟩
abbrev S1x512x3 : Shape := ⟨3, ![1, 512, 3]⟩
abbrev S1x3x8192 : Shape := ⟨3, ![1, 3, 8192]⟩
abbrev S1x8x128 : Shape := ⟨3, ![1, 8, 128]⟩
abbrev S1x8192 : Shape := ⟨2, ![1, 8192]⟩
abbrev S512x3 : Shape := ⟨2, ![512, 3]⟩
abbrev S512x1 : Shape := ⟨2, ![512, 1]⟩
abbrev S3x8192 : Shape := ⟨2, ![3, 8192]⟩
abbrev S3x2048 : Shape := ⟨2, ![3, 2048]⟩
abbrev S1x2048 : Shape := ⟨2, ![1, 2048]⟩
abbrev S512x2048 : Shape := ⟨2, ![512, 2048]⟩
abbrev S512 : Shape := ⟨1, ![512]⟩
abbrev S2048 : Shape := ⟨1, ![2048]⟩
abbrev S1 : Shape := ⟨1, ![1]⟩
abbrev S1x1 : Shape := ⟨2, ![1, 1]⟩
abbrev S1x1x1 : Shape := ⟨3, ![1, 1, 1]⟩
abbrev S4x1x1 : Shape := ⟨3, ![4, 1, 1]⟩
abbrev S4 : Shape := ⟨1, ![4]⟩
abbrev S_ : Shape := ⟨0, ![]⟩

abbrev nBuf : Space → Nat
  | .hbm => 18
  | .vmem => 9
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x8x128, .f32⟩
  | .hbm, ⟨4, _⟩ => ⟨S4x8x128, .f32⟩
  | .hbm, ⟨5, _⟩ => ⟨S4x1x1, .f32⟩
  | .hbm, ⟨6, _⟩ => ⟨S4, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x1x1, .f32⟩
  | .hbm, ⟨12, _⟩ => ⟨S4, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x3x8192, .f32⟩
  | .local _ .vmem, ⟨3, _⟩ => ⟨S1x3x8192, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_4 : BitVec 32 := 0#32
  let c4_i32 : BitVec 32 := 4#32
  let v6 : BitVec 32 := Scalar.addi c0_i32_4 c4_i32
  let c1_i32 : BitVec 32 := 1#32
  ⟨c0_i32_4, v6, c1_i32⟩
def k0_mult1 (k0_t1 : Fin k0_t1_loop.trips) : BitVec 32 :=
  let c0_i32_4 : BitVec 32 := 0#32
  let c1_i32 : BitVec 32 := 1#32
  let arg7 : BitVec 32 := Scf.iv c0_i32_4 c1_i32 k0_t1
  let c2048_i32 : BitVec 32 := 2048#32
  let v20 : BitVec 32 := Scalar.muli arg7 c2048_i32
  v20
def k0_off1 (k0_t1 : Fin k0_t1_loop.trips) : Fin 2 → Nat :=
  let c0_16 : Index := 0#32
  let c0_i32_4 : BitVec 32 := 0#32
  let c1_i32 : BitVec 32 := 1#32
  let arg7 : BitVec 32 := Scf.iv c0_i32_4 c1_i32 k0_t1
  let c2048_i32 : BitVec 32 := 2048#32
  let v20 : BitVec 32 := Scalar.muli arg7 c2048_i32
  let v21 : BitVec 32 := v20
  let v24 : Index := Scalar.indexCast v21
  ![0, v24.toNat]
def k0_off2 (k0_t1 : Fin k0_t1_loop.trips) : Fin 2 → Nat :=
  let c0_19 : Index := 0#32
  let c0_i32_4 : BitVec 32 := 0#32
  let c1_i32 : BitVec 32 := 1#32
  let arg7 : BitVec 32 := Scf.iv c0_i32_4 c1_i32 k0_t1
  let c2048_i32 : BitVec 32 := 2048#32
  let v20 : BitVec 32 := Scalar.muli arg7 c2048_i32
  let v21 : BitVec 32 := v20
  let v52 : Index := Scalar.indexCast v21
  ![0, v52.toNat]
def k0_cond2 (i : grid0.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_13 : BitVec 32 := 0#32
  let v19 : BitVec 1 := Scalar.cmpi .ne v18 c0_i32_13
  v19

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S4x8192x3_S4x3x8192_0_2_1 : S4x8192x3.Transposes [0, 2, 1] S4x3x8192
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x8x128_S1x8x128_0_0_0 : ∀ a, (![0, 0, 0] : Fin 3 → Nat) a + S1x8x128.size a ≤ S1x8x128.size a
  h_S1x8x128 : 0 < S1x8x128.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x3x8192_S1x3x8192_0_0_0 : ∀ a, (![0, 0, 0] : Fin 3 → Nat) a + S1x3x8192.size a ≤ S1x3x8192.size a
  squeezes_S1x3x8192_S3x8192 : S1x3x8192.Squeezes S3x8192
  h_S3x2048 : 0 < S3x2048.numel
  shapeCasts_S3x2048_S3x2048 : S3x2048.ShapeCasts S3x2048
  slices_S512x3_o0_0_S512x1 : S512x3.Slices ![0, 0] S512x1
  slices_S3x2048_o0_0_S1x2048 : S3x2048.Slices ![0, 0] S1x2048
  broadcasts_S512x1_S512x2048 : S512x1.Broadcasts S512x2048
  broadcasts_S1x2048_S512x2048 : S1x2048.Broadcasts S512x2048
  slices_S512x3_o0_1_S512x1 : S512x3.Slices ![0, 1] S512x1
  slices_S3x2048_o1_0_S1x2048 : S3x2048.Slices ![1, 0] S1x2048
  slices_S512x3_o0_2_S512x1 : S512x3.Slices ![0, 2] S512x1
  slices_S3x2048_o2_0_S1x2048 : S3x2048.Slices ![2, 0] S1x2048
  reduces_S512x2048_S512 : S512x2048.Reduces [1] S512
  shapeCasts_S512_S512x1 : S512.ShapeCasts S512x1
  reduces_S512x2048_S2048 : S512x2048.Reduces [0] S2048
  shapeCasts_S2048_S1x2048 : S2048.ShapeCasts S1x2048
  h_S1x2048 : 0 < S1x2048.numel
  shapeCasts_S1x2048_S1x2048 : S1x2048.ShapeCasts S1x2048
  reduces_S512x1_S1 : S512x1.Reduces [0] S1
  shapeCasts_S1_S1x1 : S1.ShapeCasts S1x1
  shapeCasts_S1x8x128_S1x8x128 : S1x8x128.ShapeCasts S1x8x128
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  reduces_S1x8192_S1 : S1x8192.Reduces [1] S1
  slices_S4x8x128_S4x1x1_0_0_0 : S4x8x128.Slices ![0, 0, 0] S4x1x1
  shapeCasts_S4x1x1_S4 : S4x1x1.ShapeCasts S4
  reducesTo_S4_S_d0 : S4.ReducesTo [0] S_
  h_S_ : 0 < S_.numel
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S3x2048.size a ≤ S3x8192.size a
  k0_off2_inb : ∀ k0_t1 : Fin k0_t1_loop.trips, ∀ a, (k0_off2 k0_t1) a + S1x2048.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S4x8192x3.size a
  hwx0_0 : ∀ i : grid0.Coords, EltTy.bits .f32 = 32 ∨ (Rect.block (s := S4x8192x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x8192.size a ≤ S4x3x8192.size a
  hwx0_1 : ∀ i : grid0.Coords, EltTy.bits .f32 = 32 ∨ (Rect.block (s := S4x3x8192) S1x3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S4x8x128.size a
  hwx0_2 : ∀ i : grid0.Coords, EltTy.bits .f32 = 32 ∨ (Rect.block (s := S4x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S4x8x128.size a
  hwx0_3 : ∀ i : grid0.Coords, EltTy.bits .f32 = 32 ∨ (Rect.block (s := S4x8x128) S1x8x128.size (cc0_transform_3 i) (hinb0_3 i)).WholeWords (EltTy.packing .f32)

variable [Facts₀]

abbrev win0_0 : Pipeline.Window sig grid0 :=
  Pipeline.Window.ofSpec (Memref.whole main_arg1) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d1 : S4x8192x8192.ReducesTo [1] S4x8192
  reducesTo_S4x8192_S_d0_1 : S4x8192.ReducesTo [0, 1] S_
  reducesTo_S4x8192x8192_S4x8192_d2 : S4x8192x8192.ReducesTo [2] S4x8192
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.KBBase.lean ====
/-
  The frame of the program's one kernel, first part: what its three control cases share.

  The grid has 4 × 16 points, point t = 16·b + nb. The body branches on nb alone: at nb = 0 it resets the running
  sum (output window 3) to zero and the running column minimum (the scratch) to +∞; at every point it folds one tile
  of 512 target points into both; at nb = 15 it writes the column minima's sum into output window 2. So a point is
  in one of three cases — first tile (A), middle tile (B), last tile (C) — decided here in closed form over the grid,
  together with where output window 2 is idle. The loop over the four chunks of predicted points loads through a
  squeezed whole-slice view of the second input's staging buffer: that view has the buffer's location and element
  set (`v23_pts`), so the buffer's points-to can be handed to the loop's invariant and taken back.
-/
import proofs.«125768_j28200755266074_2_alg».proof.Proof.Gen.Kernel.Frame
import proofs.«125768_j28200755266074_2_alg».proof.Proof.Gen.Kernel.Loops
import Idealize.ShloMosaic.Lib.Pipeline.Value
import Idealize.ShloMosaic.Lib.Exec.Geometry

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem rect_unit_zero_set {S : Shape} {off : Fin S.rank → Nat} (h : off = fun _ => 0) (inb : ∀ a, off a + S.size a ≤ S.size a) :
    (Rect.unit off S.size inb).set = Finset.univ := by
  subst h; show (Rect.whole S).set = _; rw [Rect.set_whole]

theorem v23_set (arg3 : Memref sig .tc .vmem S1x3x8192 .f32) :
    ((arg3.slice (Rect.unit (s := S1x3x8192) ![0, 0, 0] S1x3x8192.size inb_S1x3x8192_S1x3x8192_0_0_0) (fun _ => rfl)).squeeze S3x8192 squeezes_S1x3x8192_S3x8192).view.set = arg3.view.set := by
  rw [Memref.set_view_squeeze]
  show (arg3.view.slice _).set = _
  rw [View.set_slice, rect_unit_zero_set (by funext a; fin_cases a <;> rfl)]
  rfl

/-- The points-to of a whole rank-3 staging buffer, restated over its squeezed whole-slice view (the view the loop's
    loads go through): same location, same element set. -/
theorem v23_pts (c : Dev nD) (arg3 : Memref sig .tc .vmem S1x3x8192 .f32) (f : BufTy.Contents (Elt F) arg3.view.ty) :
    (iprop(arg3.view.loc (c : Thread nD τ) ↦[arg3.view.set]{fullShare} f) : sProp 𝕄)
      = iprop(((arg3.slice (Rect.unit (s := S1x3x8192) ![0, 0, 0] S1x3x8192.size inb_S1x3x8192_S1x3x8192_0_0_0) (fun _ => rfl)).squeeze S3x8192 squeezes_S1x3x8192_S3x8192).view.loc (c : Thread nD τ) ↦[((arg3.slice (Rect.unit (s := S1x3x8192) ![0, 0, 0] S1x3x8192.size inb_S1x3x8192_S1x3x8192_0_0_0) (fun _ => rfl)).squeeze S3x8192 squeezes_S1x3x8192_S3x8192).view.set]{fullShare} f) := by
  rw [v23_set]

abbrev condA (i : grid0.Coords) : Prop := (Scalar.cmpi .ne (Scalar.extui (Scalar.cmpi .eq (BitVec.ofNat 32 (i 1).val) 0#32)) 0#32) = 1#1
abbrev condC (i : grid0.Coords) : Prop := k0_cond2 i = 1#1

/-- The first-tile condition holds exactly at the points ≡ 0 (mod 16). -/
theorem hcondA : ∀ t : Fin cfg0.N, condA (grid0.coords t) ↔ t.val % 16 = 0 :=
  (by decide +kernel : ∀ t : Fin grid0.N, condA (grid0.coords t) ↔ t.val % 16 = 0)
/-- The last-tile condition holds exactly at the points ≡ 15 (mod 16). -/
theorem hcondC : ∀ t : Fin cfg0.N, condC (grid0.coords t) ↔ t.val % 16 = 15 :=
  (by decide +kernel : ∀ t : Fin grid0.N, condC (grid0.coords t) ↔ t.val % 16 = 15)

/-- The two inputs and the running-sum output are live at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
/-- Output window 2 is idle, and not written back, away from the last tile; live there. -/
theorem idleAt0_2 : ∀ t : Fin cfg0.N, ¬condC (grid0.coords t) → cfg0.idle 2 (grid0.coords t) = true := by decide +kernel
theorem noFlush0_2 : ∀ t : Fin cfg0.N, ¬condC (grid0.coords t) → (cfg0.win 2).flush t = false := by decide +kernel
theorem liveAt0_2 : ∀ t : Fin cfg0.N, condC (grid0.coords t) → cfg0.idle 2 (grid0.coords t) = false := by decide +kernel

/-- Each window's current staging memref at point `t`, and its wholeness. -/
abbrev ms0_0 (t : Fin cfg0.N) : Memref sig .tc .vmem S1x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128 .f32 := win0_3.stage (cfg0.slots t 3)
abbrev hs0_3 (t : Fin cfg0.N) : (ms0_3 t).IsWhole := hstage0_3 ((cfg0.slots t 3).cast nbuf0_3)
/-- The scratch: a whole scoped buffer of the kernel's own. -/
abbrev scM0 : Memref sig .tc .vmem S1x8192 .f32 := Memref.whole cc0_scratch0
theorem hscM0 : (scM0).IsWhole := Memref.isWhole_whole _

/-- The launch's invariant with the scratch as a memref owned at some contents. -/
theorem PhiA0_eq (c : Dev nD) :
    (Pipeline.ΦA spec0 c : sProp 𝕄)
      = iprop(iprop((∃ d, owns (c : Thread nD τ) scM0 fullShare d)) ∗ (∃ r, prngReg c r)) := by
  unfold Pipeline.ΦA; rw [scopedRest0_eq]; simp only [scM0, owns_whole]; try rfl

end Cert.Kernel.Gen

end
-- ==== Proof.KBRunA.lean ====
/-
  The frame of the program's one kernel: the body's run in control case A (first tile) (the pieces each buffer ends with are what
  the run finds; the loop over the four chunks goes by its generated invariant).
-/
import proofs.«125768_j28200755266074_2_alg».proof.Proof.KBBase

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first-tile point: the inputs at their blocks, the running sum and the scratch found at anything and left with the pieces the run finds (each list holds a store of the whole shape, so what is left does not depend on what was found). Output window 2 is not touched and stays in the frame. -/
noncomputable def kernelRun0_A (c : Dev nD) (i : grid0.Coords) (arg2 : Memref sig .tc .vmem S1x512x3 .f32) (harg2 : arg2.IsWhole) (arg3 : Memref sig .tc .vmem S1x3x8192 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8192 .f32) (harg6 : arg6.IsWhole) (hcA : condA i) (hcC : ¬condC i)
    (x0 : Vec F S1x512x3 .f32) (x1 : Vec F S1x3x8192 .f32) :
    Σ' (L3 : List (View.Piece (Elt F) S1x8x128 .f32)), { LS : List (View.Piece (Elt F) S1x8192 .f32) //
      ∀ (E : Set ℕ) (K : PUnit → sProp 𝕄),
        iprop(owns (c : Thread nD τ) arg2 fullShare x0 ∗ owns (c : Thread nD τ) arg3 fullShare x1 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d3, %f3, -, H3⟩, ⟨%ds, %fs, -, HS⟩, Hk⟩
    obtain rfl := harg2.eq_unread hf0; obtain rfl := harg3.eq_unread hf1
    ihave H1 := (Entails.of_eq (v23_pts (F := F) c arg3 (harg3.unread x1))) $$ H1
    sl_exec (disch := first | exact hcA | exact hcC)
    sl_step
    ihave H1 := (Entails.of_eq (v23_pts (F := F) c arg3 (harg3.unread x1)).symm) $$ H1
    iapply Hk
    isplitl [H0]
    · iexists _; isplitr; · ipureintro; exact harg2.read_unread _
      iexact H0
    isplitl [H1]
    · iexists _; isplitr; · ipureintro; exact harg3.read_unread _
      iexact H1
    isplitl [H3]; · iexists _; iexact H3
    iexists _; iexact HS

end Cert.Kernel.Gen

end
-- ==== Proof.KBRunB.lean ====
/-
  The frame of the program's one kernel: the body's run in control case B (middle tile) (the pieces each buffer ends with are what
  the run finds; the loop over the four chunks goes by its generated invariant).
-/
import proofs.«125768_j28200755266074_2_alg».proof.Proof.KBBase

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle-tile point: the inputs at their blocks, the running sum and the scratch found at the contents the point before left and left with the run's pieces written over them. Output window 2 is not touched and stays in the frame. -/
noncomputable def kernelRun0_B (c : Dev nD) (i : grid0.Coords) (arg2 : Memref sig .tc .vmem S1x512x3 .f32) (harg2 : arg2.IsWhole) (arg3 : Memref sig .tc .vmem S1x3x8192 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8192 .f32) (harg6 : arg6.IsWhole) (hcA : ¬condA i) (hcC : ¬condC i)
    (x0 : Vec F S1x512x3 .f32) (x1 : Vec F S1x3x8192 .f32) (y3 : Vec F S1x8x128 .f32) (xs : Vec F S1x8192 .f32) :
    Σ' (L3 : List (View.Piece (Elt F) S1x8x128 .f32)), { LS : List (View.Piece (Elt F) S1x8192 .f32) //
      ∀ (E : Set ℕ) (K : PUnit → sProp 𝕄),
        iprop(owns (c : Thread nD τ) arg2 fullShare x0 ∗ owns (c : Thread nD τ) arg3 fullShare x1 ∗ owns (c : Thread nD τ) arg5 fullShare y3 ∗ owns (c : Thread nD τ) arg6 fullShare xs
            ∗ (iprop(owns (c : Thread nD τ) arg2 fullShare x0 ∗ owns (c : Thread nD τ) arg3 fullShare x1 ∗ (arg5.view.loc (c : Thread nD τ) ↦[arg5.view.set]{fullShare} arg5.view.writes (Elt F) (harg5.unread y3) L3) ∗ (arg6.view.loc (c : Thread nD τ) ↦[arg6.view.set]{fullShare} arg6.view.writes (Elt F) (harg6.unread xs) LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%f3, %hf3, H3⟩, ⟨%fs, %hfs, HS⟩, Hk⟩
    obtain rfl := harg2.eq_unread hf0; obtain rfl := harg3.eq_unread hf1; obtain rfl := harg5.eq_unread hf3; obtain rfl := harg6.eq_unread hfs
    ihave H1 := (Entails.of_eq (v23_pts (F := F) c arg3 (harg3.unread x1))) $$ H1
    sl_exec (disch := first | exact hcA | exact hcC)
    sl_step
    ihave H1 := (Entails.of_eq (v23_pts (F := F) c arg3 (harg3.unread x1)).symm) $$ H1
    iapply Hk
    isplitl [H0]
    · iexists _; isplitr; · ipureintro; exact harg2.read_unread _
      iexact H0
    isplitl [H1]
    · iexists _; isplitr; · ipureintro; exact harg3.read_unread _
      iexact H1
    isplitl [H3]; · iexact H3
    iexact HS

end Cert.Kernel.Gen

end
-- ==== Proof.KBRunC.lean ====
/-
  The frame of the program's one kernel: the body's run in control case C (last tile) (the pieces each buffer ends with are what
  the run finds; the loop over the four chunks goes by its generated invariant).
-/
import proofs.«125768_j28200755266074_2_alg».proof.Proof.KBBase

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a last-tile point: as at a middle tile, and output window 2, found at anything, left with the run's pieces (one store of its whole shape). -/
noncomputable def kernelRun0_C (c : Dev nD) (i : grid0.Coords) (arg2 : Memref sig .tc .vmem S1x512x3 .f32) (harg2 : arg2.IsWhole) (arg3 : Memref sig .tc .vmem S1x3x8192 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8192 .f32) (harg6 : arg6.IsWhole) (hcA : ¬condA i) (hcC : condC i)
    (x0 : Vec F S1x512x3 .f32) (x1 : Vec F S1x3x8192 .f32) (y3 : Vec F S1x8x128 .f32) (xs : Vec F S1x8192 .f32) :
    Σ' (L2 : List (View.Piece (Elt F) S1x8x128 .f32)) (L3 : List (View.Piece (Elt F) S1x8x128 .f32)), { LS : List (View.Piece (Elt F) S1x8192 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare y3 ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (arg5.view.loc (c : Thread nD τ) ↦[arg5.view.set]{fullShare} arg5.view.writes (Elt F) (harg5.unread y3) L3) ∗ (arg6.view.loc (c : Thread nD τ) ↦[arg6.view.set]{fullShare} arg6.view.writes (Elt F) (harg6.unread xs) LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%f3, %hf3, H3⟩, ⟨%fs, %hfs, HS⟩, Hk⟩
    obtain rfl := harg2.eq_unread hf0; obtain rfl := harg3.eq_unread hf1; obtain rfl := harg5.eq_unread hf3; obtain rfl := harg6.eq_unread hfs
    ihave H1 := (Entails.of_eq (v23_pts (F := F) c arg3 (harg3.unread x1))) $$ H1
    sl_exec (disch := first | exact hcA | exact hcC)
    sl_step
    ihave H1 := (Entails.of_eq (v23_pts (F := F) c arg3 (harg3.unread x1)).symm) $$ H1
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexact H3
    iexact HS

end Cert.Kernel.Gen

end
-- ==== Proof.KBFrame.lean ====
/-
  The frame of the program's one kernel, last part: what the running sum (output window 3), the column-minimum
  scratch and output window 2 hold after each grid point, by recursion on the point; the pipeline's proof data over
  it; the body obligation, case by case; the run of the whole program; and the frame claim's post.

  After point t the running sum and the scratch are what the point's case leaves: at a first tile (t ≡ 0 mod 16) the
  case's pieces over anything (each list holds a store of the whole shape), at a middle or last tile the case's pieces
  over what point t − 1 left. The invariant carried between points holds the scratch at exactly that. Output window 2
  is idle until a last tile (t ≡ 15), where it takes the case's one whole store.
-/
import proofs.«125768_j28200755266074_2_alg».proof.Proof.KBRunA
import proofs.«125768_j28200755266074_2_alg».proof.Proof.KBRunB
import proofs.«125768_j28200755266074_2_alg».proof.Proof.KBRunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of each output window, through which its contents are stated (the choice does not matter
    where the pieces cover the shape). -/
abbrev VO2 : View sig .tc .vmem S1x8x128 .f32 := (Memref.whole cc0_stg2_0 : Memref sig .tc .vmem S1x8x128 .f32).view
abbrev VO3 : View sig .tc .vmem S1x8x128 .f32 := (Memref.whole cc0_stg3_0 : Memref sig .tc .vmem S1x8x128 .f32).view
abbrev VS0 : View sig .tc .vmem S1x8192 .f32 := scM0.view

/-! ## What each case leaves -/

section Cases
variable (c : Dev nD) (i : grid0.Coords) (arg2 : Memref sig .tc .vmem S1x512x3 .f32) (harg2 : arg2.IsWhole) (arg3 : Memref sig .tc .vmem S1x3x8192 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8192 .f32) (harg6 : arg6.IsWhole)

theorem cover0_A_3 (hcA : condA i) (hcC : ¬condC i) (x0 : Vec F S1x512x3 .f32) (x1 : Vec F S1x3x8192 .f32) (y : S1x8x128.Idx) :
    ∃ pc ∈ (kernelRun0_A c i arg2 harg2 arg3 harg3 arg4 harg4 arg5 harg5 arg6 harg6 hcA hcC x0 x1).1, y ∈ pc.1.set :=
  View.cover_of_wholeMem _ (by sl_whole_mem) y
/-- The running sum after a first tile. -/
def out0_A_3 (hcA : condA i) (hcC : ¬condC i) (x0 : Vec F S1x512x3 .f32) (x1 : Vec F S1x3x8192 .f32) : Vec F S1x8x128 .f32 :=
  VO3.read (Elt F) (VO3.writes (Elt F) VO3.junk (kernelRun0_A c i arg2 harg2 arg3 harg3 arg4 harg4 arg5 harg5 arg6 harg6 hcA hcC x0 x1).1)
theorem scover0_A (hcA : condA i) (hcC : ¬condC i) (x0 : Vec F S1x512x3 .f32) (x1 : Vec F S1x3x8192 .f32) (y : S1x8192.Idx) :
    ∃ pc ∈ (kernelRun0_A c i arg2 harg2 arg3 harg3 arg4 harg4 arg5 harg5 arg6 harg6 hcA hcC x0 x1).2.1, y ∈ pc.1.set :=
  View.cover_of_wholeMem _ (by sl_whole_mem) y
/-- The scratch after a first tile. -/
def sout0_A (hcA : condA i) (hcC : ¬condC i) (x0 : Vec F S1x512x3 .f32) (x1 : Vec F S1x3x8192 .f32) : Vec F S1x8192 .f32 :=
  VS0.read (Elt F) (VS0.writes (Elt F) VS0.junk (kernelRun0_A c i arg2 harg2 arg3 harg3 arg4 harg4 arg5 harg5 arg6 harg6 hcA hcC x0 x1).2.1)

theorem cover0_B_3 (hcA : ¬condA i) (hcC : ¬condC i) (x0 : Vec F S1x512x3 .f32) (x1 : Vec F S1x3x8192 .f32) (y3 : Vec F S1x8x128 .f32) (xs : Vec F S1x8192 .f32) (y : S1x8x128.Idx) :
    ∃ pc ∈ (kernelRun0_B c i arg2 harg2 arg3 harg3 arg4 harg4 arg5 harg5 arg6 harg6 hcA hcC x0 x1 y3 xs).1, y ∈ pc.1.set :=
  View.cover_of_wholeMem _ (by sl_whole_mem) y
/-- The running sum after a middle tile. -/
def out0_B_3 (hcA : ¬condA i) (hcC : ¬condC i) (x0 : Vec F S1x512x3 .f32) (x1 : Vec F S1x3x8192 .f32) (y3 : Vec F S1x8x128 .f32) (xs : Vec F S1x8192 .f32) : Vec F S1x8x128 .f32 :=
  VO3.read (Elt F) (VO3.writes (Elt F) VO3.junk (kernelRun0_B c i arg2 harg2 arg3 harg3 arg4 harg4 arg5 harg5 arg6 harg6 hcA hcC x0 x1 y3 xs).1)
/-- The scratch after a middle tile: the case's pieces over what it was found at. -/
def sout0_B (hcA : ¬condA i) (hcC : ¬condC i) (x0 : Vec F S1x512x3 .f32) (x1 : Vec F S1x3x8192 .f32) (y3 : Vec F S1x8x128 .f32) (xs : Vec F S1x8192 .f32) : Vec F S1x8192 .f32 :=
  arg6.view.read (Elt F) (arg6.view.writes (Elt F) (harg6.unread xs) (kernelRun0_B c i arg2 harg2 arg3 harg3 arg4 harg4 arg5 harg5 arg6 harg6 hcA hcC x0 x1 y3 xs).2.1)

theorem cover0_C_2 (hcA : ¬condA i) (hcC : condC i) (x0 : Vec F S1x512x3 .f32) (x1 : Vec F S1x3x8192 .f32) (y3 : Vec F S1x8x128 .f32) (xs : Vec F S1x8192 .f32) (y : S1x8x128.Idx) :
    ∃ pc ∈ (kernelRun0_C c i arg2 harg2 arg3 harg3 arg4 harg4 arg5 harg5 arg6 harg6 hcA hcC x0 x1 y3 xs).1, y ∈ pc.1.set :=
  View.cover_of_wholeMem _ (by sl_whole_mem) y
/-- Output window 2 after a last tile. -/
def out0_C_2 (hcA : ¬condA i) (hcC : condC i) (x0 : Vec F S1x512x3 .f32) (x1 : Vec F S1x3x8192 .f32) (y3 : Vec F S1x8x128 .f32) (xs : Vec F S1x8192 .f32) : Vec F S1x8x128 .f32 :=
  VO2.read (Elt F) (VO2.writes (Elt F) VO2.junk (kernelRun0_C c i arg2 harg2 arg3 harg3 arg4 harg4 arg5 harg5 arg6 harg6 hcA hcC x0 x1 y3 xs).1)
theorem cover0_C_3 (hcA : ¬condA i) (hcC : condC i) (x0 : Vec F S1x512x3 .f32) (x1 : Vec F S1x3x8192 .f32) (y3 : Vec F S1x8x128 .f32) (xs : Vec F S1x8192 .f32) (y : S1x8x128.Idx) :
    ∃ pc ∈ (kernelRun0_C c i arg2 harg2 arg3 harg3 arg4 harg4 arg5 harg5 arg6 harg6 hcA hcC x0 x1 y3 xs).2.1, y ∈ pc.1.set :=
  View.cover_of_wholeMem _ (by sl_whole_mem) y
/-- The running sum after a last tile. -/
def out0_C_3 (hcA : ¬condA i) (hcC : condC i) (x0 : Vec F S1x512x3 .f32) (x1 : Vec F S1x3x8192 .f32) (y3 : Vec F S1x8x128 .f32) (xs : Vec F S1x8192 .f32) : Vec F S1x8x128 .f32 :=
  VO3.read (Elt F) (VO3.writes (Elt F) VO3.junk (kernelRun0_C c i arg2 harg2 arg3 harg3 arg4 harg4 arg5 harg5 arg6 harg6 hcA hcC x0 x1 y3 xs).2.1)
/-- The scratch after a last tile. -/
def sout0_C (hcA : ¬condA i) (hcC : condC i) (x0 : Vec F S1x512x3 .f32) (x1 : Vec F S1x3x8192 .f32) (y3 : Vec F S1x8x128 .f32) (xs : Vec F S1x8192 .f32) : Vec F S1x8192 .f32 :=
  arg6.view.read (Elt F) (arg6.view.writes (Elt F) (harg6.unread xs) (kernelRun0_C c i arg2 harg2 arg3 harg3 arg4 harg4 arg5 harg5 arg6 harg6 hcA hcC x0 x1 y3 xs).2.2.1)

end Cases

/-! ## What the buffers hold after each point -/

theorem notC_of_A (t : Fin cfg0.N) (h0 : t.val % 16 = 0) : ¬condC (grid0.coords t) := fun h => by
  have := (hcondC t).mp h; omega
theorem notA_of (t : Fin cfg0.N) (h0 : ¬t.val % 16 = 0) : ¬condA (grid0.coords t) := fun h => h0 ((hcondA t).mp h)
theorem notC_of (t : Fin cfg0.N) (h15 : ¬t.val % 16 = 15) : ¬condC (grid0.coords t) := fun h => h15 ((hcondC t).mp h)
theorem notA_of_C (t : Fin cfg0.N) (h15 : t.val % 16 = 15) : ¬condA (grid0.coords t) := fun h => by
  have := (hcondA t).mp h; omega

/-- The running sum and the scratch after a first-tile point. -/
def stepA (c : Dev nD) (t : Fin cfg0.N) (h0 : t.val % 16 = 0) : Vec F S1x8x128 .f32 × Vec F S1x8192 .f32 :=
  (out0_A_3 c (grid0.coords t) (ms0_0 t) (hs0_0 t) (ms0_1 t) (hs0_1 t) (ms0_2 t) (hs0_2 t) (ms0_3 t) (hs0_3 t) scM0 hscM0 ((hcondA t).mpr h0) (notC_of_A t h0) (iblk m c 0 t) (iblk m c 1 t),
   sout0_A c (grid0.coords t) (ms0_0 t) (hs0_0 t) (ms0_1 t) (hs0_1 t) (ms0_2 t) (hs0_2 t) (ms0_3 t) (hs0_3 t) scM0 hscM0 ((hcondA t).mpr h0) (notC_of_A t h0) (iblk m c 0 t) (iblk m c 1 t))
/-- After a middle-tile point, over what the point before left. -/
def stepB (c : Dev nD) (t : Fin cfg0.N) (h0 : ¬t.val % 16 = 0) (h15 : ¬t.val % 16 = 15) (prev : Vec F S1x8x128 .f32 × Vec F S1x8192 .f32) :
    Vec F S1x8x128 .f32 × Vec F S1x8192 .f32 :=
  (out0_B_3 c (grid0.coords t) (ms0_0 t) (hs0_0 t) (ms0_1 t) (hs0_1 t) (ms0_2 t) (hs0_2 t) (ms0_3 t) (hs0_3 t) scM0 hscM0 (notA_of t h0) (notC_of t h15) (iblk m c 0 t) (iblk m c 1 t) prev.1 prev.2,
   sout0_B c (grid0.coords t) (ms0_0 t) (hs0_0 t) (ms0_1 t) (hs0_1 t) (ms0_2 t) (hs0_2 t) (ms0_3 t) (hs0_3 t) scM0 hscM0 (notA_of t h0) (notC_of t h15) (iblk m c 0 t) (iblk m c 1 t) prev.1 prev.2)
/-- After a last-tile point, over what the point before left. -/
def stepC (c : Dev nD) (t : Fin cfg0.N) (h15 : t.val % 16 = 15) (prev : Vec F S1x8x128 .f32 × Vec F S1x8192 .f32) :
    Vec F S1x8x128 .f32 × Vec F S1x8192 .f32 :=
  (out0_C_3 c (grid0.coords t) (ms0_0 t) (hs0_0 t) (ms0_1 t) (hs0_1 t) (ms0_2 t) (hs0_2 t) (ms0_3 t) (hs0_3 t) scM0 hscM0 (notA_of_C t h15) ((hcondC t).mpr h15) (iblk m c 0 t) (iblk m c 1 t) prev.1 prev.2,
   sout0_C c (grid0.coords t) (ms0_0 t) (hs0_0 t) (ms0_1 t) (hs0_1 t) (ms0_2 t) (hs0_2 t) (ms0_3 t) (hs0_3 t) scM0 hscM0 (notA_of_C t h15) ((hcondC t).mpr h15) (iblk m c 0 t) (iblk m c 1 t) prev.1 prev.2)

/-- The running sum and the scratch after the body at position `n`. -/
def outsAt0 (c : Dev nD) : (n : ℕ) → n < cfg0.N → Vec F S1x8x128 .f32 × Vec F S1x8192 .f32
  | 0, hn => stepA m c ⟨0, hn⟩ (Nat.zero_mod _)
  | n + 1, hn =>
    if h0 : (n + 1) % 16 = 0 then stepA m c ⟨n + 1, hn⟩ h0
    else if h15 : (n + 1) % 16 = 15 then stepC m c ⟨n + 1, hn⟩ h15 (outsAt0 c n (Nat.lt_of_succ_lt hn))
    else stepB m c ⟨n + 1, hn⟩ h0 h15 (outsAt0 c n (Nat.lt_of_succ_lt hn))

theorem outsAt0_A (c : Dev nD) (t : Fin cfg0.N) (h0 : t.val % 16 = 0) : outsAt0 m c t.val t.isLt = stepA m c t h0 := by
  obtain ⟨n, hn⟩ := t
  cases n with
  | zero => rfl
  | succ n => exact dif_pos h0
theorem outsAt0_B (c : Dev nD) (t : Fin cfg0.N) (h0 : ¬t.val % 16 = 0) (h15 : ¬t.val % 16 = 15) :
    outsAt0 m c t.val t.isLt = stepB m c t h0 h15 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h15).trans rfl)
theorem outsAt0_C (c : Dev nD) (t : Fin cfg0.N) (h15 : t.val % 16 = 15) :
    outsAt0 m c t.val t.isLt = stepC m c t h15 (outsAt0 m c (t.val - 1) (Nat.lt_of_le_of_lt (Nat.sub_le _ _) t.isLt)) := by
  obtain ⟨n, hn⟩ := t
  cases n with
  | zero => exact absurd (show (0 : ℕ) % 16 = 15 from h15) (by decide)
  | succ n =>
    have h15' : (n + 1) % 16 = 15 := h15
    exact (dif_neg (by omega)).trans ((dif_pos h15).trans rfl)

/-- Output window 2 after the body at point `t`: at a last tile the case's whole store; elsewhere a placeholder nothing
    consults (the window is idle there and not written back). -/
def o2At (c : Dev nD) (t : Fin cfg0.N) : Vec F S1x8x128 .f32 :=
  if h15 : t.val % 16 = 15 then
    out0_C_2 c (grid0.coords t) (ms0_0 t) (hs0_0 t) (ms0_1 t) (hs0_1 t) (ms0_2 t) (hs0_2 t) (ms0_3 t) (hs0_3 t) scM0 hscM0 (notA_of_C t h15) ((hcondC t).mpr h15) (iblk m c 0 t) (iblk m c 1 t)
      (outsAt0 m c (t.val - 1) (Nat.lt_of_le_of_lt (Nat.sub_le _ _) t.isLt)).1 (outsAt0 m c (t.val - 1) (Nat.lt_of_le_of_lt (Nat.sub_le _ _) t.isLt)).2
  else VO2.read (Elt F) VO2.junk

/-- The invariant between points: before the first the launch's; afterwards the scratch at what the point before
    left and the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0 fullShare ((outsAt0 m c n hn).2)) ∗ (∃ r, prngReg c r)) := rfl
theorem PhiS_pos (c : Dev nD) (n : ℕ) (h : n ≤ cfg0.N) (hz : n ≠ 0) :
    PhiS m c n h = iprop(iprop(owns (c : Thread nD τ) scM0 fullShare ((outsAt0 m c (n - 1) (by omega)).2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => o2At m c t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = o2At m c t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- Away from a first tile the running sum's buffer holds what the point before left: its block is written back only
    after a last tile. -/
theorem before0_3 (c : Dev nD) (t : Fin cfg0.N) (h0 : ¬t.val % 16 = 0) (d) :
    (dats m 0 c).before 3 t d = (outsAt0 m c (t.val - 1) (Nat.lt_of_le_of_lt (Nat.sub_le _ _) t.isLt)).1 := by
  have ht : t.val ≠ 0 := fun h => h0 (by rw [h])
  rw [Dat.before_out_kept (dats m 0 c) 3 rfl t ht
    (by
      cases hfl : (cfg0.win 3).flush ⟨t.val - 1, Nat.lt_of_le_of_lt (Nat.sub_le _ _) t.isLt⟩ with
      | false => rfl
      | true => exact absurd ((flush0_3 _).mp hfl) (by dsimp only; omega))
    (fun _ => rfl) (fun _ _ => rfl) d, after0_3]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- Before any point the invariant yields the scratch at some contents and the generator register. -/
theorem Phi_start (c : Dev nD) (t : Fin cfg0.N) :
    (dats m 0 c).Φ t.castSucc ⊢ iprop(iprop(∃ d, owns (c : Thread nD τ) scM0 fullShare d) ∗ (∃ r, prngReg c r)) := by
  rw [PhiS_castSucc m c t]
  by_cases hz : t.val = 0
  · rw [PhiS_zero m c _ _ hz, PhiA0_eq]
  · rw [PhiS_pos m c _ _ hz]
    iintro ⟨HS, Hg⟩
    isplitl [HS]; · iexists _; iexact HS
    iexact Hg

set_option maxHeartbeats 4800000 in
/-- The body at any point: the inputs' memrefs hold their blocks; the point's residue mod 16 says which case it is in;
    away from a first tile the running sum's buffer and the scratch hold what the point before left; so the case's run
    applies, and what it leaves is the proof data's contents after the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 3 t = owns (c : Thread nD τ) (ms0_3 t) fullShare ((dats m 0 c).after 3 t) from by
      unfold Dat.leavesExact; rw [liveAt0_3 t], after0_3]
  by_cases h0 : t.val % 16 = 0
  · have hC := notC_of_A t h0
    rw [Dat.leavesExact_idle (dats m 0 c) 2 t (idleAt0_2 t hC) (noFlush0_2 t hC)]
    rw [outsAt0_A m c t h0]
    unfold stepA out0_A_3 sout0_A; (try dsimp only)
    refine (sep_mono (Phi_start m c t) .rfl).trans ?_
    iintro ⟨⟨⟨%ds, HS⟩, Hg⟩, Ho, ⟨%d0, H0⟩, ⟨%d1, H1⟩, H2, ⟨%d3, H3⟩⟩
    iapply ((kernelRun0_A c (grid0.coords t) _ _ _ _ _ _ _ _ _ _ ((hcondA t).mpr h0) hC (iblk m c 0 t) (iblk m c 1 t)).2.2 Set.univ _)
    isplitl [H0]; · iexact H0
    isplitl [H1]; · iexact H1
    isplitl [H3]; · iexists _; iexact H3
    isplitl [HS]; · iexists _; iexact HS
    iintro ⟨H0, H1, ⟨%e3, H3⟩, ⟨%es, HS⟩⟩
    isplitl [HS Hg]
    · isplitl [HS]
      · unfold owns; iexists _; isplitr
        swap; · iexact HS
        ipureintro; exact View.read_writes_of_cover _ _ _ _ _ (scover0_A c _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _ _ _)
  · have hA := notA_of t h0
    have hz : t.val ≠ 0 := fun h => h0 (by rw [h])
    rw [PhiS_castSucc m c t, PhiS_pos m c _ _ hz]
    simp only [before0_3 m c t h0]
    by_cases h15 : t.val % 16 = 15
    · have hC := (hcondC t).mpr h15
      rw [show (dats m 0 c).leavesExact 2 t = owns (c : Thread nD τ) (ms0_2 t) fullShare ((dats m 0 c).after 2 t) from by
          unfold Dat.leavesExact; rw [liveAt0_2 t hC], after0_2]
      rw [show o2At m c t = _ from dif_pos h15]
      rw [outsAt0_C m c t h15]
      unfold stepC out0_C_2 out0_C_3 sout0_C; (try dsimp only)
      iintro ⟨⟨HS, Hg⟩, Ho, ⟨%d0, H0⟩, ⟨%d1, H1⟩, ⟨%d2, H2⟩, ⟨%d3, H3⟩⟩
      iapply ((kernelRun0_C c (grid0.coords t) _ _ _ _ _ _ _ _ _ _ hA hC (iblk m c 0 t) (iblk m c 1 t) _ _).2.2.2 Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, HS⟩
      isplitl [HS Hg]
      · isplitl [HS]
        · unfold owns; iexists _; isplitr
          swap; · iexact HS
          ipureintro; rfl
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _)
    · have hC := notC_of t h15
      rw [Dat.leavesExact_idle (dats m 0 c) 2 t (idleAt0_2 t hC) (noFlush0_2 t hC)]
      rw [outsAt0_B m c t h0 h15]
      unfold stepB out0_B_3 sout0_B; (try dsimp only)
      iintro ⟨⟨HS, Hg⟩, Ho, ⟨%d0, H0⟩, ⟨%d1, H1⟩, H2, ⟨%d3, H3⟩⟩
      iapply ((kernelRun0_B c (grid0.coords t) _ _ _ _ _ _ _ _ _ _ hA hC (iblk m c 0 t) (iblk m c 1 t) _ _).2.2 Set.univ _)
      isplitl [H0]; · iexact H0
      isplitl [H1]; · iexact H1
      isplitl [H3]; · iexact H3
      isplitl [HS]; · iexact HS
      iintro ⟨H0, H1, H3, HS⟩
      isplitl [HS Hg]
      · isplitl [HS]
        · unfold owns; iexists _; isplitr
          swap; · iexact HS
          ipureintro; rfl
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_B_3 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the launch's back: the scratch's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA0_eq]
  iintro ⟨HS, Hg⟩
  isplitl [HS]
  · iexists _; iexact HS
  iexact Hg

/-! ## The run and the frame -/

set_option backward.isDefEq.respectTransparency.types false in
/-- Every weakly fair execution of the program terminates without a fault, every array of the pipeline ending at what
    the library computes from the proof data and every other unscoped buffer at what the host lines after the region
    make of them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's post: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Gen

end
-- ==== Proof.KIBase.lean ====
/-
  The frame of the program's one kernel, first part: what its three control cases share.

  The grid has 4 × 16 points, point t = 16·b + nb. The body branches on nb alone: at nb = 0 it resets the running
  sum (output window 3) to zero and the running column minimum (the scratch) to +∞; at every point it folds one tile
  of 512 target points into both; at nb = 15 it writes the column minima's sum into output window 2. So a point is
  in one of three cases — first tile (A), middle tile (B), last tile (C) — decided here in closed form over the grid,
  together with where output window 2 is idle. The loop over the four chunks of predicted points loads through a
  squeezed whole-slice view of the second input's staging buffer: that view has the buffer's location and element
  set (`v23_pts`), so the buffer's points-to can be handed to the loop's invariant and taken back.
-/
import proofs.«125768_j28200755266074_2_alg».proof.Proof.Gen.KernelIdeal.Frame
import proofs.«125768_j28200755266074_2_alg».proof.Proof.Gen.KernelIdeal.Loops
import Idealize.ShloMosaic.Lib.Pipeline.Value
import Idealize.ShloMosaic.Lib.Exec.Geometry

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem rect_unit_zero_set {S : Shape} {off : Fin S.rank → Nat} (h : off = fun _ => 0) (inb : ∀ a, off a + S.size a ≤ S.size a) :
    (Rect.unit off S.size inb).set = Finset.univ := by
  subst h; show (Rect.whole S).set = _; rw [Rect.set_whole]

theorem v23_set (arg3 : Memref sig .tc .vmem S1x3x8192 .f32) :
    ((arg3.slice (Rect.unit (s := S1x3x8192) ![0, 0, 0] S1x3x8192.size inb_S1x3x8192_S1x3x8192_0_0_0) (fun _ => rfl)).squeeze S3x8192 squeezes_S1x3x8192_S3x8192).view.set = arg3.view.set := by
  rw [Memref.set_view_squeeze]
  show (arg3.view.slice _).set = _
  rw [View.set_slice, rect_unit_zero_set (by funext a; fin_cases a <;> rfl)]
  rfl

/-- The points-to of a whole rank-3 staging buffer, restated over its squeezed whole-slice view (the view the loop's
    loads go through): same location, same element set. -/
theorem v23_pts (c : Dev nD) (arg3 : Memref sig .tc .vmem S1x3x8192 .f32) (f : BufTy.Contents (Elt F) arg3.view.ty) :
    (iprop(arg3.view.loc (c : Thread nD τ) ↦[arg3.view.set]{fullShare} f) : sProp 𝕄)
      = iprop(((arg3.slice (Rect.unit (s := S1x3x8192) ![0, 0, 0] S1x3x8192.size inb_S1x3x8192_S1x3x8192_0_0_0) (fun _ => rfl)).squeeze S3x8192 squeezes_S1x3x8192_S3x8192).view.loc (c : Thread nD τ) ↦[((arg3.slice (Rect.unit (s := S1x3x8192) ![0, 0, 0] S1x3x8192.size inb_S1x3x8192_S1x3x8192_0_0_0) (fun _ => rfl)).squeeze S3x8192 squeezes_S1x3x8192_S3x8192).view.set]{fullShare} f) := by
  rw [v23_set]

abbrev condA (i : grid0.Coords) : Prop := (Scalar.cmpi .ne (Scalar.extui (Scalar.cmpi .eq (BitVec.ofNat 32 (i 1).val) 0#32)) 0#32) = 1#1
abbrev condC (i : grid0.Coords) : Prop := k0_cond2 i = 1#1

/-- The first-tile condition holds exactly at the points ≡ 0 (mod 16). -/
theorem hcondA : ∀ t : Fin cfg0.N, condA (grid0.coords t) ↔ t.val % 16 = 0 :=
  (by decide +kernel : ∀ t : Fin grid0.N, condA (grid0.coords t) ↔ t.val % 16 = 0)
/-- The last-tile condition holds exactly at the points ≡ 15 (mod 16). -/
theorem hcondC : ∀ t : Fin cfg0.N, condC (grid0.coords t) ↔ t.val % 16 = 15 :=
  (by decide +kernel : ∀ t : Fin grid0.N, condC (grid0.coords t) ↔ t.val % 16 = 15)

/-- The two inputs and the running-sum output are live at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
/-- Output window 2 is idle, and not written back, away from the last tile; live there. -/
theorem idleAt0_2 : ∀ t : Fin cfg0.N, ¬condC (grid0.coords t) → cfg0.idle 2 (grid0.coords t) = true := by decide +kernel
theorem noFlush0_2 : ∀ t : Fin cfg0.N, ¬condC (grid0.coords t) → (cfg0.win 2).flush t = false := by decide +kernel
theorem liveAt0_2 : ∀ t : Fin cfg0.N, condC (grid0.coords t) → cfg0.idle 2 (grid0.coords t) = false := by decide +kernel

/-- Each window's current staging memref at point `t`, and its wholeness. -/
abbrev ms0_0 (t : Fin cfg0.N) : Memref sig .tc .vmem S1x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128 .f32 := win0_3.stage (cfg0.slots t 3)
abbrev hs0_3 (t : Fin cfg0.N) : (ms0_3 t).IsWhole := hstage0_3 ((cfg0.slots t 3).cast nbuf0_3)
/-- The scratch: a whole scoped buffer of the kernel's own. -/
abbrev scM0 : Memref sig .tc .vmem S1x8192 .f32 := Memref.whole cc0_scratch0
theorem hscM0 : (scM0).IsWhole := Memref.isWhole_whole _

/-- The launch's invariant with the scratch as a memref owned at some contents. -/
theorem PhiA0_eq (c : Dev nD) :
    (Pipeline.ΦA spec0 c : sProp 𝕄)
      = iprop(iprop((∃ d, owns (c : Thread nD τ) scM0 fullShare d)) ∗ (∃ r, prngReg c r)) := by
  unfold Pipeline.ΦA; rw [scopedRest0_eq]; simp only [scM0, owns_whole]; try rfl

end Cert.KernelIdeal.Gen

end
-- ==== Proof.KIRunA.lean ====
/-
  The frame of the program's one kernel: the body's run in control case A (first tile) (the pieces each buffer ends with are what
  the run finds; the loop over the four chunks goes by its generated invariant).
-/
import proofs.«125768_j28200755266074_2_alg».proof.Proof.KIBase

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first-tile point: the inputs at their blocks, the running sum and the scratch found at anything and left with the pieces the run finds (each list holds a store of the whole shape, so what is left does not depend on what was found). Output window 2 is not touched and stays in the frame. -/
noncomputable def kernelRun0_A (c : Dev nD) (i : grid0.Coords) (arg2 : Memref sig .tc .vmem S1x512x3 .f32) (harg2 : arg2.IsWhole) (arg3 : Memref sig .tc .vmem S1x3x8192 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8192 .f32) (harg6 : arg6.IsWhole) (hcA : condA i) (hcC : ¬condC i)
    (x0 : Vec F S1x512x3 .f32) (x1 : Vec F S1x3x8192 .f32) :
    Σ' (L3 : List (View.Piece (Elt F) S1x8x128 .f32)), { LS : List (View.Piece (Elt F) S1x8192 .f32) //
      ∀ (E : Set ℕ) (K : PUnit → sProp 𝕄),
        iprop(owns (c : Thread nD τ) arg2 fullShare x0 ∗ owns (c : Thread nD τ) arg3 fullShare x1 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d3, %f3, -, H3⟩, ⟨%ds, %fs, -, HS⟩, Hk⟩
    obtain rfl := harg2.eq_unread hf0; obtain rfl := harg3.eq_unread hf1
    ihave H1 := (Entails.of_eq (v23_pts (F := F) c arg3 (harg3.unread x1))) $$ H1
    sl_exec (disch := first | exact hcA | exact hcC)
    sl_step
    ihave H1 := (Entails.of_eq (v23_pts (F := F) c arg3 (harg3.unread x1)).symm) $$ H1
    iapply Hk
    isplitl [H0]
    · iexists _; isplitr; · ipureintro; exact harg2.read_unread _
      iexact H0
    isplitl [H1]
    · iexists _; isplitr; · ipureintro; exact harg3.read_unread _
      iexact H1
    isplitl [H3]; · iexists _; iexact H3
    iexists _; iexact HS

end Cert.KernelIdeal.Gen

end
-- ==== Proof.KIRunB.lean ====
/-
  The frame of the program's one kernel: the body's run in control case B (middle tile) (the pieces each buffer ends with are what
  the run finds; the loop over the four chunks goes by its generated invariant).
-/
import proofs.«125768_j28200755266074_2_alg».proof.Proof.KIBase

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle-tile point: the inputs at their blocks, the running sum and the scratch found at the contents the point before left and left with the run's pieces written over them. Output window 2 is not touched and stays in the frame. -/
noncomputable def kernelRun0_B (c : Dev nD) (i : grid0.Coords) (arg2 : Memref sig .tc .vmem S1x512x3 .f32) (harg2 : arg2.IsWhole) (arg3 : Memref sig .tc .vmem S1x3x8192 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8192 .f32) (harg6 : arg6.IsWhole) (hcA : ¬condA i) (hcC : ¬condC i)
    (x0 : Vec F S1x512x3 .f32) (x1 : Vec F S1x3x8192 .f32) (y3 : Vec F S1x8x128 .f32) (xs : Vec F S1x8192 .f32) :
    Σ' (L3 : List (View.Piece (Elt F) S1x8x128 .f32)), { LS : List (View.Piece (Elt F) S1x8192 .f32) //
      ∀ (E : Set ℕ) (K : PUnit → sProp 𝕄),
        iprop(owns (c : Thread nD τ) arg2 fullShare x0 ∗ owns (c : Thread nD τ) arg3 fullShare x1 ∗ owns (c : Thread nD τ) arg5 fullShare y3 ∗ owns (c : Thread nD τ) arg6 fullShare xs
            ∗ (iprop(owns (c : Thread nD τ) arg2 fullShare x0 ∗ owns (c : Thread nD τ) arg3 fullShare x1 ∗ (arg5.view.loc (c : Thread nD τ) ↦[arg5.view.set]{fullShare} arg5.view.writes (Elt F) (harg5.unread y3) L3) ∗ (arg6.view.loc (c : Thread nD τ) ↦[arg6.view.set]{fullShare} arg6.view.writes (Elt F) (harg6.unread xs) LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%f3, %hf3, H3⟩, ⟨%fs, %hfs, HS⟩, Hk⟩
    obtain rfl := harg2.eq_unread hf0; obtain rfl := harg3.eq_unread hf1; obtain rfl := harg5.eq_unread hf3; obtain rfl := harg6.eq_unread hfs
    ihave H1 := (Entails.of_eq (v23_pts (F := F) c arg3 (harg3.unread x1))) $$ H1
    sl_exec (disch := first | exact hcA | exact hcC)
    sl_step
    ihave H1 := (Entails.of_eq (v23_pts (F := F) c arg3 (harg3.unread x1)).symm) $$ H1
    iapply Hk
    isplitl [H0]
    · iexists _; isplitr; · ipureintro; exact harg2.read_unread _
      iexact H0
    isplitl [H1]
    · iexists _; isplitr; · ipureintro; exact harg3.read_unread _
      iexact H1
    isplitl [H3]; · iexact H3
    iexact HS

end Cert.KernelIdeal.Gen

end
-- ==== Proof.KIRunC.lean ====
/-
  The frame of the program's one kernel: the body's run in control case C (last tile) (the pieces each buffer ends with are what
  the run finds; the loop over the four chunks goes by its generated invariant).
-/
import proofs.«125768_j28200755266074_2_alg».proof.Proof.KIBase

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a last-tile point: as at a middle tile, and output window 2, found at anything, left with the run's pieces (one store of its whole shape). -/
noncomputable def kernelRun0_C (c : Dev nD) (i : grid0.Coords) (arg2 : Memref sig .tc .vmem S1x512x3 .f32) (harg2 : arg2.IsWhole) (arg3 : Memref sig .tc .vmem S1x3x8192 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8192 .f32) (harg6 : arg6.IsWhole) (hcA : ¬condA i) (hcC : condC i)
    (x0 : Vec F S1x512x3 .f32) (x1 : Vec F S1x3x8192 .f32) (y3 : Vec F S1x8x128 .f32) (xs : Vec F S1x8192 .f32) :
    Σ' (L2 : List (View.Piece (Elt F) S1x8x128 .f32)) (L3 : List (View.Piece (Elt F) S1x8x128 .f32)), { LS : List (View.Piece (Elt F) S1x8192 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare y3 ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (arg5.view.loc (c : Thread nD τ) ↦[arg5.view.set]{fullShare} arg5.view.writes (Elt F) (harg5.unread y3) L3) ∗ (arg6.view.loc (c : Thread nD τ) ↦[arg6.view.set]{fullShare} arg6.view.writes (Elt F) (harg6.unread xs) LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%f3, %hf3, H3⟩, ⟨%fs, %hfs, HS⟩, Hk⟩
    obtain rfl := harg2.eq_unread hf0; obtain rfl := harg3.eq_unread hf1; obtain rfl := harg5.eq_unread hf3; obtain rfl := harg6.eq_unread hfs
    ihave H1 := (Entails.of_eq (v23_pts (F := F) c arg3 (harg3.unread x1))) $$ H1
    sl_exec (disch := first | exact hcA | exact hcC)
    sl_step
    ihave H1 := (Entails.of_eq (v23_pts (F := F) c arg3 (harg3.unread x1)).symm) $$ H1
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexact H3
    iexact HS

end Cert.KernelIdeal.Gen

end
-- ==== Proof.KIFrame.lean ====
/-
  The frame of the program's one kernel, last part: what the running sum (output window 3), the column-minimum
  scratch and output window 2 hold after each grid point, by recursion on the point; the pipeline's proof data over
  it; the body obligation, case by case; the run of the whole program; and the frame claim's post.

  After point t the running sum and the scratch are what the point's case leaves: at a first tile (t ≡ 0 mod 16) the
  case's pieces over anything (each list holds a store of the whole shape), at a middle or last tile the case's pieces
  over what point t − 1 left. The invariant carried between points holds the scratch at exactly that. Output window 2
  is idle until a last tile (t ≡ 15), where it takes the case's one whole store.
-/
import proofs.«125768_j28200755266074_2_alg».proof.Proof.KIRunA
import proofs.«125768_j28200755266074_2_alg».proof.Proof.KIRunB
import proofs.«125768_j28200755266074_2_alg».proof.Proof.KIRunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of each output window, through which its contents are stated (the choice does not matter
    where the pieces cover the shape). -/
abbrev VO2 : View sig .tc .vmem S1x8x128 .f32 := (Memref.whole cc0_stg2_0 : Memref sig .tc .vmem S1x8x128 .f32).view
abbrev VO3 : View sig .tc .vmem S1x8x128 .f32 := (Memref.whole cc0_stg3_0 : Memref sig .tc .vmem S1x8x128 .f32).view
abbrev VS0 : View sig .tc .vmem S1x8192 .f32 := scM0.view

/-! ## What each case leaves -/

section Cases
variable (c : Dev nD) (i : grid0.Coords) (arg2 : Memref sig .tc .vmem S1x512x3 .f32) (harg2 : arg2.IsWhole) (arg3 : Memref sig .tc .vmem S1x3x8192 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8192 .f32) (harg6 : arg6.IsWhole)

theorem cover0_A_3 (hcA : condA i) (hcC : ¬condC i) (x0 : Vec F S1x512x3 .f32) (x1 : Vec F S1x3x8192 .f32) (y : S1x8x128.Idx) :
    ∃ pc ∈ (kernelRun0_A c i arg2 harg2 arg3 harg3 arg4 harg4 arg5 harg5 arg6 harg6 hcA hcC x0 x1).1, y ∈ pc.1.set :=
  View.cover_of_wholeMem _ (by sl_whole_mem) y
/-- The running sum after a first tile. -/
def out0_A_3 (hcA : condA i) (hcC : ¬condC i) (x0 : Vec F S1x512x3 .f32) (x1 : Vec F S1x3x8192 .f32) : Vec F S1x8x128 .f32 :=
  VO3.read (Elt F) (VO3.writes (Elt F) VO3.junk (kernelRun0_A c i arg2 harg2 arg3 harg3 arg4 harg4 arg5 harg5 arg6 harg6 hcA hcC x0 x1).1)
theorem scover0_A (hcA : condA i) (hcC : ¬condC i) (x0 : Vec F S1x512x3 .f32) (x1 : Vec F S1x3x8192 .f32) (y : S1x8192.Idx) :
    ∃ pc ∈ (kernelRun0_A c i arg2 harg2 arg3 harg3 arg4 harg4 arg5 harg5 arg6 harg6 hcA hcC x0 x1).2.1, y ∈ pc.1.set :=
  View.cover_of_wholeMem _ (by sl_whole_mem) y
/-- The scratch after a first tile. -/
def sout0_A (hcA : condA i) (hcC : ¬condC i) (x0 : Vec F S1x512x3 .f32) (x1 : Vec F S1x3x8192 .f32) : Vec F S1x8192 .f32 :=
  VS0.read (Elt F) (VS0.writes (Elt F) VS0.junk (kernelRun0_A c i arg2 harg2 arg3 harg3 arg4 harg4 arg5 harg5 arg6 harg6 hcA hcC x0 x1).2.1)

theorem cover0_B_3 (hcA : ¬condA i) (hcC : ¬condC i) (x0 : Vec F S1x512x3 .f32) (x1 : Vec F S1x3x8192 .f32) (y3 : Vec F S1x8x128 .f32) (xs : Vec F S1x8192 .f32) (y : S1x8x128.Idx) :
    ∃ pc ∈ (kernelRun0_B c i arg2 harg2 arg3 harg3 arg4 harg4 arg5 harg5 arg6 harg6 hcA hcC x0 x1 y3 xs).1, y ∈ pc.1.set :=
  View.cover_of_wholeMem _ (by sl_whole_mem) y
/-- The running sum after a middle tile. -/
def out0_B_3 (hcA : ¬condA i) (hcC : ¬condC i) (x0 : Vec F S1x512x3 .f32) (x1 : Vec F S1x3x8192 .f32) (y3 : Vec F S1x8x128 .f32) (xs : Vec F S1x8192 .f32) : Vec F S1x8x128 .f32 :=
  VO3.read (Elt F) (VO3.writes (Elt F) VO3.junk (kernelRun0_B c i arg2 harg2 arg3 harg3 arg4 harg4 arg5 harg5 arg6 harg6 hcA hcC x0 x1 y3 xs).1)
/-- The scratch after a middle tile: the case's pieces over what it was found at. -/
def sout0_B (hcA : ¬condA i) (hcC : ¬condC i) (x0 : Vec F S1x512x3 .f32) (x1 : Vec F S1x3x8192 .f32) (y3 : Vec F S1x8x128 .f32) (xs : Vec F S1x8192 .f32) : Vec F S1x8192 .f32 :=
  arg6.view.read (Elt F) (arg6.view.writes (Elt F) (harg6.unread xs) (kernelRun0_B c i arg2 harg2 arg3 harg3 arg4 harg4 arg5 harg5 arg6 harg6 hcA hcC x0 x1 y3 xs).2.1)

theorem cover0_C_2 (hcA : ¬condA i) (hcC : condC i) (x0 : Vec F S1x512x3 .f32) (x1 : Vec F S1x3x8192 .f32) (y3 : Vec F S1x8x128 .f32) (xs : Vec F S1x8192 .f32) (y : S1x8x128.Idx) :
    ∃ pc ∈ (kernelRun0_C c i arg2 harg2 arg3 harg3 arg4 harg4 arg5 harg5 arg6 harg6 hcA hcC x0 x1 y3 xs).1, y ∈ pc.1.set :=
  View.cover_of_wholeMem _ (by sl_whole_mem) y
/-- Output window 2 after a last tile. -/
def out0_C_2 (hcA : ¬condA i) (hcC : condC i) (x0 : Vec F S1x512x3 .f32) (x1 : Vec F S1x3x8192 .f32) (y3 : Vec F S1x8x128 .f32) (xs : Vec F S1x8192 .f32) : Vec F S1x8x128 .f32 :=
  VO2.read (Elt F) (VO2.writes (Elt F) VO2.junk (kernelRun0_C c i arg2 harg2 arg3 harg3 arg4 harg4 arg5 harg5 arg6 harg6 hcA hcC x0 x1 y3 xs).1)
theorem cover0_C_3 (hcA : ¬condA i) (hcC : condC i) (x0 : Vec F S1x512x3 .f32) (x1 : Vec F S1x3x8192 .f32) (y3 : Vec F S1x8x128 .f32) (xs : Vec F S1x8192 .f32) (y : S1x8x128.Idx) :
    ∃ pc ∈ (kernelRun0_C c i arg2 harg2 arg3 harg3 arg4 harg4 arg5 harg5 arg6 harg6 hcA hcC x0 x1 y3 xs).2.1, y ∈ pc.1.set :=
  View.cover_of_wholeMem _ (by sl_whole_mem) y
/-- The running sum after a last tile. -/
def out0_C_3 (hcA : ¬condA i) (hcC : condC i) (x0 : Vec F S1x512x3 .f32) (x1 : Vec F S1x3x8192 .f32) (y3 : Vec F S1x8x128 .f32) (xs : Vec F S1x8192 .f32) : Vec F S1x8x128 .f32 :=
  VO3.read (Elt F) (VO3.writes (Elt F) VO3.junk (kernelRun0_C c i arg2 harg2 arg3 harg3 arg4 harg4 arg5 harg5 arg6 harg6 hcA hcC x0 x1 y3 xs).2.1)
/-- The scratch after a last tile. -/
def sout0_C (hcA : ¬condA i) (hcC : condC i) (x0 : Vec F S1x512x3 .f32) (x1 : Vec F S1x3x8192 .f32) (y3 : Vec F S1x8x128 .f32) (xs : Vec F S1x8192 .f32) : Vec F S1x8192 .f32 :=
  arg6.view.read (Elt F) (arg6.view.writes (Elt F) (harg6.unread xs) (kernelRun0_C c i arg2 harg2 arg3 harg3 arg4 harg4 arg5 harg5 arg6 harg6 hcA hcC x0 x1 y3 xs).2.2.1)

end Cases

/-! ## What the buffers hold after each point -/

theorem notC_of_A (t : Fin cfg0.N) (h0 : t.val % 16 = 0) : ¬condC (grid0.coords t) := fun h => by
  have := (hcondC t).mp h; omega
theorem notA_of (t : Fin cfg0.N) (h0 : ¬t.val % 16 = 0) : ¬condA (grid0.coords t) := fun h => h0 ((hcondA t).mp h)
theorem notC_of (t : Fin cfg0.N) (h15 : ¬t.val % 16 = 15) : ¬condC (grid0.coords t) := fun h => h15 ((hcondC t).mp h)
theorem notA_of_C (t : Fin cfg0.N) (h15 : t.val % 16 = 15) : ¬condA (grid0.coords t) := fun h => by
  have := (hcondA t).mp h; omega

/-- The running sum and the scratch after a first-tile point. -/
def stepA (c : Dev nD) (t : Fin cfg0.N) (h0 : t.val % 16 = 0) : Vec F S1x8x128 .f32 × Vec F S1x8192 .f32 :=
  (out0_A_3 c (grid0.coords t) (ms0_0 t) (hs0_0 t) (ms0_1 t) (hs0_1 t) (ms0_2 t) (hs0_2 t) (ms0_3 t) (hs0_3 t) scM0 hscM0 ((hcondA t).mpr h0) (notC_of_A t h0) (iblk m c 0 t) (iblk m c 1 t),
   sout0_A c (grid0.coords t) (ms0_0 t) (hs0_0 t) (ms0_1 t) (hs0_1 t) (ms0_2 t) (hs0_2 t) (ms0_3 t) (hs0_3 t) scM0 hscM0 ((hcondA t).mpr h0) (notC_of_A t h0) (iblk m c 0 t) (iblk m c 1 t))
/-- After a middle-tile point, over what the point before left. -/
def stepB (c : Dev nD) (t : Fin cfg0.N) (h0 : ¬t.val % 16 = 0) (h15 : ¬t.val % 16 = 15) (prev : Vec F S1x8x128 .f32 × Vec F S1x8192 .f32) :
    Vec F S1x8x128 .f32 × Vec F S1x8192 .f32 :=
  (out0_B_3 c (grid0.coords t) (ms0_0 t) (hs0_0 t) (ms0_1 t) (hs0_1 t) (ms0_2 t) (hs0_2 t) (ms0_3 t) (hs0_3 t) scM0 hscM0 (notA_of t h0) (notC_of t h15) (iblk m c 0 t) (iblk m c 1 t) prev.1 prev.2,
   sout0_B c (grid0.coords t) (ms0_0 t) (hs0_0 t) (ms0_1 t) (hs0_1 t) (ms0_2 t) (hs0_2 t) (ms0_3 t) (hs0_3 t) scM0 hscM0 (notA_of t h0) (notC_of t h15) (iblk m c 0 t) (iblk m c 1 t) prev.1 prev.2)
/-- After a last-tile point, over what the point before left. -/
def stepC (c : Dev nD) (t : Fin cfg0.N) (h15 : t.val % 16 = 15) (prev : Vec F S1x8x128 .f32 × Vec F S1x8192 .f32) :
    Vec F S1x8x128 .f32 × Vec F S1x8192 .f32 :=
  (out0_C_3 c (grid0.coords t) (ms0_0 t) (hs0_0 t) (ms0_1 t) (hs0_1 t) (ms0_2 t) (hs0_2 t) (ms0_3 t) (hs0_3 t) scM0 hscM0 (notA_of_C t h15) ((hcondC t).mpr h15) (iblk m c 0 t) (iblk m c 1 t) prev.1 prev.2,
   sout0_C c (grid0.coords t) (ms0_0 t) (hs0_0 t) (ms0_1 t) (hs0_1 t) (ms0_2 t) (hs0_2 t) (ms0_3 t) (hs0_3 t) scM0 hscM0 (notA_of_C t h15) ((hcondC t).mpr h15) (iblk m c 0 t) (iblk m c 1 t) prev.1 prev.2)

/-- The running sum and the scratch after the body at position `n`. -/
def outsAt0 (c : Dev nD) : (n : ℕ) → n < cfg0.N → Vec F S1x8x128 .f32 × Vec F S1x8192 .f32
  | 0, hn => stepA m c ⟨0, hn⟩ (Nat.zero_mod _)
  | n + 1, hn =>
    if h0 : (n + 1) % 16 = 0 then stepA m c ⟨n + 1, hn⟩ h0
    else if h15 : (n + 1) % 16 = 15 then stepC m c ⟨n + 1, hn⟩ h15 (outsAt0 c n (Nat.lt_of_succ_lt hn))
    else stepB m c ⟨n + 1, hn⟩ h0 h15 (outsAt0 c n (Nat.lt_of_succ_lt hn))

theorem outsAt0_A (c : Dev nD) (t : Fin cfg0.N) (h0 : t.val % 16 = 0) : outsAt0 m c t.val t.isLt = stepA m c t h0 := by
  obtain ⟨n, hn⟩ := t
  cases n with
  | zero => rfl
  | succ n => exact dif_pos h0
theorem outsAt0_B (c : Dev nD) (t : Fin cfg0.N) (h0 : ¬t.val % 16 = 0) (h15 : ¬t.val % 16 = 15) :
    outsAt0 m c t.val t.isLt = stepB m c t h0 h15 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h15).trans rfl)
theorem outsAt0_C (c : Dev nD) (t : Fin cfg0.N) (h15 : t.val % 16 = 15) :
    outsAt0 m c t.val t.isLt = stepC m c t h15 (outsAt0 m c (t.val - 1) (Nat.lt_of_le_of_lt (Nat.sub_le _ _) t.isLt)) := by
  obtain ⟨n, hn⟩ := t
  cases n with
  | zero => exact absurd (show (0 : ℕ) % 16 = 15 from h15) (by decide)
  | succ n =>
    have h15' : (n + 1) % 16 = 15 := h15
    exact (dif_neg (by omega)).trans ((dif_pos h15).trans rfl)

/-- Output window 2 after the body at point `t`: at a last tile the case's whole store; elsewhere a placeholder nothing
    consults (the window is idle there and not written back). -/
def o2At (c : Dev nD) (t : Fin cfg0.N) : Vec F S1x8x128 .f32 :=
  if h15 : t.val % 16 = 15 then
    out0_C_2 c (grid0.coords t) (ms0_0 t) (hs0_0 t) (ms0_1 t) (hs0_1 t) (ms0_2 t) (hs0_2 t) (ms0_3 t) (hs0_3 t) scM0 hscM0 (notA_of_C t h15) ((hcondC t).mpr h15) (iblk m c 0 t) (iblk m c 1 t)
      (outsAt0 m c (t.val - 1) (Nat.lt_of_le_of_lt (Nat.sub_le _ _) t.isLt)).1 (outsAt0 m c (t.val - 1) (Nat.lt_of_le_of_lt (Nat.sub_le _ _) t.isLt)).2
  else VO2.read (Elt F) VO2.junk

/-- The invariant between points: before the first the launch's; afterwards the scratch at what the point before
    left and the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0 fullShare ((outsAt0 m c n hn).2)) ∗ (∃ r, prngReg c r)) := rfl
theorem PhiS_pos (c : Dev nD) (n : ℕ) (h : n ≤ cfg0.N) (hz : n ≠ 0) :
    PhiS m c n h = iprop(iprop(owns (c : Thread nD τ) scM0 fullShare ((outsAt0 m c (n - 1) (by omega)).2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => o2At m c t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = o2At m c t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- Away from a first tile the running sum's buffer holds what the point before left: its block is written back only
    after a last tile. -/
theorem before0_3 (c : Dev nD) (t : Fin cfg0.N) (h0 : ¬t.val % 16 = 0) (d) :
    (dats m 0 c).before 3 t d = (outsAt0 m c (t.val - 1) (Nat.lt_of_le_of_lt (Nat.sub_le _ _) t.isLt)).1 := by
  have ht : t.val ≠ 0 := fun h => h0 (by rw [h])
  rw [Dat.before_out_kept (dats m 0 c) 3 rfl t ht
    (by
      cases hfl : (cfg0.win 3).flush ⟨t.val - 1, Nat.lt_of_le_of_lt (Nat.sub_le _ _) t.isLt⟩ with
      | false => rfl
      | true => exact absurd ((flush0_3 _).mp hfl) (by dsimp only; omega))
    (fun _ => rfl) (fun _ _ => rfl) d, after0_3]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- Before any point the invariant yields the scratch at some contents and the generator register. -/
theorem Phi_start (c : Dev nD) (t : Fin cfg0.N) :
    (dats m 0 c).Φ t.castSucc ⊢ iprop(iprop(∃ d, owns (c : Thread nD τ) scM0 fullShare d) ∗ (∃ r, prngReg c r)) := by
  rw [PhiS_castSucc m c t]
  by_cases hz : t.val = 0
  · rw [PhiS_zero m c _ _ hz, PhiA0_eq]
  · rw [PhiS_pos m c _ _ hz]
    iintro ⟨HS, Hg⟩
    isplitl [HS]; · iexists _; iexact HS
    iexact Hg

set_option maxHeartbeats 4800000 in
/-- The body at any point: the inputs' memrefs hold their blocks; the point's residue mod 16 says which case it is in;
    away from a first tile the running sum's buffer and the scratch hold what the point before left; so the case's run
    applies, and what it leaves is the proof data's contents after the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 3 t = owns (c : Thread nD τ) (ms0_3 t) fullShare ((dats m 0 c).after 3 t) from by
      unfold Dat.leavesExact; rw [liveAt0_3 t], after0_3]
  by_cases h0 : t.val % 16 = 0
  · have hC := notC_of_A t h0
    rw [Dat.leavesExact_idle (dats m 0 c) 2 t (idleAt0_2 t hC) (noFlush0_2 t hC)]
    rw [outsAt0_A m c t h0]
    unfold stepA out0_A_3 sout0_A; (try dsimp only)
    refine (sep_mono (Phi_start m c t) .rfl).trans ?_
    iintro ⟨⟨⟨%ds, HS⟩, Hg⟩, Ho, ⟨%d0, H0⟩, ⟨%d1, H1⟩, H2, ⟨%d3, H3⟩⟩
    iapply ((kernelRun0_A c (grid0.coords t) _ _ _ _ _ _ _ _ _ _ ((hcondA t).mpr h0) hC (iblk m c 0 t) (iblk m c 1 t)).2.2 Set.univ _)
    isplitl [H0]; · iexact H0
    isplitl [H1]; · iexact H1
    isplitl [H3]; · iexists _; iexact H3
    isplitl [HS]; · iexists _; iexact HS
    iintro ⟨H0, H1, ⟨%e3, H3⟩, ⟨%es, HS⟩⟩
    isplitl [HS Hg]
    · isplitl [HS]
      · unfold owns; iexists _; isplitr
        swap; · iexact HS
        ipureintro; exact View.read_writes_of_cover _ _ _ _ _ (scover0_A c _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _ _ _)
  · have hA := notA_of t h0
    have hz : t.val ≠ 0 := fun h => h0 (by rw [h])
    rw [PhiS_castSucc m c t, PhiS_pos m c _ _ hz]
    simp only [before0_3 m c t h0]
    by_cases h15 : t.val % 16 = 15
    · have hC := (hcondC t).mpr h15
      rw [show (dats m 0 c).leavesExact 2 t = owns (c : Thread nD τ) (ms0_2 t) fullShare ((dats m 0 c).after 2 t) from by
          unfold Dat.leavesExact; rw [liveAt0_2 t hC], after0_2]
      rw [show o2At m c t = _ from dif_pos h15]
      rw [outsAt0_C m c t h15]
      unfold stepC out0_C_2 out0_C_3 sout0_C; (try dsimp only)
      iintro ⟨⟨HS, Hg⟩, Ho, ⟨%d0, H0⟩, ⟨%d1, H1⟩, ⟨%d2, H2⟩, ⟨%d3, H3⟩⟩
      iapply ((kernelRun0_C c (grid0.coords t) _ _ _ _ _ _ _ _ _ _ hA hC (iblk m c 0 t) (iblk m c 1 t) _ _).2.2.2 Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, HS⟩
      isplitl [HS Hg]
      · isplitl [HS]
        · unfold owns; iexists _; isplitr
          swap; · iexact HS
          ipureintro; rfl
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _)
    · have hC := notC_of t h15
      rw [Dat.leavesExact_idle (dats m 0 c) 2 t (idleAt0_2 t hC) (noFlush0_2 t hC)]
      rw [outsAt0_B m c t h0 h15]
      unfold stepB out0_B_3 sout0_B; (try dsimp only)
      iintro ⟨⟨HS, Hg⟩, Ho, ⟨%d0, H0⟩, ⟨%d1, H1⟩, H2, ⟨%d3, H3⟩⟩
      iapply ((kernelRun0_B c (grid0.coords t) _ _ _ _ _ _ _ _ _ _ hA hC (iblk m c 0 t) (iblk m c 1 t) _ _).2.2 Set.univ _)
      isplitl [H0]; · iexact H0
      isplitl [H1]; · iexact H1
      isplitl [H3]; · iexact H3
      isplitl [HS]; · iexact HS
      iintro ⟨H0, H1, H3, HS⟩
      isplitl [HS Hg]
      · isplitl [HS]
        · unfold owns; iexists _; isplitr
          swap; · iexact HS
          ipureintro; rfl
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_B_3 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the launch's back: the scratch's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA0_eq]
  iintro ⟨HS, Hg⟩
  isplitl [HS]
  · iexists _; iexact HS
  iexact Hg

/-! ## The run and the frame -/

set_option backward.isDefEq.respectTransparency.types false in
/-- Every weakly fair execution of the program terminates without a fault, every array of the pipeline ending at what
    the library computes from the proof data and every other unscoped buffer at what the host lines after the region
    make of them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's post: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Gen

end
-- ==== Proof.KIBlocks.lean ====
/-
  The two input blocks at a grid point, entry by entry. At point t = 16·b + nb the first window's block is rows
  512·nb … 512·nb + 511 of batch b of the target points, and the second window's block is batch b of the TRANSPOSED
  predicted points, the array the one host operation before the region writes: its entry (b, d, j) is coordinate d of
  predicted point j.
-/
import proofs.«125768_j28200755266074_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The printed index maps of the two input windows, decided over the grid. -/
theorem idx_facts_in : ∀ t : Fin cfg0.N, win0_0.index t (0 : Fin 3) = t.val / 16 ∧ win0_0.index t (1 : Fin 3) = t.val % 16
    ∧ win0_0.index t (2 : Fin 3) = 0 ∧ win0_1.index t (0 : Fin 3) = t.val / 16 ∧ win0_1.index t (1 : Fin 3) = 0
    ∧ win0_1.index t (2 : Fin 3) = 0 :=
  (by decide +kernel : ∀ t : Fin grid0.N, _)

/-- The first window's block at point `t`, at row `r` and coordinate `d`: the target array at batch t / 16, row
    512·(t mod 16) + r. -/
theorem iblk0_apply (c : Dev nD) (t : Fin cfg0.N) (r : Fin 512) (d : Fin 3) (i : S4x8192x3.Idx)
    (h0 : (i 0).val = t.val / 16) (h1 : (i 1).val = 512 * (t.val % 16) + r.val) (h2 : (i 2).val = d.val) :
    iblk m c 0 t (ix3 0 r d) = V m c main_arg1 i := by
  unfold iblk
  show V m c main_arg1 (((cfg0.win 0).blk t).view.emb (ix3 0 r d)) = V m c main_arg1 i
  obtain ⟨e0, e1, e2, -, -, -⟩ := idx_facts_in t
  refine congrArg _ (funext fun a => Fin.ext ?_)
  match a with
  | ⟨0, _⟩ => show win0_0.index t (0 : Fin 3) * 1 + 1 * 0 = (i 0).val; omega
  | ⟨1, _⟩ => show win0_0.index t (1 : Fin 3) * 512 + 1 * r.val = (i 1).val; omega
  | ⟨2, _⟩ => show win0_0.index t (2 : Fin 3) * 3 + 1 * d.val = (i 2).val; omega

/-- The second window's block at point `t`, at coordinate `d` and column `j`: the transposed array at batch t / 16. -/
theorem iblk1_apply (c : Dev nD) (t : Fin cfg0.N) (d : Fin 3) (j : Fin 8192) (i : S4x3x8192.Idx)
    (h0 : (i 0).val = t.val / 16) (h1 : (i 1).val = d.val) (h2 : (i 2).val = j.val) :
    iblk m c 1 t (ix3 0 d j) = V m c main_v0 i := by
  unfold iblk
  show V m c main_v0 (((cfg0.win 1).blk t).view.emb (ix3 0 d j)) = V m c main_v0 i
  obtain ⟨-, -, -, e0, e1, e2⟩ := idx_facts_in t
  refine congrArg _ (funext fun a => Fin.ext ?_)
  match a with
  | ⟨0, _⟩ => show win0_1.index t (0 : Fin 3) * 1 + 1 * 0 = (i 0).val; omega
  | ⟨1, _⟩ => show win0_1.index t (1 : Fin 3) * 3 + 1 * d.val = (i 1).val; omega
  | ⟨2, _⟩ => show win0_1.index t (2 : Fin 3) * 8192 + 1 * j.val = (i 2).val; omega

/-- The transposed array the region finds: the one host operation before it applied to the first argument. -/
theorem V_main_v0 (c : Dev nD) :
    (V m c main_v0 : S4x3x8192.Idx → Elt F .f32)
      = transpose S4x3x8192 [0, 2, 1] (m ((c : Thread nD τ).loc main_arg0)) transposes_S4x8192x3_S4x3x8192_0_2_1 := by
  show StableHlo.after hostOps0 (fun b => m (c, b)) (Proc.devRef .tc main_v0) = _
  after_results

/-- Read at an entry: coordinate `d` of predicted point `j` of batch `b`. -/
theorem V_main_v0_apply (c : Dev nD) (b : Fin 4) (d : Fin 3) (j : Fin 8192) :
    V m c main_v0 (ix3 b d j) = m ((c : Thread nD τ).loc main_arg0) (ix3 b j d) := by
  rw [V_main_v0]
  exact transpose_ix3_021_apply _ _ b d j

end Cert.KernelIdeal.Gen

end
-- ==== Proof.LibKeepdimsMin.lean ====
/-
  General reading lemmas for keepdims layouts and one-axis reductions at the ideal values, over any extents.

  * Casts that only add unit axes read the operand at the same coordinate: `[a] → [a, 1]`, `[a] → [1, a, 1]`.
  * A column `[a, 1]` broadcast along its unit axis to `[a, b]` reads, at `(p, c)`, the column at `p`.
  * The sum over the three lanes of an `[n, 3]` array at row `r` is the `Fin 3`-indexed sum of that row.
  * A `minimumf` reduction over ONE axis is, at each result index, the fold of `min` from the accumulator's value over
    that axis's coordinates (the counterpart of the library's statement for `maximumf`); for an `[a, b]` table from +∞:
    the minimum over the columns at a row, and the minimum over the rows at a column.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib.KeepdimsMin

open Idealize.ShloMosaic Idealize.ShloMosaic.ValueIdx

/-! ## Layout operations at coordinates -/

section Layout
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array cast to `[1, a, 1]` reads, at `(u, i, w)`, the operand at `i`. -/
theorem shapeCast_a_1a1_apply {a : ℕ} (x : (⟨1, ![a]⟩ : Shape).Idx → α) (h : (⟨1, ![a]⟩ : Shape).ShapeCasts ⟨3, ![1, a, 1]⟩)
    (u : Fin 1) (i : Fin a) (w : Fin 1) : shapeCast ⟨3, ![1, a, 1]⟩ x h (ix3 u i w) = x (ix1 i) :=
  shapeCast_apply x h _ _ (by
    have hu : u.val = 0 := by omega
    have hw : w.val = 0 := by omega
    rw [Shape.rowMajor_val_three, Shape.rowMajor_val_one]
    show i.val = (u.val * a + i.val) * 1 + w.val
    rw [hu, hw, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Reductions over one axis at coordinates -/

/-- The sum over the three lanes of an `[n, 3]` array, at row `r`. -/
theorem laneSum_apply {n : ℕ} (src : FVec Ideal ⟨2, ![n, 3]⟩ .f32) (h : (⟨2, ![n, 3]⟩ : Shape).Reduces [1] ⟨1, ![n]⟩)
    (hφ : FKind.Formats .f32) (hacc : (0x00000000#32 : BitVec 32) = FKind.add.neutral .f32 hφ) (r : Fin n) :
    multiReduction (F := Ideal) .add [1] ⟨1, ![n]⟩ src 0x00000000#32 h hφ hacc (ix1 r) = ∑ k : Fin 3, src (ix2 r k) := by
  refine (Ideal.multiReduction_add_single src _ h hφ hacc (ix1 r)).trans ?_
  refine Finset.sum_congr rfl fun k _ => congrArg src ?_
  funext c
  match c with
  | ⟨0, _⟩ => rfl
  | ⟨1, _⟩ => rfl

/-- A `minimumf` reduction over one axis: the fold of `min` from the accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction (F := Ideal) .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum over the columns of an `[a, b]` table, at row `r`. -/
theorem rowMin_apply {a b : ℕ} (src : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (r : Fin a) :
    multiReduction (F := Ideal) .minimumf [1] ⟨1, ![a]⟩ src 0x7F800000#32 h hφ hacc (ix1 r)
      = (Finset.univ : Finset (Fin b)).fold min (Ideal.ofBits .f32 0x7F800000#32) (fun c => src (ix2 r c)) := by
  refine (multiReduction_minimumf_single src _ h hφ hacc (ix1 r)).trans ?_
  refine congrArg (Finset.fold min _ · Finset.univ) (funext fun c => congrArg src ?_)
  funext d
  match d with
  | ⟨0, _⟩ => rfl
  | ⟨1, _⟩ => rfl

/-- The minimum over the rows of an `[a, b]` table, at column `c`. -/
theorem colMin_apply {a b : ℕ} (src : FVec Ideal ⟨2, ![a, b]⟩ .f32) (h : (⟨2, ![a, b]⟩ : Shape).Reduces [0] ⟨1, ![b]⟩)
    (hφ : FKind.Formats .f32) (hacc : (0x7F800000#32 : BitVec 32) = FKind.minimumf.neutral .f32 hφ) (c : Fin b) :
    multiReduction (F := Ideal) .minimumf [0] ⟨1, ![b]⟩ src 0x7F800000#32 h hφ hacc (ix1 c)
      = (Finset.univ : Finset (Fin a)).fold min (Ideal.ofBits .f32 0x7F800000#32) (fun r => src (ix2 r c)) := by
  refine (multiReduction_minimumf_single src _ h hφ hacc (ix1 c)).trans ?_
  refine congrArg (Finset.fold min _ · Finset.univ) (funext fun r => congrArg src ?_)
  funext d
  match d with
  | ⟨0, _⟩ => rfl
  | ⟨1, _⟩ => rfl

end Cert.Lib.KeepdimsMin

end
-- ==== Proof.LibAxisSum.lean ====
import Idealize.ShloMosaic.PureOps.Ideal.Laws
import Idealize.ShloMosaic.Lib.ValueIdx
import Idealize.ShloMosaic.Lib.Pipeline.Value

/-!
# A kernel's one-axis sums and keepdims casts, read at an entry

Over the extended reals a `vector.multi_reduction <add>` over one axis, from the zero word, is at each remaining
index the plain sum over that axis's coordinate. Stated here with the indices spelt by coordinates, for the
leading axis of arrays of rank 4, 3 and 2 and for the trailing axis of a rank-2 array, at any extents; and the cast
of a vector to a one-lane column, which a sum with kept dimensions goes through, read at an entry.
-/

noncomputable section

open scoped BigOperators

namespace Cert.Lib

open Idealize.ShloMosaic Idealize.ShloMosaic.ValueIdx

/-- The sum over the leading axis of a rank-4 array. -/
theorem sum_lead4 {a b c d : ℕ} (v : FVec Ideal ⟨4, ![a, b, c, d]⟩ .f32)
    (h : Shape.Reduces ⟨4, ![a, b, c, d]⟩ [0] ⟨3, ![b, c, d]⟩) (hφ : FKind.Formats .f32)
    (hacc : (0x00000000#32 : BitVec 32) = FKind.add.neutral .f32 hφ) (p : Fin b) (q : Fin c) (r : Fin d) :
    multiReduction .add [0] ⟨3, ![b, c, d]⟩ v 0x00000000#32 h hφ hacc (ix3 p q r) = ∑ k : Fin a, v (ix4 k p q r) :=
  (Ideal.multiReduction_add_single v _ h hφ hacc (ix3 p q r)).trans
    (Finset.sum_congr rfl fun k _ => congrArg v (funext fun e => match e with
      | ⟨0, _⟩ => rfl | ⟨1, _⟩ => rfl | ⟨2, _⟩ => rfl | ⟨3, _⟩ => rfl))

/-- The sum over the leading axis of a rank-3 array. -/
theorem sum_lead3 {a b c : ℕ} (v : FVec Ideal ⟨3, ![a, b, c]⟩ .f32)
    (h : Shape.Reduces ⟨3, ![a, b, c]⟩ [0] ⟨2, ![b, c]⟩) (hφ : FKind.Formats .f32)
    (hacc : (0x00000000#32 : BitVec 32) = FKind.add.neutral .f32 hφ) (p : Fin b) (q : Fin c) :
    multiReduction .add [0] ⟨2, ![b, c]⟩ v 0x00000000#32 h hφ hacc (ix2 p q) = ∑ k : Fin a, v (ix3 k p q) :=
  (Ideal.multiReduction_add_single v _ h hφ hacc (ix2 p q)).trans
    (Finset.sum_congr rfl fun k _ => congrArg v (funext fun e => match e with
      | ⟨0, _⟩ => rfl | ⟨1, _⟩ => rfl | ⟨2, _⟩ => rfl))

/-- The sum over the leading axis of a rank-2 array. -/
theorem sum_lead2 {a b : ℕ} (v : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (p : Fin b) :
    multiReduction .add [0] ⟨1, ![b]⟩ v 0x00000000#32 h hφ hacc (ix1 p) = ∑ k : Fin a, v (ix2 k p) :=
  (Ideal.multiReduction_add_single v _ h hφ hacc (ix1 p)).trans
    (Finset.sum_congr rfl fun k _ => congrArg v (funext fun e => match e with
      | ⟨0, _⟩ => rfl | ⟨1, _⟩ => rfl))

/-- The sum over the trailing axis of a rank-2 array. -/
theorem sum_trail2 {a b : ℕ} (v : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (p : Fin a) :
    multiReduction .add [1] ⟨1, ![a]⟩ v 0x00000000#32 h hφ hacc (ix1 p) = ∑ k : Fin b, v (ix2 p k) :=
  (Ideal.multiReduction_add_single v _ h hφ hacc (ix1 p)).trans
    (Finset.sum_congr rfl fun k _ => congrArg v (funext fun e => match e with
      | ⟨0, _⟩ => rfl | ⟨1, _⟩ => rfl))

/-- A vector cast to a one-lane column reads, at row `p`, the vector's entry `p`. -/
theorem cast_column_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]
    show p.val = p.val * 1 + 0
    omega)

end Cert.Lib

end
-- ==== Proof.LibTrailAxis.lean ====
/-
  Reductions over the TRAILING axis of an [m, n] vector, kept as an [m, 1] column and broadcast back along
  the n lanes (what `jnp.sum(x, axis=1, keepdims=True)` becomes in a kernel body), read at an entry (i, j):
  the plain sum over the n entries of row i.  Also a value broadcast from a [1, 1, 1] cell to a [1, a, b]
  block, and a sum over a rank-3 index set as the triple sum over its coordinates.  General in the extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.TrailAxis

open Idealize.ShloMosaic Idealize.ShloMosaic.ValueIdx

variable {m n : Nat}

/-- The index of the [m, n] vector that reduces to row `i` with `k` put back on the trailing axis is (i, k). -/
theorem lift_trail (h : (⟨2, ![m, n]⟩ : Shape).Reduces [1] ⟨1, ![m]⟩) (i : Fin m) (k : Fin n) :
    h.lift (ix1 i) k = ix2 i k :=
  funext fun a => Fin.ext (by match a with | ⟨0, _⟩ => rfl | ⟨1, _⟩ => rfl)

/-- A sum over the trailing axis, at row `i`: the sum along row `i`. -/
theorem sum_trail_apply (src : FVec Ideal ⟨2, ![m, n]⟩ .f32) (h : (⟨2, ![m, n]⟩ : Shape).Reduces [1] ⟨1, ![m]⟩)
    (hφ : FKind.Formats .f32) (hacc : (0x00000000#32 : BitVec 32) = 0x00000000#32) (i : Fin m) :
    multiReduction .add [1] ⟨1, ![m]⟩ src 0x00000000#32 h hφ hacc (ix1 i) = ∑ k : Fin n, src (ix2 i k) := by
  refine (Ideal.multiReduction_add_single src 0x00000000#32 h hφ hacc (ix1 i)).trans ?_
  exact Finset.sum_congr rfl fun k _ => congrArg src (lift_trail h i k)

/-- A vector kept as a one-column matrix reads, at (i, 0), entry `i`. -/
theorem keepcol_apply {α : Type} (v : (⟨1, ![m]⟩ : Shape).Idx → α) (hc : (⟨1, ![m]⟩ : Shape).ShapeCasts ⟨2, ![m, 1]⟩)
    (i : Fin m) (u : Fin 1) : shapeCast ⟨2, ![m, 1]⟩ v hc (ix2 i u) = v (ix1 i) :=
  shapeCast_apply v hc _ _ (by
    have hu : u.val = 0 := by omega
    rw [Shape.rowMajor_val_two, Shape.rowMajor_val_one]
    show i.val = i.val * 1 + u.val
    omega)

/-- One column broadcast along `n` lanes reads, at (i, j), the column's entry `i`. -/
theorem broadcastTo_a1_ab_apply {α : Type} (v : (⟨2, ![m, 1]⟩ : Shape).Idx → α)
    (h : (⟨2, ![m, 1]⟩ : Shape).Broadcasts ⟨2, ![m, n]⟩) (i : Fin m) (j : Fin n) :
    broadcastTo ⟨2, ![m, n]⟩ v h (ix2 i j) = v (ix2 i (0 : Fin 1)) := by
  refine broadcastTo_apply v h (ix2 i j) (ix2 i (0 : Fin 1)) fun ax => ?_
  match ax with
  | ⟨0, _⟩ =>
    show i.val = if m = 1 then 0 else i.val
    split
    · have := i.isLt; omega
    · rfl
  | ⟨1, _⟩ => rfl

/-- A vector kept as a column and broadcast along `n` lanes reads, at (i, j), entry `i`. -/
theorem keepdims_col_apply {α : Type} (v : (⟨1, ![m]⟩ : Shape).Idx → α) (hc : (⟨1, ![m]⟩ : Shape).ShapeCasts ⟨2, ![m, 1]⟩)
    (hb : (⟨2, ![m, 1]⟩ : Shape).Broadcasts ⟨2, ![m, n]⟩) (i : Fin m) (j : Fin n) :
    broadcastTo ⟨2, ![m, n]⟩ (shapeCast ⟨2, ![m, 1]⟩ v hc) hb (ix2 i j) = v (ix1 i) :=
  (broadcastTo_a1_ab_apply _ hb i j).trans (keepcol_apply v hc i 0)

/-- One cell broadcast to a [1, a, b] block reads the cell everywhere. -/
theorem broadcastTo_111_1ab_apply {α : Type} {a b : Nat} (v : (⟨3, ![1, 1, 1]⟩ : Shape).Idx → α)
    (h : (⟨3, ![1, 1, 1]⟩ : Shape).Broadcasts ⟨3, ![1, a, b]⟩) (q : (⟨3, ![1, a, b]⟩ : Shape).Idx) :
    broadcastTo ⟨3, ![1, a, b]⟩ v h q = v (ix3 (0 : Fin 1) (0 : Fin 1) (0 : Fin 1)) :=
  broadcastTo_apply v h q _ fun ax => match ax with
    | ⟨0, _⟩ => rfl
    | ⟨1, _⟩ => rfl
    | ⟨2, _⟩ => rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.TrailAxis

end
-- ==== Proof.PayIdeal.lean ====
/-
  The arithmetic of the loop body, read entry by entry over the extended reals.

  One step of the body holds a block of 512 target points (three coordinates each) and a block of 2048 predicted points
  (three rows of 2048 lanes). It forms the 512 × 2048 table of squared distances
  `((g₀ - p₀)² + (g₁ - p₁)²) + (g₂ - p₂)²`, lowers a carried column of row minima by the infimum along each row, and
  lowers the stored lanes of column minima by the infimum down each column; both start from +∞. After the last step the
  512 row minima are summed and added to every entry of an 8 × 128 block that starts at zero, and at the very end the
  8192 column minima are summed into every entry of another such block.

  Each statement below reads one of these values at an entry given by its coordinates. A minimum taken from +∞ over a
  finite axis is written as the infimum `⨅` over that axis; a sum from the zero word is the plain finite sum.
-/
import proofs.«125768_j28200755266074_2_alg».proof.Proof.Gen.KernelIdeal.Skeleton
import proofs.«125768_j28200755266074_2_alg».proof.Proof.LibKeepdimsMin
import proofs.«125768_j28200755266074_2_alg».proof.Proof.LibAxisSum
import proofs.«125768_j28200755266074_2_alg».proof.Proof.LibTrailAxis
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayIdeal

open Idealize.ShloMosaic Idealize.ShloMosaic.ValueIdx Cert.KernelIdeal Cert.KernelIdeal.Gen

/-- The f32 word of +∞ is the top of the extended reals. -/
theorem top_word : Ideal.ofBits .f32 0x7F800000#32 = (⊤ : EReal) := by simp [Ideal.ofBits, Ideal.ieee]

/-- Over a finite index type the fold of `min` from the top element is the infimum of the family. -/
theorem fold_min_top {ι : Type} [Fintype ι] (f : ι → EReal) : (Finset.univ : Finset ι).fold min ⊤ f = ⨅ i, f i := by
  rw [← Finset.inf_univ_eq_iInf]; rfl

/-- Coordinate `k` of target point `r`, spread along the 2048 lanes of the table. -/
theorem rowCoord (v0 : Vec Ideal S1x512x3 .f32) (o : Nat) (hc : S1x512x3.ShapeCasts S512x3)
    (hs : S512x3.Slices ![0, o] S512x1) (hb : S512x1.Broadcasts S512x2048) (k : Fin 3) (hk : k.val = o)
    (r : Fin 512) (j : Fin 2048) :
    broadcastTo S512x2048 (extractStridedSlice S512x1 ![0, o] (shapeCast S512x3 v0 hc) hs) hb (ix2 r j)
      = v0 (ix3 0 r k) :=
  (Cert.Lib.KeepdimsMin.broadcastTo_a1_ab_apply _ hb r j).trans
    ((slice2_axis1_apply o _ hs r 0 k (by rw [hk]; rfl)).trans (shapeCast_1ab_ab_apply v0 hc r k))

/-- Coordinate `k` of predicted point `j`, spread down the 512 rows of the table. -/
theorem colCoord (v25 : Vec Ideal S3x2048 .f32) (o : Nat) (hc : S3x2048.ShapeCasts S3x2048)
    (hs : S3x2048.Slices ![o, 0] S1x2048) (hb : S1x2048.Broadcasts S512x2048) (k : Fin 3) (hk : k.val = o)
    (r : Fin 512) (j : Fin 2048) :
    broadcastTo S512x2048 (extractStridedSlice S1x2048 ![o, 0] (shapeCast S3x2048 v25 hc) hs) hb (ix2 r j)
      = v25 (ix2 k j) :=
  (broadcastTo_1b_ab_apply _ hb r j).trans
    ((slice2_axis0_apply o _ hs 0 j k (by rw [hk]; rfl)).trans (congrFun (shapeCast_self v25 hc) (ix2 k j)))

/-- The table of squared distances at row `r`, lane `j`. -/
theorem pay4_apply (v0 : Vec Ideal S1x512x3 .f32) (v25 : Vec Ideal S3x2048 .f32) (r : Fin 512) (j : Fin 2048) :
    k0_pay4 (F := Ideal) v0 v25 (ix2 r j)
      = ((v0 (ix3 0 r 0) - v25 (ix2 0 j)) * (v0 (ix3 0 r 0) - v25 (ix2 0 j))
          + (v0 (ix3 0 r 1) - v25 (ix2 1 j)) * (v0 (ix3 0 r 1) - v25 (ix2 1 j)))
          + (v0 (ix3 0 r 2) - v25 (ix2 2 j)) * (v0 (ix3 0 r 2) - v25 (ix2 2 j)) := by
  unfold k0_pay4
  simp only [addf_apply, mulf_apply, subf_apply]
  rw [rowCoord v0 0 _ _ _ 0 rfl r j, rowCoord v0 1 _ _ _ 1 rfl r j, rowCoord v0 2 _ _ _ 2 rfl r j,
    colCoord v25 0 _ _ _ 0 rfl r j, colCoord v25 1 _ _ _ 1 rfl r j, colCoord v25 2 _ _ _ 2 rfl r j]

/-- The running row minimum: the carried column against the infimum of row `r` of the table. -/
theorem pay5_apply (v0 : Vec Ideal S1x512x3 .f32) (acc : FVec Ideal S512x1 .f32) (v25 : Vec Ideal S3x2048 .f32)
    (r : Fin 512) :
    k0_pay5 (F := Ideal) v0 acc v25 (ix2 r 0)
      = min (acc (ix2 r 0)) (⨅ j : Fin 2048, k0_pay4 (F := Ideal) v0 v25 (ix2 r j)) := by
  unfold k0_pay5
  refine (minimumf_apply _ _ _).trans (congrArg (min (acc (ix2 r 0))) ?_)
  refine (Cert.Lib.KeepdimsMin.shapeCast_a_a1_apply _ _ r 0).trans ?_
  refine (Cert.Lib.KeepdimsMin.rowMin_apply _ _ _ _ r).trans ?_
  rw [top_word]
  exact fold_min_top _

/-- The running column minimum: the stored lane against the infimum of column `j` of the table. -/
theorem pay6_apply (v0 : Vec Ideal S1x512x3 .f32) (v25 : Vec Ideal S3x2048 .f32) (v53 : Vec Ideal S1x2048 .f32)
    (j : Fin 2048) :
    k0_pay6 (F := Ideal) v0 v25 v53 (ix2 0 j)
      = min (v53 (ix2 0 j)) (⨅ r : Fin 512, k0_pay4 (F := Ideal) v0 v25 (ix2 r j)) := by
  unfold k0_pay6
  refine (congrFun (shapeCast_self _ _) (ix2 0 j)).trans ?_
  refine (minimumf_apply _ _ _).trans (congrArg (min (v53 (ix2 0 j))) ?_)
  refine (shapeCast_a_1a_apply _ _ 0 j).trans ?_
  refine (Cert.Lib.KeepdimsMin.colMin_apply _ _ _ _ j).trans ?_
  rw [top_word]
  exact fold_min_top _

/-- The running row minimum with the table's entries written out. -/
theorem pay5_apply_dist (v0 : Vec Ideal S1x512x3 .f32) (acc : FVec Ideal S512x1 .f32) (v25 : Vec Ideal S3x2048 .f32)
    (r : Fin 512) :
    k0_pay5 (F := Ideal) v0 acc v25 (ix2 r 0)
      = min (acc (ix2 r 0)) (⨅ j : Fin 2048,
          ((v0 (ix3 0 r 0) - v25 (ix2 0 j)) * (v0 (ix3 0 r 0) - v25 (ix2 0 j))
            + (v0 (ix3 0 r 1) - v25 (ix2 1 j)) * (v0 (ix3 0 r 1) - v25 (ix2 1 j)))
            + (v0 (ix3 0 r 2) - v25 (ix2 2 j)) * (v0 (ix3 0 r 2) - v25 (ix2 2 j))) := by
  rw [pay5_apply]
  simp only [pay4_apply]

/-- The running column minimum with the table's entries written out. -/
theorem pay6_apply_dist (v0 : Vec Ideal S1x512x3 .f32) (v25 : Vec Ideal S3x2048 .f32) (v53 : Vec Ideal S1x2048 .f32)
    (j : Fin 2048) :
    k0_pay6 (F := Ideal) v0 v25 v53 (ix2 0 j)
      = min (v53 (ix2 0 j)) (⨅ r : Fin 512,
          ((v0 (ix3 0 r 0) - v25 (ix2 0 j)) * (v0 (ix3 0 r 0) - v25 (ix2 0 j))
            + (v0 (ix3 0 r 1) - v25 (ix2 1 j)) * (v0 (ix3 0 r 1) - v25 (ix2 1 j)))
            + (v0 (ix3 0 r 2) - v25 (ix2 2 j)) * (v0 (ix3 0 r 2) - v25 (ix2 2 j))) := by
  rw [pay6_apply]
  simp only [pay4_apply]

/-- The per-batch accumulator block: every entry gains the sum of the 512 row minima. -/
theorem pay7_apply (v7 : FVec Ideal S512x1 .f32) (v10 : Vec Ideal S1x8x128 .f32) (a : Fin 8) (l : Fin 128) :
    k0_pay7 (F := Ideal) v7 v10 (ix3 0 a l) = v10 (ix3 0 a l) + ∑ r : Fin 512, v7 (ix2 r 0) := by
  unfold k0_pay7
  refine (addf_apply _ _ _).trans ?_
  refine congrArg₂ (· + ·) (congrFun (shapeCast_self v10 _) _) ?_
  refine (Cert.TrailAxis.broadcastTo_111_1ab_apply _ _ _).trans ?_
  refine (congrFun (shapeCast_self _ _) _).trans ?_
  refine (shapeCast_ab_1ab_apply _ _ 0 0 0).trans ?_
  refine (shapeCast_a_1a_apply _ _ 0 0).trans ?_
  exact Cert.Lib.sum_lead2 v7 _ _ _ 0

/-- The block of column minima summed: every entry is the sum of the 8192 lanes. -/
theorem pay8_apply (v20 : Vec Ideal S1x8192 .f32) (a : Fin 8) (l : Fin 128) :
    k0_pay8 (F := Ideal) v20 (ix3 0 a l) = ∑ j : Fin 8192, v20 (ix2 0 j) := by
  unfold k0_pay8
  refine (Cert.TrailAxis.broadcastTo_111_1ab_apply _ _ _).trans ?_
  refine (congrFun (shapeCast_self _ _) _).trans ?_
  refine (shapeCast_ab_1ab_apply _ _ 0 0 0).trans ?_
  refine (shapeCast_a_1a_apply _ _ 0 0).trans ?_
  exact Cert.Lib.sum_trail2 v20 _ _ _ 0

/-- The accumulator block starts at zero. -/
theorem pay1_apply (y : S1x8x128.Idx) : k0_pay1 (F := Ideal) y = 0 := by
  unfold k0_pay1
  exact Ideal.ofBits_zero_f32

/-- The lanes of column minima start at +∞. -/
theorem pay2_apply (y : S1x8192.Idx) : k0_pay2 (F := Ideal) y = ⊤ := by
  unfold k0_pay2
  exact (congrFun (shapeCast_self _ _) y).trans top_word

/-- The carried column of row minima starts at +∞. -/
theorem pay3_apply (y : S512x1.Idx) : k0_pay3 (F := Ideal) y = ⊤ := by
  unfold k0_pay3
  exact top_word

end Cert.KernelIdeal.PayIdeal

end
-- ==== Proof.LoopIdeal.lean ====
/-
  The loop over the four chunks of 2048 predicted points, in closed form over the extended reals.

  Each trip reads one chunk of the three coordinate rows, forms the 512 × 2048 slab of the table of squared
  distances `D r j`, lowers the carried column at row `r` by the infimum of that row over the slab, and lowers the
  stored lane `j` of the slab by the infimum of column `j` over the 512 rows. The slabs are disjoint and tile the
  8192 columns, so a lane is written exactly once, by the trip whose slab holds it, and until then it keeps the
  value found at entry. By induction on the number of trips made: after `n` trips the carried value at row `r` is
  the initial one lowered by the infimum of row `r` over the columns below `2048 n`, and lane `j` is lowered by the
  infimum of column `j` exactly when `j` lies below `2048 n`. At `n = 4` the restriction on the columns is void.
-/
import proofs.«125768_j28200755266074_2_alg».proof.Proof.Gen.KernelIdeal.Loops
import proofs.«125768_j28200755266074_2_alg».proof.Proof.PayIdeal
import Idealize.ShloMosaic.Lib.WritesUnit

noncomputable section

open scoped BigOperators

namespace Cert.KernelIdeal.LoopIdeal

open Idealize.ShloMosaic Idealize.ShloMosaic.ValueIdx Cert.KernelIdeal Cert.KernelIdeal.Gen

/-- The loop makes four trips. -/
theorem trips_eq : k0_t1_loop.trips = 4 := by decide

/-- A trip's number is below four. -/
theorem kval_lt (k : Fin k0_t1_loop.trips) : k.val < 4 := Nat.lt_of_lt_of_le k.isLt k0_t1_abs.2.1

section Trip

variable {F : FTy → Type} [FloatOps F]
variable (𝒱 : Variants) (c : Dev nD) (bd : Option 𝒱.V) (i : grid0.Coords)
  (arg2 : Memref sig .tc .vmem S1x512x3 .f32) (harg2 : arg2.IsWhole)
  (arg3 : Memref sig .tc .vmem S1x3x8192 .f32) (harg3 : arg3.IsWhole)
  (arg4 : Memref sig .tc .vmem S1x8x128 .f32) (harg4 : arg4.IsWhole)
  (arg5 : Memref sig .tc .vmem S1x8x128 .f32) (harg5 : arg5.IsWhole)
  (arg6 : Memref sig .tc .vmem S1x8192 .f32) (harg6 : arg6.IsWhole)
  (v0 : Vec F S1x512x3 .f32) (mv : Memref sig .tc .vmem S3x8192 .f32)
  (hcanon : (arg3.slice (Rect.unit (s := S1x3x8192) ![0, 0, 0] S1x3x8192.size inb_S1x3x8192_S1x3x8192_0_0_0) (fun _ => rfl)).squeeze S3x8192 squeezes_S1x3x8192_S3x8192 = mv)
  (X : BufTy.Contents (Elt F) mv.view.ty)

/-- What one trip yields: the carried column lowered by the row minima of the chunk's table. -/
theorem tripR_eq (k : Fin k0_t1_loop.trips) (acc : FVec F S512x1 .f32) (f : BufTy.Contents (Elt F) arg6.view.ty) :
    tripR_k0_t1 (F := F) 𝒱 c bd i arg2 harg2 arg3 harg3 arg4 harg4 arg5 harg5 arg6 harg6 v0 mv hcanon X k acc f
      = k0_pay5 v0 acc (mv.view.readAt (Elt F) (Rect.unit (s := S3x8192) (k0_off1 k) S3x2048.size (k0_off1_inb k)).toLoadRect X) := by
  unfold tripR_k0_t1 trip_k0_t1
  rfl

/-- What one trip writes: the chunk's lanes lowered by the column minima of the chunk's table. -/
theorem tripL_eq (k : Fin k0_t1_loop.trips) (acc : FVec F S512x1 .f32) (f : BufTy.Contents (Elt F) arg6.view.ty) :
    tripL_k0_t1 (F := F) 𝒱 c bd i arg2 harg2 arg3 harg3 arg4 harg4 arg5 harg5 arg6 harg6 v0 mv hcanon X k acc f
      = [⟨Rect.unit (s := S1x8192) (k0_off2 k) S1x2048.size (k0_off2_inb k),
          k0_pay6 v0 (mv.view.readAt (Elt F) (Rect.unit (s := S3x8192) (k0_off1 k) S3x2048.size (k0_off1_inb k)).toLoadRect X)
            (arg6.view.readAt (Elt F) (Rect.unit (s := S1x8192) (k0_off2 k) S1x2048.size (k0_off2_inb k)).toLoadRect f)⟩] := by
  unfold tripL_k0_t1 trip_k0_t1
  rfl

end Trip

/-! ## One trip over the extended reals -/

/-- The table of squared distances between the 512 target points held by `v0` and the 8192 predicted points whose
    coordinate `d` is row `d` of `R`. -/
def D (v0 : Vec Ideal S1x512x3 .f32) (R : Vec Ideal S3x8192 .f32) (r : Fin 512) (j : Fin 8192) : EReal :=
  ((v0 (ix3 0 r 0) - R (ix2 0 j)) * (v0 (ix3 0 r 0) - R (ix2 0 j))
    + (v0 (ix3 0 r 1) - R (ix2 1 j)) * (v0 (ix3 0 r 1) - R (ix2 1 j)))
    + (v0 (ix3 0 r 2) - R (ix2 2 j)) * (v0 (ix3 0 r 2) - R (ix2 2 j))

section Chunk

variable (arg6 : Memref sig .tc .vmem S1x8192 .f32) (v0 : Vec Ideal S1x512x3 .f32)
  (mv : Memref sig .tc .vmem S3x8192 .f32) (X : BufTy.Contents (Elt Ideal) mv.view.ty)

/-- Trip `k` reads lanes `2048 k …` of the three coordinate rows: lane `j'` of the chunk is lane `j = 2048 k + j'`. -/
theorem chunk_apply (k : Fin k0_t1_loop.trips) (d : Fin 3) (j' : Fin 2048) (j : Fin 8192)
    (hj : j.val = 2048 * k.val + j'.val) :
    mv.view.readAt (Elt Ideal) (Rect.unit (s := S3x8192) (k0_off1 k) S3x2048.size (k0_off1_inb k)).toLoadRect X (ix2 d j')
      = mv.view.read (Elt Ideal) X (ix2 d j) := by
  refine congrArg (mv.view.read (Elt Ideal) X) (funext fun a => Fin.ext ?_)
  show k0_off1 k a + 1 * (ix2 d j' a).val = (ix2 d j a).val
  rw [k0_off1_eq k]
  match a with
  | ⟨0, _⟩ => show 0 + 1 * d.val = d.val; omega
  | ⟨1, _⟩ => show 2048 * k.val + 1 * j'.val = j.val; omega

/-- Trip `k` reads lanes `2048 k …` of the stored column minima. -/
theorem lanes_apply (k : Fin k0_t1_loop.trips) (f : BufTy.Contents (Elt Ideal) arg6.view.ty) (j' : Fin 2048)
    (j : Fin 8192) (hj : j.val = 2048 * k.val + j'.val) :
    arg6.view.readAt (Elt Ideal) (Rect.unit (s := S1x8192) (k0_off2 k) S1x2048.size (k0_off2_inb k)).toLoadRect f (ix2 0 j')
      = arg6.view.read (Elt Ideal) f (ix2 0 j) := by
  refine congrArg (arg6.view.read (Elt Ideal) f) (funext fun a => Fin.ext ?_)
  show k0_off2 k a + 1 * (ix2 (0 : Fin 1) j' a).val = (ix2 (0 : Fin 1) j a).val
  rw [k0_off2_eq k]
  match a with
  | ⟨0, _⟩ => show 0 + 1 * 0 = 0; omega
  | ⟨1, _⟩ => show 2048 * k.val + 1 * j'.val = j.val; omega

/-- The chunk's table is the slab of columns `2048 k …` of the whole table. -/
theorem pay4_chunk (k : Fin k0_t1_loop.trips) (r : Fin 512) (j' : Fin 2048) (j : Fin 8192)
    (hj : j.val = 2048 * k.val + j'.val) :
    k0_pay4 (F := Ideal) v0
        (mv.view.readAt (Elt Ideal) (Rect.unit (s := S3x8192) (k0_off1 k) S3x2048.size (k0_off1_inb k)).toLoadRect X) (ix2 r j')
      = D v0 (mv.view.read (Elt Ideal) X) r j := by
  refine (PayIdeal.pay4_apply v0 _ r j').trans ?_
  unfold D
  rw [chunk_apply mv X k 0 j' j hj, chunk_apply mv X k 1 j' j hj, chunk_apply mv X k 2 j' j hj]

/-- One trip lowers the carried value at row `r` by the infimum of row `r` over the chunk's columns. -/
theorem pay5_chunk (k : Fin k0_t1_loop.trips) (acc : FVec Ideal S512x1 .f32) (r : Fin 512) :
    k0_pay5 (F := Ideal) v0 acc
        (mv.view.readAt (Elt Ideal) (Rect.unit (s := S3x8192) (k0_off1 k) S3x2048.size (k0_off1_inb k)).toLoadRect X) (ix2 r 0)
      = min (acc (ix2 r 0))
          (⨅ j' : Fin 2048, D v0 (mv.view.read (Elt Ideal) X) r ⟨2048 * k.val + j'.val, by have := kval_lt k; omega⟩) :=
  (PayIdeal.pay5_apply v0 acc _ r).trans
    (congrArg (min (acc (ix2 r 0))) (iInf_congr fun j' => pay4_chunk v0 mv X k r j' _ rfl))

/-- One trip lowers the stored lane `j = 2048 k + j'` by the infimum of column `j` over the 512 rows. -/
theorem pay6_chunk (k : Fin k0_t1_loop.trips) (f : BufTy.Contents (Elt Ideal) arg6.view.ty) (j' : Fin 2048)
    (j : Fin 8192) (hj : j.val = 2048 * k.val + j'.val) :
    k0_pay6 (F := Ideal) v0
        (mv.view.readAt (Elt Ideal) (Rect.unit (s := S3x8192) (k0_off1 k) S3x2048.size (k0_off1_inb k)).toLoadRect X)
        (arg6.view.readAt (Elt Ideal) (Rect.unit (s := S1x8192) (k0_off2 k) S1x2048.size (k0_off2_inb k)).toLoadRect f)
        (ix2 0 j')
      = min (arg6.view.read (Elt Ideal) f (ix2 0 j)) (⨅ r : Fin 512, D v0 (mv.view.read (Elt Ideal) X) r j) := by
  refine (PayIdeal.pay6_apply v0 _ _ j').trans ?_
  rw [lanes_apply arg6 k f j' j hj]
  exact congrArg (min _) (iInf_congr fun r => pay4_chunk v0 mv X k r j' j hj)

end Chunk

/-- The infimum over the columns below `2048 (n + 1)` is the one over the columns below `2048 n` against the one
    over the next 2048 columns. -/
theorem iInf_slab (f : Fin 8192 → EReal) (n : ℕ) (hn : n < 4) :
    (⨅ j : Fin 8192, ⨅ _ : j.val < 2048 * (n + 1), f j)
      = min (⨅ j : Fin 8192, ⨅ _ : j.val < 2048 * n, f j)
          (⨅ j' : Fin 2048, f ⟨2048 * n + j'.val, by omega⟩) := by
  apply le_antisymm
  · refine le_min (le_iInf₂ fun j hj => iInf₂_le j (by omega)) (le_iInf fun j' => ?_)
    exact iInf₂_le (⟨2048 * n + j'.val, by omega⟩ : Fin 8192) (by show 2048 * n + j'.val < 2048 * (n + 1); omega)
  · refine le_iInf₂ fun j hj => ?_
    by_cases h : j.val < 2048 * n
    · exact (min_le_left _ _).trans (iInf₂_le j h)
    · refine (min_le_right _ _).trans ((iInf_le _ (⟨j.val - 2048 * n, by omega⟩ : Fin 2048)).trans
        (le_of_eq (congrArg f (Fin.ext ?_))))
      show 2048 * n + (j.val - 2048 * n) = j.val
      omega

/-! ## The state after `n` trips -/

section Run

variable (𝒱 : Variants) (c : Dev nD) (bd : Option 𝒱.V) (i : grid0.Coords)
  (arg2 : Memref sig .tc .vmem S1x512x3 .f32) (harg2 : arg2.IsWhole)
  (arg3 : Memref sig .tc .vmem S1x3x8192 .f32) (harg3 : arg3.IsWhole)
  (arg4 : Memref sig .tc .vmem S1x8x128 .f32) (harg4 : arg4.IsWhole)
  (arg5 : Memref sig .tc .vmem S1x8x128 .f32) (harg5 : arg5.IsWhole)
  (arg6 : Memref sig .tc .vmem S1x8192 .f32) (harg6 : arg6.IsWhole)
  (v0 : Vec Ideal S1x512x3 .f32) (mv : Memref sig .tc .vmem S3x8192 .f32)
  (hcanon : (arg3.slice (Rect.unit (s := S1x3x8192) ![0, 0, 0] S1x3x8192.size inb_S1x3x8192_S1x3x8192_0_0_0) (fun _ => rfl)).squeeze S3x8192 squeezes_S1x3x8192_S3x8192 = mv)
  (X : BufTy.Contents (Elt Ideal) mv.view.ty) (G : BufTy.Contents (Elt Ideal) arg6.view.ty)
  (init : FVec Ideal S512x1 .f32)

local notation "ST" => st_k0_t1 (F := Ideal) 𝒱 c bd i arg2 harg2 arg3 harg3 arg4 harg4 arg5 harg5 arg6 harg6 v0 mv hcanon X G init
local notation "Rd" => mv.view.read (Elt Ideal) X
local notation "Sd" => arg6.view.read (Elt Ideal) G

/-- After `n` trips: the carried value at row `r` is the initial one lowered by the infimum of row `r` over the
    columns below `2048 n`; the stored lane `j` is the one found at entry, lowered by the infimum of column `j`
    when `j` lies below `2048 n`. -/
theorem state_after (n : ℕ) (hn : n ≤ 4) :
    (∀ r : Fin 512, (ST n).1 (ix2 r 0)
        = min (init (ix2 r 0)) (⨅ j : Fin 8192, ⨅ _ : j.val < 2048 * n, D v0 Rd r j)) ∧
    (∀ j : Fin 8192, arg6.view.read (Elt Ideal) (arg6.view.writes (Elt Ideal) G (ST n).2) (ix2 0 j)
        = if j.val < 2048 * n then min (Sd (ix2 0 j)) (⨅ r : Fin 512, D v0 Rd r j) else Sd (ix2 0 j)) := by
  induction n with
  | zero =>
    refine ⟨fun r => ?_, fun j => ?_⟩
    · show init (ix2 r 0) = _
      simp
    · show Sd (ix2 0 j) = _
      simp
  | succ n ih =>
    obtain ⟨ihA, ihB⟩ := ih (by omega)
    have hk : n < k0_t1_loop.trips := by rw [trips_eq]; omega
    have hs := st_k0_t1_succ (F := Ideal) 𝒱 c bd i arg2 harg2 arg3 harg3 arg4 harg4 arg5 harg5 arg6 harg6 v0 mv hcanon X G init ⟨n, hk⟩
    rw [tripR_eq, tripL_eq, List.singleton_append] at hs
    have hA := congrArg Prod.fst hs
    have hB := congrArg Prod.snd hs
    dsimp only at hA hB
    refine ⟨fun r => ?_, fun j => ?_⟩
    · rw [hA]
      refine (pay5_chunk v0 mv X ⟨n, hk⟩ _ r).trans ?_
      rw [ihA r, min_assoc]
      exact congrArg (min (init (ix2 r 0))) (iInf_slab (D v0 Rd r) n (by omega)).symm
    · rw [hB]
      by_cases h1 : j.val < 2048 * n
      · rw [if_pos (by omega : j.val < 2048 * (n + 1))]
        refine (View.read_writes_cons_unit_of_not_mem arg6.view G (k0_off2_inb ⟨n, hk⟩) _ _ (ix2 0 j)
          (k0_off2_eq ⟨n, hk⟩) (1 : Fin 2) (Or.inl ?_)).trans ?_
        · show j.val < 2048 * n
          exact h1
        · rw [ihB j, if_pos h1]
      · by_cases h2 : j.val < 2048 * (n + 1)
        · rw [if_pos h2]
          refine (View.read_writes_cons_unit_of_mem arg6.view G (k0_off2_inb ⟨n, hk⟩) _ _ (ix2 0 j)
            (ix2 0 (⟨j.val - 2048 * n, by omega⟩ : Fin 2048)) (k0_off2_eq ⟨n, hk⟩) ?_).trans ?_
          · exact Fin.forall_fin_two.mpr ⟨rfl, by show j.val = 2048 * n + (j.val - 2048 * n); omega⟩
          · refine (pay6_chunk arg6 v0 mv X ⟨n, hk⟩ _ _ j
              (by show j.val = 2048 * n + (j.val - 2048 * n); omega)).trans ?_
            rw [ihB j, if_neg h1]
        · rw [if_neg h2]
          refine (View.read_writes_cons_unit_of_not_mem arg6.view G (k0_off2_inb ⟨n, hk⟩) _ _ (ix2 0 j)
            (k0_off2_eq ⟨n, hk⟩) (1 : Fin 2) (Or.inr ?_)).trans ?_
          · show 2048 * n + 2048 ≤ j.val
            omega
          · rw [ihB j, if_neg h1]

/-- After all four trips the carried value at row `r` is the initial one lowered by the infimum of the whole row. -/
theorem row_final (r : Fin 512) :
    (ST 4).1 (ix2 r 0) = min (init (ix2 r 0)) (⨅ j : Fin 8192, D v0 Rd r j) :=
  ((state_after 𝒱 c bd i arg2 harg2 arg3 harg3 arg4 harg4 arg5 harg5 arg6 harg6 v0 mv hcanon X G init 4 le_rfl).1 r).trans
    (congrArg (min (init (ix2 r 0))) (iInf_congr fun j => iInf_pos (by omega)))

/-- After all four trips the stored lane `j` is the one found at entry lowered by the infimum of the whole column. -/
theorem col_final (j : Fin 8192) :
    arg6.view.read (Elt Ideal) (arg6.view.writes (Elt Ideal) G (ST 4).2) (ix2 0 j)
      = min (Sd (ix2 0 j)) (⨅ r : Fin 512, D v0 Rd r j) :=
  ((state_after 𝒱 c bd i arg2 harg2 arg3 harg3 arg4 harg4 arg5 harg5 arg6 harg6 v0 mv hcanon X G init 4 le_rfl).2 j).trans
    (if_pos (by omega))

/-- The same two with the number of trips spelt from the loop's bounds. -/
theorem row_final_trips (r : Fin 512) :
    (ST (Scf.trips k0_t1_loop.lb k0_t1_loop.ub k0_t1_loop.st)).1 (ix2 r 0)
      = min (init (ix2 r 0)) (⨅ j : Fin 8192, D v0 Rd r j) := by
  rw [show Scf.trips k0_t1_loop.lb k0_t1_loop.ub k0_t1_loop.st = 4 from trips_eq]
  exact row_final 𝒱 c bd i arg2 harg2 arg3 harg3 arg4 harg4 arg5 harg5 arg6 harg6 v0 mv hcanon X G init r

theorem col_final_trips (j : Fin 8192) :
    arg6.view.read (Elt Ideal)
        (arg6.view.writes (Elt Ideal) G (ST (Scf.trips k0_t1_loop.lb k0_t1_loop.ub k0_t1_loop.st)).2) (ix2 0 j)
      = min (Sd (ix2 0 j)) (⨅ r : Fin 512, D v0 Rd r j) := by
  rw [show Scf.trips k0_t1_loop.lb k0_t1_loop.ub k0_t1_loop.st = 4 from trips_eq]
  exact col_final 𝒱 c bd i arg2 harg2 arg3 harg3 arg4 harg4 arg5 harg5 arg6 harg6 v0 mv hcanon X G init j

end Run

end Cert.KernelIdeal.LoopIdeal

end
-- ==== Proof.KICases.lean ====
/-
  What each control case of the body leaves, entry by entry, over the extended reals.

  At a grid point the body holds a tile of 512 target points (first block) and all 8192 predicted points of the batch
  (second block). With `Dt r j` the squared distance between target point `r` and predicted point `j`, the loop over
  the four chunks leaves, from a carried column started at +∞, the row infima `⨅ j, Dt r j`, and lowers every lane
  `j` of the scratch by the column infimum `⨅ r, Dt r j`. Around the loop the three cases differ only in what they
  start from: a first tile resets the running sum to zero and the scratch to +∞; a middle tile continues from what it
  finds; a last tile does the same and then sums the scratch's 8192 lanes into the second output block.
-/
import proofs.«125768_j28200755266074_2_alg».proof.Proof.KIFrame
import proofs.«125768_j28200755266074_2_alg».proof.Proof.PayIdeal
import proofs.«125768_j28200755266074_2_alg».proof.Proof.LoopIdeal
import Idealize.ShloMosaic.Lib.Pipeline.Value
import Idealize.ShloMosaic.Lib.ValueLayout

set_option maxRecDepth 16384

noncomputable section

open scoped BigOperators

namespace Cert.KernelIdeal.CaseValue

open Cert.KernelIdeal Cert.KernelIdeal.Gen Cert.KernelIdeal.PayIdeal Cert.KernelIdeal.LoopIdeal
open Idealize.ShloMosaic Idealize.ShloMosaic.ValueIdx Idealize.ShloMosaic.Tactic

/-- The table of squared distances between the 512 target points of the first block and the 8192 predicted points of
    the second. -/
def Dt (x0 : Vec Ideal S1x512x3 .f32) (x1 : Vec Ideal S1x3x8192 .f32) (r : Fin 512) (j : Fin 8192) : EReal :=
  ((x0 (ix3 0 r 0) - x1 (ix3 0 0 j)) * (x0 (ix3 0 r 0) - x1 (ix3 0 0 j))
    + (x0 (ix3 0 r 1) - x1 (ix3 0 1 j)) * (x0 (ix3 0 r 1) - x1 (ix3 0 1 j)))
    + (x0 (ix3 0 r 2) - x1 (ix3 0 2 j)) * (x0 (ix3 0 r 2) - x1 (ix3 0 2 j))

/-- The zero offsets of a rank-3 and of a rank-2 whole-shape rectangle, as the constant function. -/
theorem hz3 : (![0, 0, 0] : Fin 3 → ℕ) = fun _ => 0 := funext fun a => by fin_cases a <;> rfl
theorem hz2 : (![0, 0] : Fin 2 → ℕ) = fun _ => 0 := funext fun a => by fin_cases a <;> rfl

/-- A load of the whole shape from a whole buffer holding `x` reads `x`. -/
theorem readAt_whole_unread {S : Shape} (m : Memref sig .tc .vmem S .f32) (hm : m.IsWhole) {off : Fin S.rank → ℕ}
    (h : off = fun _ => 0) (inb : ∀ a, off a + S.size a ≤ S.size a) (x : Vec Ideal S .f32) :
    m.view.readAt (Elt Ideal) (Rect.unit off S.size inb).toLoadRect (hm.unread x) = x := by
  rw [View.readAt_eq_ld, hm.read_unread, View.ld_unit_zero h]

section Cases

variable (c : Dev nD) (i : grid0.Coords)
  (arg2 : Memref sig .tc .vmem S1x512x3 .f32) (harg2 : arg2.IsWhole)
  (arg3 : Memref sig .tc .vmem S1x3x8192 .f32) (harg3 : arg3.IsWhole)
  (arg4 : Memref sig .tc .vmem S1x8x128 .f32) (harg4 : arg4.IsWhole)
  (arg5 : Memref sig .tc .vmem S1x8x128 .f32) (harg5 : arg5.IsWhole)
  (arg6 : Memref sig .tc .vmem S1x8192 .f32) (harg6 : arg6.IsWhole)

/-- Row `d` of the coordinate rows the loop reads is coordinate `d` of the second block's points. -/
theorem rows_apply (x1 : Vec Ideal S1x3x8192 .f32) (d : Fin 3) (j : Fin 8192) :
    ((arg3.slice (Rect.unit (s := S1x3x8192) ![0, 0, 0] S1x3x8192.size inb_S1x3x8192_S1x3x8192_0_0_0) (fun _ => rfl)).squeeze
        S3x8192 squeezes_S1x3x8192_S3x8192).view.read (Elt Ideal) (harg3.unread x1) (ix2 d j)
      = x1 (ix3 0 d j) := by
  have hc : (⟨3, ![1, 3, 8192]⟩ : Shape).ShapeCasts ⟨2, ![3, 8192]⟩ := by decide
  refine (congrFun (Memref.read_squeeze_slice arg3 _ (fun _ => rfl) squeezes_S1x3x8192_S3x8192 hc (harg3.unread x1)) (ix2 d j)).trans ?_
  refine (shapeCast_1ab_ab_apply _ hc d j).trans ?_
  exact congrFun (readAt_whole_unread arg3 harg3 hz3 _ x1) (ix3 0 d j)

/-- The loop's table over what it loads is the table over the two blocks. -/
theorem D_eq_Dt (x0 : Vec Ideal S1x512x3 .f32) (x1 : Vec Ideal S1x3x8192 .f32) (r : Fin 512) (j : Fin 8192) :
    D (arg2.view.readAt (Elt Ideal) (Rect.unit (s := S1x512x3) ![0, 0, 0] S1x512x3.size inb_S1x512x3_S1x512x3_0_0_0).toLoadRect (harg2.unread x0))
        (((arg3.slice (Rect.unit (s := S1x3x8192) ![0, 0, 0] S1x3x8192.size inb_S1x3x8192_S1x3x8192_0_0_0) (fun _ => rfl)).squeeze
          S3x8192 squeezes_S1x3x8192_S3x8192).view.read (Elt Ideal) (harg3.unread x1)) r j
      = Dt x0 x1 r j := by
  unfold D Dt
  rw [readAt_whole_unread arg2 harg2 hz3 _ x0, rows_apply arg3 harg3 x1 0 j, rows_apply arg3 harg3 x1 1 j,
    rows_apply arg3 harg3 x1 2 j]

/-- After the loop, from any scratch contents `G`: the carried value at row `r`, started from +∞, is the distance from
    target point `r` to the nearest predicted point. -/
theorem carried_after (x0 : Vec Ideal S1x512x3 .f32) (x1 : Vec Ideal S1x3x8192 .f32)
    (G : BufTy.Contents (Elt Ideal) arg6.view.ty) (r : Fin 512) :
    (st_k0_t1 (F := Ideal) Variants.none c none i arg2 harg2 arg3 harg3 arg4 harg4 arg5 harg5 arg6 harg6
        (arg2.view.readAt (Elt Ideal) (Rect.unit (s := S1x512x3) ![0, 0, 0] S1x512x3.size inb_S1x512x3_S1x512x3_0_0_0).toLoadRect (harg2.unread x0))
        ((arg3.slice (Rect.unit (s := S1x3x8192) ![0, 0, 0] S1x3x8192.size inb_S1x3x8192_S1x3x8192_0_0_0) (fun _ => rfl)).squeeze S3x8192 squeezes_S1x3x8192_S3x8192)
        rfl (harg3.unread x1) G k0_pay3 (Scf.trips k0_t1_loop.lb k0_t1_loop.ub k0_t1_loop.st)).1 (ix2 r 0)
      = ⨅ j : Fin 8192, Dt x0 x1 r j := by
  refine (row_final_trips _ _ _ _ _ _ _ _ _ _ _ _ _ _ _ _ _ _ _ _ r).trans ?_
  rw [pay3_apply, min_top_left]
  exact iInf_congr fun j => D_eq_Dt arg2 harg2 arg3 harg3 x0 x1 r j

/-- After the loop, from any scratch contents `G`: lane `j` is what `G` held there, lowered by the distance from
    predicted point `j` to the nearest target point of the tile. -/
theorem scratch_after (x0 : Vec Ideal S1x512x3 .f32) (x1 : Vec Ideal S1x3x8192 .f32)
    (G : BufTy.Contents (Elt Ideal) arg6.view.ty) (j : Fin 8192) :
    arg6.view.read (Elt Ideal) (arg6.view.writes (Elt Ideal) G
      (st_k0_t1 (F := Ideal) Variants.none c none i arg2 harg2 arg3 harg3 arg4 harg4 arg5 harg5 arg6 harg6
        (arg2.view.readAt (Elt Ideal) (Rect.unit (s := S1x512x3) ![0, 0, 0] S1x512x3.size inb_S1x512x3_S1x512x3_0_0_0).toLoadRect (harg2.unread x0))
        ((arg3.slice (Rect.unit (s := S1x3x8192) ![0, 0, 0] S1x3x8192.size inb_S1x3x8192_S1x3x8192_0_0_0) (fun _ => rfl)).squeeze S3x8192 squeezes_S1x3x8192_S3x8192)
        rfl (harg3.unread x1) G k0_pay3 (Scf.trips k0_t1_loop.lb k0_t1_loop.ub k0_t1_loop.st)).2) (ix2 0 j)
      = min (arg6.view.read (Elt Ideal) G (ix2 0 j)) (⨅ r : Fin 512, Dt x0 x1 r j) := by
  refine (col_final_trips _ _ _ _ _ _ _ _ _ _ _ _ _ _ _ _ _ _ _ _ j).trans ?_
  exact congrArg (min _) (iInf_congr fun r => D_eq_Dt arg2 harg2 arg3 harg3 x0 x1 r j)

/-- Middle tile: every entry of the running sum gains the sum over the 512 target points of the distance to the
    nearest predicted point. -/
theorem caseB_sum (hcA : ¬condA i) (hcC : ¬condC i) (x0 : Vec Ideal S1x512x3 .f32) (x1 : Vec Ideal S1x3x8192 .f32)
    (y3 : Vec Ideal S1x8x128 .f32) (xs : Vec Ideal S1x8192 .f32) (a : Fin 8) (l : Fin 128) :
    out0_B_3 (F := Ideal) c i arg2 harg2 arg3 harg3 arg4 harg4 arg5 harg5 arg6 harg6 hcA hcC x0 x1 y3 xs (ix3 0 a l)
      = y3 (ix3 0 a l) + ∑ r : Fin 512, ⨅ j : Fin 8192, Dt x0 x1 r j := by
  unfold out0_B_3
  rw [View.read_writes_eq_canon _ _ _ (cover0_B_3 c i arg2 harg2 arg3 harg3 arg4 harg4 arg5 harg5 arg6 harg6 hcA hcC x0 x1 y3 xs)]
  unfold kernelRun0_B
  dsimp only
  refine (congrFun (View.canon_unit_zero (S := S1x8x128) hz3 _ _) (ix3 0 a l)).trans ?_
  refine (pay7_apply _ _ a l).trans ?_
  exact congrArg₂ (· + ·) (congrFun (readAt_whole_unread arg5 harg5 hz3 _ y3) (ix3 0 a l))
    (Finset.sum_congr rfl fun r _ => carried_after c i arg2 harg2 arg3 harg3 arg4 harg4 arg5 harg5 arg6 harg6 x0 x1 _ r)

/-- Middle tile: lane `j` of the scratch is lowered by the distance from predicted point `j` to the nearest target
    point of the tile. -/
theorem caseB_min (hcA : ¬condA i) (hcC : ¬condC i) (x0 : Vec Ideal S1x512x3 .f32) (x1 : Vec Ideal S1x3x8192 .f32)
    (y3 : Vec Ideal S1x8x128 .f32) (xs : Vec Ideal S1x8192 .f32) (j : Fin 8192) :
    sout0_B (F := Ideal) c i arg2 harg2 arg3 harg3 arg4 harg4 arg5 harg5 arg6 harg6 hcA hcC x0 x1 y3 xs (ix2 0 j)
      = min (xs (ix2 0 j)) (⨅ r : Fin 512, Dt x0 x1 r j) := by
  unfold sout0_B
  unfold kernelRun0_B
  dsimp only
  refine (scratch_after c i arg2 harg2 arg3 harg3 arg4 harg4 arg5 harg5 arg6 harg6 x0 x1 _ j).trans ?_
  rw [harg6.read_unread]

/-- Last tile: the running sum as at a middle tile. -/
theorem caseC_sum (hcA : ¬condA i) (hcC : condC i) (x0 : Vec Ideal S1x512x3 .f32) (x1 : Vec Ideal S1x3x8192 .f32)
    (y3 : Vec Ideal S1x8x128 .f32) (xs : Vec Ideal S1x8192 .f32) (a : Fin 8) (l : Fin 128) :
    out0_C_3 (F := Ideal) c i arg2 harg2 arg3 harg3 arg4 harg4 arg5 harg5 arg6 harg6 hcA hcC x0 x1 y3 xs (ix3 0 a l)
      = y3 (ix3 0 a l) + ∑ r : Fin 512, ⨅ j : Fin 8192, Dt x0 x1 r j := by
  unfold out0_C_3
  rw [View.read_writes_eq_canon _ _ _ (cover0_C_3 c i arg2 harg2 arg3 harg3 arg4 harg4 arg5 harg5 arg6 harg6 hcA hcC x0 x1 y3 xs)]
  unfold kernelRun0_C
  dsimp only
  refine (congrFun (View.canon_unit_zero (S := S1x8x128) hz3 _ _) (ix3 0 a l)).trans ?_
  refine (pay7_apply _ _ a l).trans ?_
  exact congrArg₂ (· + ·) (congrFun (readAt_whole_unread arg5 harg5 hz3 _ y3) (ix3 0 a l))
    (Finset.sum_congr rfl fun r _ => carried_after c i arg2 harg2 arg3 harg3 arg4 harg4 arg5 harg5 arg6 harg6 x0 x1 _ r)

/-- Last tile: the scratch as at a middle tile. -/
theorem caseC_min (hcA : ¬condA i) (hcC : condC i) (x0 : Vec Ideal S1x512x3 .f32) (x1 : Vec Ideal S1x3x8192 .f32)
    (y3 : Vec Ideal S1x8x128 .f32) (xs : Vec Ideal S1x8192 .f32) (j : Fin 8192) :
    sout0_C (F := Ideal) c i arg2 harg2 arg3 harg3 arg4 harg4 arg5 harg5 arg6 harg6 hcA hcC x0 x1 y3 xs (ix2 0 j)
      = min (xs (ix2 0 j)) (⨅ r : Fin 512, Dt x0 x1 r j) := by
  unfold sout0_C
  unfold kernelRun0_C
  dsimp only
  refine (scratch_after c i arg2 harg2 arg3 harg3 arg4 harg4 arg5 harg5 arg6 harg6 x0 x1 _ j).trans ?_
  rw [harg6.read_unread]

/-- Last tile: every entry of the second output block is the sum over the 8192 predicted points of the lowered
    scratch lanes. -/
theorem caseC_out (hcA : ¬condA i) (hcC : condC i) (x0 : Vec Ideal S1x512x3 .f32) (x1 : Vec Ideal S1x3x8192 .f32)
    (y3 : Vec Ideal S1x8x128 .f32) (xs : Vec Ideal S1x8192 .f32) (a : Fin 8) (l : Fin 128) :
    out0_C_2 (F := Ideal) c i arg2 harg2 arg3 harg3 arg4 harg4 arg5 harg5 arg6 harg6 hcA hcC x0 x1 y3 xs (ix3 0 a l)
      = ∑ j : Fin 8192, min (xs (ix2 0 j)) (⨅ r : Fin 512, Dt x0 x1 r j) := by
  unfold out0_C_2
  rw [View.read_writes_eq_canon _ _ _ (cover0_C_2 c i arg2 harg2 arg3 harg3 arg4 harg4 arg5 harg5 arg6 harg6 hcA hcC x0 x1 y3 xs)]
  unfold kernelRun0_C
  dsimp only
  sl_unfold_words
  refine (congrFun (View.canon_unit_zero (S := S1x8x128) hz3 _ _) (ix3 0 a l)).trans ?_
  refine (pay8_apply _ a l).trans ?_
  refine Finset.sum_congr rfl fun j _ => ?_
  rw [View.readAt_eq_ld, View.ld_unit_zero hz2]
  refine (scratch_after c i arg2 harg2 arg3 harg3 arg4 harg4 arg5 harg5 arg6 harg6 x0 x1 _ j).trans ?_
  rw [harg6.read_unread]

/-- The scratch right after the fill with +∞ reads +∞ in every lane. -/
theorem fill_apply (f : BufTy.Contents (Elt Ideal) arg6.view.ty) (j : Fin 8192) :
    arg6.view.read (Elt Ideal) (arg6.view.writes (Elt Ideal) f
        [⟨Rect.unit (s := S1x8192) ![0, 0] S1x8192.size inb_S1x8192_S1x8192_0_0, k0_pay2 (F := Ideal)⟩]) (ix2 0 j) = ⊤ := by
  refine (View.read_writes_cons_unit_of_mem arg6.view f inb_S1x8192_S1x8192_0_0 _ [] (ix2 0 j) (ix2 0 j) rfl
    (Fin.forall_fin_two.mpr ⟨(Nat.zero_add _).symm, (Nat.zero_add _).symm⟩)).trans ?_
  exact pay2_apply (ix2 0 j)

/-- First tile: the running sum restarts from zero, so every entry is the sum over the 512 target points of the
    distance to the nearest predicted point. -/
theorem caseA_sum (hcA : condA i) (hcC : ¬condC i) (x0 : Vec Ideal S1x512x3 .f32) (x1 : Vec Ideal S1x3x8192 .f32)
    (a : Fin 8) (l : Fin 128) :
    out0_A_3 (F := Ideal) c i arg2 harg2 arg3 harg3 arg4 harg4 arg5 harg5 arg6 harg6 hcA hcC x0 x1 (ix3 0 a l)
      = ∑ r : Fin 512, ⨅ j : Fin 8192, Dt x0 x1 r j := by
  unfold out0_A_3
  rw [View.read_writes_eq_canon _ _ _ (cover0_A_3 c i arg2 harg2 arg3 harg3 arg4 harg4 arg5 harg5 arg6 harg6 hcA hcC x0 x1)]
  unfold kernelRun0_A
  dsimp only
  sl_unfold_words
  refine (congrFun (View.canon_cons_unit_zero (S := S1x8x128) hz3 _ _ _) (ix3 0 a l)).trans ?_
  refine (pay7_apply _ _ a l).trans ?_
  rw [View.readCov_unit_zero arg5.view hz3, pay1_apply, zero_add]
  exact Finset.sum_congr rfl fun r _ => carried_after c i arg2 harg2 arg3 harg3 arg4 harg4 arg5 harg5 arg6 harg6 x0 x1 _ r

/-- First tile: the scratch restarts from +∞, so lane `j` is the distance from predicted point `j` to the nearest
    target point of the tile. -/
theorem caseA_min (hcA : condA i) (hcC : ¬condC i) (x0 : Vec Ideal S1x512x3 .f32) (x1 : Vec Ideal S1x3x8192 .f32)
    (j : Fin 8192) :
    sout0_A (F := Ideal) c i arg2 harg2 arg3 harg3 arg4 harg4 arg5 harg5 arg6 harg6 hcA hcC x0 x1 (ix2 0 j)
      = ⨅ r : Fin 512, Dt x0 x1 r j := by
  unfold sout0_A
  rw [View.read_writes_of_cover VS0 VS0.junk arg6.view arg6.view.junk _
    (scover0_A c i arg2 harg2 arg3 harg3 arg4 harg4 arg5 harg5 arg6 harg6 hcA hcC x0 x1)]
  unfold kernelRun0_A
  dsimp only
  sl_unfold_words
  rw [View.writes_append]
  refine (scratch_after c i arg2 harg2 arg3 harg3 arg4 harg4 arg5 harg5 arg6 harg6 x0 x1 _ j).trans ?_
  rw [fill_apply arg6 _ j, min_top_left]

end Cases

end Cert.KernelIdeal.CaseValue

end
-- ==== Proof.Spec.lean ====
/-
  The loss both programs compute, as one function of the two point clouds, over the extended reals.

  For a batch `b`, a target point `i` and a predicted point `j` the squared distance is the sum over the three
  coordinates of the squared difference, `((g₀ - p₀)² + (g₁ - p₁)²) + (g₂ - p₂)²`. Each predicted point takes the
  infimum over the target points (`colMin`), each target point the infimum over the predicted points (`rowMin`);
  the loss is the mean of the first over all `4 · 8192` predicted points plus the mean of the second over all
  `4 · 8192` target points, each mean a sum divided by the word `32768.0` (kept as its bit pattern: the same word on
  both sides is never evaluated).
-/
import Idealize.ShloMosaic.PureOps.Ideal
import Idealize.ShloMosaic.Lib.ValueIdx

noncomputable section

open scoped BigOperators

namespace Cert.Chamfer

open Idealize.ShloMosaic Idealize.ShloMosaic.ValueIdx

/-- The shape of a cloud: 4 batches of 8192 points of 3 coordinates. -/
abbrev SPts : Shape := ⟨3, ![4, 8192, 3]⟩

/-- Squared distance between target point `i` of `g` and predicted point `j` of `p` in batch `b`. -/
def sqd (p g : SPts.Idx → EReal) (b : Fin 4) (i j : Fin 8192) : EReal :=
  ((g (ix3 b i 0) - p (ix3 b j 0)) * (g (ix3 b i 0) - p (ix3 b j 0))
    + (g (ix3 b i 1) - p (ix3 b j 1)) * (g (ix3 b i 1) - p (ix3 b j 1)))
    + (g (ix3 b i 2) - p (ix3 b j 2)) * (g (ix3 b i 2) - p (ix3 b j 2))

/-- Nearest predicted point to target point `i`. -/
def rowMin (p g : SPts.Idx → EReal) (b : Fin 4) (i : Fin 8192) : EReal := ⨅ j : Fin 8192, sqd p g b i j

/-- Nearest target point to predicted point `j`. -/
def colMin (p g : SPts.Idx → EReal) (b : Fin 4) (j : Fin 8192) : EReal := ⨅ i : Fin 8192, sqd p g b i j

/-- The count `4 · 8192 = 32768` as the f32 word both programs divide by. -/
def cnt : EReal := Ideal.ofBits .f32 0x47000000#32

/-- The loss: mean nearest-target distance over the predicted points plus mean nearest-prediction distance over the
    target points. -/
def loss (p g : SPts.Idx → EReal) : EReal :=
  Ideal.div (∑ b : Fin 4, ∑ j : Fin 8192, colMin p g b j) cnt
    + Ideal.div (∑ b : Fin 4, ∑ i : Fin 8192, rowMin p g b i) cnt

end Cert.Chamfer

end
-- ==== Proof.KITailBlocks.lean ====
/-
  From the written-back blocks to the two result arrays.

  The pallas_call runs over a 4 × 16 grid, point `t = 16·b + n`.  Each of its two results is a `[4, 8, 128]` array
  whose block `(b, 0, 0)` of shape `[1, 8, 128]` is written back exactly once, at the last point `16·b + 15` of
  batch `b`'s row of the grid; the four written blocks are pairwise disjoint, so after the run entry `(b, a, l)` of
  the array is entry `(0, a, l)` of what the body left in the staging block at that point.
-/
import proofs.«125768_j28200755266074_2_alg».proof.Proof.Gen.KernelIdeal.Frame
import proofs.«125768_j28200755266074_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators

namespace Cert.KernelIdeal.TailValue

open Cert.KernelIdeal Cert.KernelIdeal.Gen Idealize.ShloMosaic Idealize.ShloMosaic.TcCoe Idealize.SL.Sem
  Idealize.ShloMosaic.ValueIdx
open Idealize.ShloMosaic.Pipeline (Dat)

/-! ## From the written-back blocks to the arrays -/

section Blocks

variable {F : FTy → Type} [FloatOps F]

/-- The last point of batch `b`'s row of the grid. -/
abbrev lastPt (b : Fin 4) : Fin cfg0.N :=
  ⟨16 * b.val + 15, by have := b.isLt; have h : cfg0.N = 64 := N_0; omega⟩

/-- The first result's block index at point `t` is `(t / 16, 0, 0)`. -/
theorem index2 : ∀ t : Fin cfg0.N,
    (cfg0.win 2).index t 0 = t.val / 16 ∧ (cfg0.win 2).index t 1 = 0 ∧ (cfg0.win 2).index t 2 = 0 :=
  (by decide +kernel : ∀ t : Fin grid0.N,
    win0_2.index t 0 = t.val / 16 ∧ win0_2.index t 1 = 0 ∧ win0_2.index t 2 = 0)

/-- The second result's block index at point `t` is `(t / 16, 0, 0)`. -/
theorem index3 : ∀ t : Fin cfg0.N,
    (cfg0.win 3).index t 0 = t.val / 16 ∧ (cfg0.win 3).index t 1 = 0 ∧ (cfg0.win 3).index t 2 = 0 :=
  (by decide +kernel : ∀ t : Fin grid0.N,
    win0_3.index t 0 = t.val / 16 ∧ win0_3.index t 1 = 0 ∧ win0_3.index t 2 = 0)

/-- Two different points that write the first result back write disjoint blocks: they are last points of
    different batches. -/
theorem disjoint2 : ∀ t t' : Fin cfg0.N, (cfg0.win 2).flush t = true → (cfg0.win 2).flush t' = true → t ≠ t' →
    Disjoint ((cfg0.win 2).blk t).view.set ((cfg0.win 2).blk t').view.set := fun t t' hf hf' hne =>
  (cfg0.win 2).disjoint_blk fun e => by
    have h1 := (flush0_2 t).mp hf
    have h2 := (flush0_2 t').mp hf'
    have e0 := congrFun e 0
    rw [(index2 t).1, (index2 t').1] at e0
    exact hne (Fin.ext (by omega))

/-- The same for the second result. -/
theorem disjoint3 : ∀ t t' : Fin cfg0.N, (cfg0.win 3).flush t = true → (cfg0.win 3).flush t' = true → t ≠ t' →
    Disjoint ((cfg0.win 3).blk t).view.set ((cfg0.win 3).blk t').view.set := fun t t' hf hf' hne =>
  (cfg0.win 3).disjoint_blk fun e => by
    have h1 := (flush0_3 t).mp hf
    have h2 := (flush0_3 t').mp hf'
    have e0 := congrFun e 0
    rw [(index3 t).1, (index3 t').1] at e0
    exact hne (Fin.ext (by omega))

variable {c : Dev nD} (dat : Dat τ (Elt F) Unit ℕ (UR sig nD τ) ℕ cfg0 c)

/-- After the run, entry `(b, a, l)` of the first result is entry `(0, a, l)` of what the body left in its staging
    block at the last point of batch `b`. -/
theorem arrAt_block2 (b : Fin 4) (a : Fin 8) (l : Fin 128) :
    dat.arrAt 2 cfg0.N (ix3 b a l) = dat.after 2 (lastPt b) (ix3 (0 : Fin 1) a l) := by
  have hf : (cfg0.win 2).flush (lastPt b) = true :=
    (flush0_2 _).mpr (by show (16 * b.val + 15) % 16 = 15; omega)
  have h := dat.arrAt_emb_eq_flushed 2 disjoint2 (lastPt b) hf (ix3 (0 : Fin 1) a l)
  have e : ((cfg0.win 2).blk (lastPt b)).view.emb (ix3 (0 : Fin 1) a l) = ix3 b a l :=
    funext fun x => Fin.ext (by
      match x with
      | ⟨0, _⟩ =>
        show (cfg0.win 2).index (lastPt b) 0 * 1 + 1 * 0 = b.val
        rw [(index2 _).1]; show (16 * b.val + 15) / 16 * 1 + 1 * 0 = b.val; omega
      | ⟨1, _⟩ =>
        show (cfg0.win 2).index (lastPt b) 1 * 8 + 1 * a.val = a.val
        rw [(index2 _).2.1]; omega
      | ⟨2, _⟩ =>
        show (cfg0.win 2).index (lastPt b) 2 * 128 + 1 * l.val = l.val
        rw [(index2 _).2.2]; omega)
  rw [e] at h
  refine h.trans ?_
  rw [cast_eq]
  exact congrArg (dat.after 2 (lastPt b)) (funext fun x => Fin.ext (by
    match x with | ⟨0, _⟩ => rfl | ⟨1, _⟩ => rfl | ⟨2, _⟩ => rfl))

/-- The same for the second result. -/
theorem arrAt_block3 (b : Fin 4) (a : Fin 8) (l : Fin 128) :
    dat.arrAt 3 cfg0.N (ix3 b a l) = dat.after 3 (lastPt b) (ix3 (0 : Fin 1) a l) := by
  have hf : (cfg0.win 3).flush (lastPt b) = true :=
    (flush0_3 _).mpr (by show (16 * b.val + 15) % 16 = 15; omega)
  have h := dat.arrAt_emb_eq_flushed 3 disjoint3 (lastPt b) hf (ix3 (0 : Fin 1) a l)
  have e : ((cfg0.win 3).blk (lastPt b)).view.emb (ix3 (0 : Fin 1) a l) = ix3 b a l :=
    funext fun x => Fin.ext (by
      match x with
      | ⟨0, _⟩ =>
        show (cfg0.win 3).index (lastPt b) 0 * 1 + 1 * 0 = b.val
        rw [(index3 _).1]; show (16 * b.val + 15) / 16 * 1 + 1 * 0 = b.val; omega
      | ⟨1, _⟩ =>
        show (cfg0.win 3).index (lastPt b) 1 * 8 + 1 * a.val = a.val
        rw [(index3 _).2.1]; omega
      | ⟨2, _⟩ =>
        show (cfg0.win 3).index (lastPt b) 2 * 128 + 1 * l.val = l.val
        rw [(index3 _).2.2]; omega)
  rw [e] at h
  refine h.trans ?_
  rw [cast_eq]
  exact congrArg (dat.after 3 (lastPt b)) (funext fun x => Fin.ext (by
    match x with | ⟨0, _⟩ => rfl | ⟨1, _⟩ => rfl | ⟨2, _⟩ => rfl))

end Blocks

end Cert.KernelIdeal.TailValue

end
-- ==== Proof.KITailHost.lean ====
/-
  The host lines after the pallas_call, as one function of the two result arrays.

  Each `[4, 8, 128]` result is sliced to its entries `(b, 0, 0)`, reshaped to a vector of four, summed from the zero
  word and divided by the word 32768.0; the two quotients are added.  At the ideal values this is
  `(∑ b, A₂(b,0,0)) / 32768 + (∑ b, A₃(b,0,0)) / 32768`.
-/
import proofs.«125768_j28200755266074_2_alg».proof.Proof.Gen.KernelIdeal.Frame
import proofs.«125768_j28200755266074_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators

namespace Cert.KernelIdeal.TailValue

open Cert.KernelIdeal Cert.KernelIdeal.Gen Idealize.ShloMosaic Idealize.ShloMosaic.TcCoe Idealize.SL.Sem
  Idealize.ShloMosaic.ValueIdx
open Idealize.ShloMosaic.Pipeline (Dat)

/-! ## The tail on two arrays -/

/-- Entry `b` of the sliced and reshaped array is entry `(b, 0, 0)` of the array. -/
theorem firstEntries_apply (A : FVec Ideal S4x8x128 .f32) (b : Fin 4) :
    shapeCast S4 (extractStridedSlice S4x1x1 ![0, 0, 0] A slices_S4x8x128_S4x1x1_0_0_0) shapeCasts_S4x1x1_S4 (ix1 b)
      = A (ix3 b (0 : Fin 8) (0 : Fin 128)) := by
  refine (shapeCast_apply _ shapeCasts_S4x1x1_S4 (ix1 b) (ix3 b (0 : Fin 1) (0 : Fin 1)) ?_).trans ?_
  · rw [Shape.rowMajor_val_three, Shape.rowMajor_val_one]
    show (b.val * 1 + 0) * 1 + 0 = b.val
    omega
  · refine extractStridedSlice_apply _ A _ (ix3 b (0 : Fin 1) (0 : Fin 1)) (ix3 b (0 : Fin 8) (0 : Fin 128)) fun a => ?_
    match a with
    | ⟨0, _⟩ => show b.val = 0 + b.val; omega
    | ⟨1, _⟩ => show 0 = 0 + 0; rfl
    | ⟨2, _⟩ => show 0 = 0 + 0; rfl

/-- A sum over the index set of a vector of four is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- The sum from the zero word of a vector of four. -/
theorem sum4 (y : FVec Ideal S4 .f32) (i : S_.Idx) :
    Host.reduceAdd y (constant (F := Ideal) S_ .f32 0x00000000#32) reducesTo_S4_S_d0 h_S_ i = ∑ b : Fin 4, y (ix1 b) := by
  simp only [Host.reduceAdd, Ideal.hostReduceAdd_def]
  rw [Ideal.hostReduceAdd_total reducesTo_S4_S_d0 (fun b => b.elim0) y _ i, sum_idx1]
  show Ideal.ofBits .f32 0x00000000#32 + _ = _
  rw [Ideal.ofBits_zero_f32, zero_add]

/-- The host lines after the call, applied to contents `A2`, `A3` of the two result arrays. -/
def tail (A2 A3 : FVec Ideal S4x8x128 .f32) : FVec Ideal S_ .f32 :=
  addf
    (Host.divf
      (Host.reduceAdd
        (shapeCast S4 (extractStridedSlice S4x1x1 ![0, 0, 0] A2 slices_S4x8x128_S4x1x1_0_0_0) shapeCasts_S4x1x1_S4)
        (constant (F := Ideal) S_ .f32 0x00000000#32) reducesTo_S4_S_d0 h_S_)
      (constant (F := Ideal) S_ .f32 0x47000000#32))
    (Host.divf
      (Host.reduceAdd
        (shapeCast S4 (extractStridedSlice S4x1x1 ![0, 0, 0] A3 slices_S4x8x128_S4x1x1_0_0_0) shapeCasts_S4x1x1_S4)
        (constant (F := Ideal) S_ .f32 0x00000000#32) reducesTo_S4_S_d0 h_S_)
      (constant (F := Ideal) S_ .f32 0x47000000#32))

/-- The tail at its one index: the two means of the entries `(b, 0, 0)`, added. -/
theorem tail_apply (A2 A3 : FVec Ideal S4x8x128 .f32) (i : S_.Idx) :
    tail A2 A3 i
      = Ideal.div (∑ b : Fin 4, A2 (ix3 b (0 : Fin 8) (0 : Fin 128))) Cert.Chamfer.cnt
        + Ideal.div (∑ b : Fin 4, A3 (ix3 b (0 : Fin 8) (0 : Fin 128))) Cert.Chamfer.cnt := by
  show Ideal.div (Host.reduceAdd (F := Ideal) (φ := .f32) _ _ reducesTo_S4_S_d0 h_S_ i) (Ideal.ofBits .f32 0x47000000#32)
      + Ideal.div (Host.reduceAdd (F := Ideal) (φ := .f32) _ _ reducesTo_S4_S_d0 h_S_ i) (Ideal.ofBits .f32 0x47000000#32) = _
  rw [sum4, sum4]
  simp only [firstEntries_apply]
  rfl

/-! ## The program's tail is that function of the arrays after the call -/

variable (m : (ℓ : Loc nD τ sig) → Buf (Elt Ideal) ℓ)

/-- What the result buffer holds after the host lines that follow the call: the tail of the two result arrays as
    the call leaves them. -/
theorem afterTail_eq (dats : (p : Fin 1) → (c : Dev nD) → Dat τ (Elt Ideal) Unit ℕ (UR sig nD τ) ℕ (cfgs p) c)
    (c : Dev nD) :
    Pipeline.afterTail₀ cfgs dats 0 (V0 m) [hostOps1] c main_v10
      = tail ((dats 0 c).arrAt 2 cfg0.N) ((dats 0 c).arrAt 3 cfg0.N) := by
  have e2 : Pipeline.withArrays (cfgs 0).spec c (V0 m c) (fun w => (dats 0 c).arrAt w (cfgs 0).N)
      (Proc.devRef .tc main_v1_0) = (dats 0 c).arrAt 2 cfg0.N :=
    Pipeline.withArrays_arr spec0 winFacts0.arr_inj c _ _ 2
  have e3 : Pipeline.withArrays (cfgs 0).spec c (V0 m c) (fun w => (dats 0 c).arrAt w (cfgs 0).N)
      (Proc.devRef .tc main_v1_1) = (dats 0 c).arrAt 3 cfg0.N :=
    Pipeline.withArrays_arr spec0 winFacts0.arr_inj c _ _ 3
  unfold Pipeline.afterTail₀
  show StableHlo.after hostOps1 _ (Proc.devRef .tc main_v10) = _
  after_results
  rw [e2, e3]
  rfl

/-- The result buffer after the program, from the arrays after the call. -/
theorem tail_of_arrays (dats : (p : Fin 1) → (c : Dev nD) → Dat τ (Elt Ideal) Unit ℕ (UR sig nD τ) ℕ (cfgs p) c)
    (c : Dev nD) :
    Pipeline.afterTail₀ cfgs dats 0 (V0 m) [hostOps1] c main_v10
      = fun _ => Ideal.div (∑ b : Fin 4, (dats 0 c).arrAt 2 cfg0.N (ix3 b (0 : Fin 8) (0 : Fin 128))) Cert.Chamfer.cnt
          + Ideal.div (∑ b : Fin 4, (dats 0 c).arrAt 3 cfg0.N (ix3 b (0 : Fin 8) (0 : Fin 128))) Cert.Chamfer.cnt := by
  rw [afterTail_eq]
  funext i
  exact tail_apply _ _ i

end Cert.KernelIdeal.TailValue

end
-- ==== Proof.KITail.lean ====
/-
  The kernel program's result from what its body leaves in the two output blocks.

  Each result array's entry `(b, 0, 0)` is what the body left at entry `(0, 0, 0)` of the staging block at the last
  point `16·b + 15` of batch `b`; the host lines after the call sum these four entries of each array from zero,
  divide by the word 32768.0 and add the two quotients.
-/
import proofs.«125768_j28200755266074_2_alg».proof.Proof.KITailBlocks
import proofs.«125768_j28200755266074_2_alg».proof.Proof.KITailHost

set_option maxRecDepth 16384

noncomputable section

open scoped BigOperators

namespace Cert.KernelIdeal.TailValue

open Cert.KernelIdeal Cert.KernelIdeal.Gen Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ)

/-- The result buffer after the program, for any proof data of the call: the mean over the four batches' last
    points of what the body left at entry `(0, 0, 0)` of the first output block, plus the same for the second. -/
theorem result_of_dats (dats : (p : Fin 1) → (c : Dev nD) → Dat τ (Elt Ideal) Unit ℕ (UR sig nD τ) ℕ (cfgs p) c)
    (c : Dev nD) :
    Pipeline.afterTail₀ cfgs dats 0 (V0 m) [hostOps1] c main_v10
      = fun _ =>
          Ideal.div (∑ b : Fin 4, (dats 0 c).after 2 (lastPt b) (ix3 (0 : Fin 1) (0 : Fin 8) (0 : Fin 128))) Cert.Chamfer.cnt
          + Ideal.div (∑ b : Fin 4, (dats 0 c).after 3 (lastPt b) (ix3 (0 : Fin 1) (0 : Fin 8) (0 : Fin 128))) Cert.Chamfer.cnt := by
  rw [tail_of_arrays]
  funext _
  simp only [arrAt_block2, arrAt_block3]

end Cert.KernelIdeal.TailValue

end
-- ==== Proof.LibTiles.lean ====
import Mathlib.Algebra.BigOperators.Fin
import Mathlib.Data.Fintype.BigOperators
import Mathlib.Order.CompleteLattice.Finset

/-!
A general regrouping of a sum, or an infimum, over the indices `0 ≤ i < m * n` into `m` consecutive tiles of `n`
indices each (Mathlib only): the index `i` is `n * (i / n) + i % n`, the tile number `i / n` runs over
`0 ≤ q < m` and the position in the tile `i % n` over `0 ≤ r < n`.

* `sum_tiles_gen`: in any commutative additive monoid (so also on the extended reals, with no finiteness),
  `∑ q ∈ range m, ∑ r : Fin n, F (n * q + r) = ∑ i : Fin (m * n), F i`, because `(q, r) ↦ n * q + r` is a bijection of
  `Fin m × Fin n` onto `Fin (m * n)`.
* `inf_tiles_gen`: in any complete lattice, `(range m).inf (fun q => ⨅ r : Fin n, F (n * q + r)) = ⨅ i : Fin (m * n), F i`,
  because every index lies in exactly one tile: each side is a lower bound of every term of the other.

What a kernel that folds a reduction tile by tile over a grid axis (a running sum, a running minimum) needs to meet a
reference that reduces the whole axis at once.
-/

open scoped BigOperators

namespace Cert.Lib.Tiles

/-- A sum over `Fin (m * n)` taken as `m` tiles of `n` consecutive indices. -/
theorem sum_tiles_gen {M : Type*} [AddCommMonoid M] (m n : ℕ) (F : ℕ → M) :
    ∑ q ∈ Finset.range m, ∑ r : Fin n, F (n * q + r.val) = ∑ i : Fin (m * n), F i.val := by
  calc ∑ q ∈ Finset.range m, ∑ r : Fin n, F (n * q + r.val)
      = ∑ q : Fin m, ∑ r : Fin n, F (n * q.val + r.val) :=
        Finset.sum_range (fun q => ∑ r : Fin n, F (n * q + r.val))
    _ = ∑ x : Fin m × Fin n, F (n * x.1.val + x.2.val) :=
        (Fintype.sum_prod_type' (fun (q : Fin m) (r : Fin n) => F (n * q.val + r.val))).symm
    _ = ∑ x : Fin m × Fin n, F ((finProdFinEquiv x).val) := by
        refine Fintype.sum_congr _ _ (fun x => ?_)
        rw [finProdFinEquiv_apply_val, add_comm]
    _ = ∑ i : Fin (m * n), F i.val :=
        Equiv.sum_comp finProdFinEquiv (fun i : Fin (m * n) => F i.val)

/-- An infimum over `Fin (m * n)` taken as `m` tiles of `n` consecutive indices. -/
theorem inf_tiles_gen {α : Type*} [CompleteLattice α] (m n : ℕ) (F : ℕ → α) :
    (Finset.range m).inf (fun q => ⨅ r : Fin n, F (n * q + r.val))
      = ⨅ i : Fin (m * n), F i.val := by
  apply le_antisymm
  · -- the tiled infimum is below the term at `i`: go to tile `i / n`, position `i % n`
    refine le_iInf (fun i => ?_)
    have hmn : 0 < m * n := Nat.lt_of_le_of_lt (Nat.zero_le _) i.isLt
    have hn : 0 < n := Nat.pos_of_ne_zero (fun h => by simp [h] at hmn)
    have hq : i.val / n < m := by
      rw [Nat.div_lt_iff_lt_mul hn]; exact i.isLt
    have hr : i.val % n < n := Nat.mod_lt _ hn
    calc (Finset.range m).inf (fun q => ⨅ r : Fin n, F (n * q + r.val))
        ≤ ⨅ r : Fin n, F (n * (i.val / n) + r.val) :=
          Finset.inf_le (f := fun q => ⨅ r : Fin n, F (n * q + r.val))
            (Finset.mem_range.mpr hq)
      _ ≤ F (n * (i.val / n) + i.val % n) :=
          iInf_le (fun r : Fin n => F (n * (i.val / n) + r.val)) ⟨i.val % n, hr⟩
      _ = F i.val := congrArg F (Nat.div_add_mod i.val n)
  · -- the whole infimum is below the term at position `r` of tile `q`: it is the term at `n * q + r`
    refine Finset.le_inf (fun q hq => ?_)
    refine le_iInf (fun r => ?_)
    have hq' : q < m := Finset.mem_range.mp hq
    have hlt : n * q + r.val < m * n := by
      calc n * q + r.val < n * q + n := Nat.add_lt_add_left r.isLt _
        _ = n * (q + 1) := (Nat.mul_succ n q).symm
        _ ≤ n * m := Nat.mul_le_mul_left _ hq'
        _ = m * n := Nat.mul_comm _ _
    exact iInf_le (fun i : Fin (m * n) => F i.val) ⟨n * q + r.val, hlt⟩

end Cert.Lib.Tiles
-- ==== Proof.Regroup.lean ====
import Mathlib.Data.EReal.Basic
import Mathlib.Algebra.BigOperators.Fin
import Mathlib.Data.Fintype.BigOperators
import Mathlib.Order.CompleteLattice.Finset
import proofs.«125768_j28200755266074_2_alg».proof.Proof.LibTiles

/-!
Regrouping a sum, or an infimum, over the indices `0 ≤ i < m * n` into `m` consecutive
tiles of `n` indices each: the index `i` is `n * (i / n) + i % n`, the tile number
`i / n` runs over `0 ≤ q < m` and the position in the tile `i % n` over `0 ≤ r < n`.

* A sum in a commutative additive monoid may be taken tile by tile, because
  `(q, r) ↦ n * q + r` is a bijection of `Fin m × Fin n` onto `Fin (m * n)`.
* An infimum in a complete lattice may be taken tile by tile, because every index lies
  in exactly one tile: each side is a lower bound of every term of the other.

The instances used are `m = 16`, `n = 512`, `m * n = 8192`, over the extended reals,
together with the one-step unfoldings of a sum and of an infimum over `range (n + 1)`.
-/

open scoped BigOperators

namespace Cert.Chamfer.Regroup

/-- The sum over 8192 indices as 16 tiles of 512. -/
theorem sum_tiles (F : ℕ → EReal) :
    ∑ q ∈ Finset.range 16, ∑ r : Fin 512, F (512 * q + r.val) = ∑ i : Fin 8192, F i.val :=
  Cert.Lib.Tiles.sum_tiles_gen 16 512 F

/-- The infimum over 8192 indices as 16 tiles of 512. -/
theorem inf_tiles (F : ℕ → EReal) :
    (Finset.range 16).inf (fun q => ⨅ r : Fin 512, F (512 * q + r.val))
      = ⨅ i : Fin 8192, F i.val :=
  Cert.Lib.Tiles.inf_tiles_gen 16 512 F

/-- One more term of a sum over an initial segment. -/
theorem sum_range_succ' (f : ℕ → EReal) (n : ℕ) :
    ∑ q ∈ Finset.range (n + 1), f q = (∑ q ∈ Finset.range n, f q) + f n :=
  Finset.sum_range_succ f n

/-- One more term of an infimum over an initial segment; on a linear order the binary
infimum is the minimum. -/
theorem inf_range_succ (f : ℕ → EReal) (n : ℕ) :
    (Finset.range (n + 1)).inf f = min ((Finset.range n).inf f) (f n) := by
  rw [Finset.range_add_one, Finset.inf_insert, inf_comm]

theorem inf_range_one (f : ℕ → EReal) : (Finset.range 1).inf f = f 0 := by
  rw [Finset.range_one, Finset.inf_singleton]

theorem sum_range_one' (f : ℕ → EReal) : ∑ q ∈ Finset.range 1, f q = f 0 := by
  rw [Finset.range_one, Finset.sum_singleton]

theorem min_top_left (x : EReal) : min ⊤ x = x := min_eq_right le_top

theorem zero_add' (x : EReal) : 0 + x = x := zero_add x

end Cert.Chamfer.Regroup
-- ==== Proof.KIValue.lean ====
/-
  The kernel program's result at the ideal instance, as the loss of the two clouds.

  Point t = 16·b + nb of the grid folds tile nb (target points 512·nb … 512·nb + 511) of batch b into two running
  quantities: the sum, over the tile's target points, of the distance to the nearest predicted point, added to the
  running sum; and, for every predicted point, the distance to the nearest target point of the tile, folded by min into
  the running column minimum. By induction on the point, after point t the running sum is the sum of the tile sums of
  tiles 0 … nb and the column minimum the infimum of the tile minima of tiles 0 … nb. At nb = 15 all 8192 target points
  of the batch have been folded: the running sum is the sum of the nearest-prediction distances over the batch's target
  points, the column minima are the nearest-target distances, and their sum is what the point stores into the first
  result. The host lines after the region add the four batches' entries of each result, divide each total by the
  word 32768.0 and add the two quotients: the loss. No law used here needs finiteness.
-/
import proofs.«125768_j28200755266074_2_alg».proof.Proof.KIFrame
import proofs.«125768_j28200755266074_2_alg».proof.Proof.KIBlocks
import proofs.«125768_j28200755266074_2_alg».proof.Proof.KICases
import proofs.«125768_j28200755266074_2_alg».proof.Proof.KITail
import proofs.«125768_j28200755266074_2_alg».proof.Proof.Regroup
import proofs.«125768_j28200755266074_2_alg».proof.Proof.Spec

noncomputable section

open scoped BigOperators

namespace Cert.KernelIdeal.RunValue

open Idealize.ShloMosaic Idealize.ShloMosaic.TcCoe Idealize.ShloMosaic.ValueIdx Idealize.SL.Sem
open Cert.KernelIdeal Cert.KernelIdeal.Gen Cert.KernelIdeal.CaseValue

variable (m : (ℓ : Loc nD τ sig) → Buf (Elt Ideal) ℓ) (c : Dev nD)

/-- The squared distance with the target point named by a natural number (beyond the cloud: +∞, never consulted). -/
def sqdAt (b : Fin 4) (k : ℕ) (j : Fin 8192) : EReal :=
  if h : k < 8192 then Cert.Chamfer.sqd (m ((c : Thread nD τ).loc main_arg0)) (m ((c : Thread nD τ).loc main_arg1)) b ⟨k, h⟩ j else ⊤

/-- Tile `q`'s sum of nearest-prediction distances. -/
def tileSum (b : Fin 4) (q : ℕ) : EReal := ∑ r : Fin 512, ⨅ j : Fin 8192, sqdAt m c b (512 * q + r.val) j
/-- Tile `q`'s nearest target point to predicted point `j`. -/
def tileMin (b : Fin 4) (j : Fin 8192) (q : ℕ) : EReal := ⨅ r : Fin 512, sqdAt m c b (512 * q + r.val) j

/-- The table of tile t mod 16 of batch t / 16 is the squared distances of its 512 target points. -/
theorem Dt_tile (t : Fin cfg0.N) (b : Fin 4) (hb : b.val = t.val / 16) (r : Fin 512) (j : Fin 8192) :
    Dt (iblk m c 0 t) (iblk m c 1 t) r j = sqdAt m c b (512 * (t.val % 16) + r.val) j := by
  have hN : t.val < 64 := lt_of_lt_of_eq t.isLt N_0
  have hk : 512 * (t.val % 16) + r.val < 8192 := by have := r.isLt; omega
  unfold Dt sqdAt
  rw [dif_pos hk]
  unfold Cert.Chamfer.sqd
  rw [iblk0_apply m c t r 0 (ix3 b ⟨_, hk⟩ 0) hb rfl rfl, iblk0_apply m c t r 1 (ix3 b ⟨_, hk⟩ 1) hb rfl rfl,
    iblk0_apply m c t r 2 (ix3 b ⟨_, hk⟩ 2) hb rfl rfl,
    iblk1_apply m c t 0 j (ix3 b 0 j) hb rfl rfl, iblk1_apply m c t 1 j (ix3 b 1 j) hb rfl rfl,
    iblk1_apply m c t 2 j (ix3 b 2 j) hb rfl rfl,
    V_main_arg1, V_main_v0_apply, V_main_v0_apply, V_main_v0_apply]

theorem tile_sum_eq (t : Fin cfg0.N) (b : Fin 4) (hb : b.val = t.val / 16) :
    (∑ r : Fin 512, ⨅ j : Fin 8192, Dt (iblk m c 0 t) (iblk m c 1 t) r j) = tileSum m c b (t.val % 16) := by
  unfold tileSum
  exact Finset.sum_congr rfl fun r _ => iInf_congr fun j => Dt_tile m c t b hb r j
theorem tile_min_eq (t : Fin cfg0.N) (b : Fin 4) (hb : b.val = t.val / 16) (j : Fin 8192) :
    (⨅ r : Fin 512, Dt (iblk m c 0 t) (iblk m c 1 t) r j) = tileMin m c b j (t.val % 16) := by
  unfold tileMin
  exact iInf_congr fun r => Dt_tile m c t b hb r j

set_option maxHeartbeats 1600000 in
/-- After point `n` of batch n / 16: the running sum is the sum of the tile sums so far, the column minimum the
    infimum of the tile minima so far. -/
theorem state_at : ∀ (n : ℕ) (hn : n < cfg0.N) (b : Fin 4) (hb : b.val = n / 16),
    (∀ (a : Fin 8) (l : Fin 128), (outsAt0 m c n hn).1 (ix3 0 a l) = ∑ q ∈ Finset.range (n % 16 + 1), tileSum m c b q) ∧
    (∀ j : Fin 8192, (outsAt0 m c n hn).2 (ix2 0 j) = (Finset.range (n % 16 + 1)).inf (tileMin m c b j)) := by
  intro n
  induction n with
  | zero =>
    intro hn b hb
    have h0 : (⟨0, hn⟩ : Fin cfg0.N).val % 16 = 0 := rfl
    have e := outsAt0_A m c ⟨0, hn⟩ h0
    rw [show outsAt0 m c 0 hn = _ from e]
    unfold stepA
    refine ⟨fun a l => ?_, fun j => ?_⟩
    · dsimp only
      rw [caseA_sum, tile_sum_eq m c ⟨0, hn⟩ b hb]
      exact (Cert.Chamfer.Regroup.sum_range_one' _).symm
    · dsimp only
      rw [caseA_min, tile_min_eq m c ⟨0, hn⟩ b hb j]
      exact (Cert.Chamfer.Regroup.inf_range_one _).symm
  | succ n ih =>
    intro hn b hb
    have hN : n + 1 < 64 := lt_of_lt_of_eq hn N_0
    by_cases h0 : (n + 1) % 16 = 0
    · have e := outsAt0_A m c ⟨n + 1, hn⟩ h0
      rw [show outsAt0 m c (n + 1) hn = _ from e, h0]
      unfold stepA
      have hq : (⟨n + 1, hn⟩ : Fin cfg0.N).val % 16 = 0 := h0
      refine ⟨fun a l => ?_, fun j => ?_⟩
      · dsimp only
        rw [caseA_sum, tile_sum_eq m c ⟨n + 1, hn⟩ b hb, hq]
        exact (Cert.Chamfer.Regroup.sum_range_one' _).symm
      · dsimp only
        rw [caseA_min, tile_min_eq m c ⟨n + 1, hn⟩ b hb j, hq]
        exact (Cert.Chamfer.Regroup.inf_range_one _).symm
    · have hb' : b.val = n / 16 := by omega
      have hq : n % 16 + 1 = (n + 1) % 16 := by omega
      obtain ⟨ih1, ih2⟩ := ih (Nat.lt_of_succ_lt hn) b hb'
      rw [hq] at ih1 ih2
      by_cases h15 : (n + 1) % 16 = 15
      · have e := outsAt0_C m c ⟨n + 1, hn⟩ h15
        rw [show outsAt0 m c (n + 1) hn = _ from e]
        unfold stepC
        refine ⟨fun a l => ?_, fun j => ?_⟩
        · dsimp only
          rw [caseC_sum, tile_sum_eq m c ⟨n + 1, hn⟩ b hb, Cert.Chamfer.Regroup.sum_range_succ']
          exact congrArg (· + _) (ih1 a l)
        · dsimp only
          rw [caseC_min, tile_min_eq m c ⟨n + 1, hn⟩ b hb j, Cert.Chamfer.Regroup.inf_range_succ]
          exact congrArg (min · _) (ih2 j)
      · have e := outsAt0_B m c ⟨n + 1, hn⟩ h0 h15
        rw [show outsAt0 m c (n + 1) hn = _ from e]
        unfold stepB
        refine ⟨fun a l => ?_, fun j => ?_⟩
        · dsimp only
          rw [caseB_sum, tile_sum_eq m c ⟨n + 1, hn⟩ b hb, Cert.Chamfer.Regroup.sum_range_succ']
          exact congrArg (· + _) (ih1 a l)
        · dsimp only
          rw [caseB_min, tile_min_eq m c ⟨n + 1, hn⟩ b hb j, Cert.Chamfer.Regroup.inf_range_succ]
          exact congrArg (min · _) (ih2 j)

/-- All sixteen tiles of a batch: the nearest-prediction distances summed over its 8192 target points. -/
theorem tiles_sum (b : Fin 4) :
    (∑ q ∈ Finset.range 16, tileSum m c b q)
      = ∑ i : Fin 8192, Cert.Chamfer.rowMin (m ((c : Thread nD τ).loc main_arg0)) (m ((c : Thread nD τ).loc main_arg1)) b i := by
  unfold tileSum
  rw [Cert.Chamfer.Regroup.sum_tiles (fun k => ⨅ j : Fin 8192, sqdAt m c b k j)]
  refine Finset.sum_congr rfl fun i _ => ?_
  unfold Cert.Chamfer.rowMin sqdAt
  exact iInf_congr fun j => dif_pos i.isLt
/-- and the nearest target point to predicted point `j` among all of them. -/
theorem tiles_min (b : Fin 4) (j : Fin 8192) :
    (Finset.range 16).inf (tileMin m c b j)
      = Cert.Chamfer.colMin (m ((c : Thread nD τ).loc main_arg0)) (m ((c : Thread nD τ).loc main_arg1)) b j := by
  unfold tileMin
  rw [Cert.Chamfer.Regroup.inf_tiles (fun k => sqdAt m c b k j)]
  unfold Cert.Chamfer.colMin sqdAt
  exact iInf_congr fun i => dif_pos i.isLt

/-- The second result's entry of batch `b` after the batch's last point: the nearest-prediction distances summed over
    the batch's target points. -/
theorem after3_last (b : Fin 4) :
    (dats m 0 c).after 3 (TailValue.lastPt b) (ix3 (0 : Fin 1) (0 : Fin 8) (0 : Fin 128))
      = ∑ i : Fin 8192, Cert.Chamfer.rowMin (m ((c : Thread nD τ).loc main_arg0)) (m ((c : Thread nD τ).loc main_arg1)) b i := by
  have hb : b.val = (TailValue.lastPt b).val / 16 := by
    show b.val = (16 * b.val + 15) / 16
    omega
  have hq : (TailValue.lastPt b).val % 16 + 1 = 16 := by
    show (16 * b.val + 15) % 16 + 1 = 16
    omega
  rw [after0_3]
  obtain ⟨h1, -⟩ := state_at m c (TailValue.lastPt b).val (TailValue.lastPt b).isLt b hb
  rw [h1 0 0, hq]
  exact tiles_sum m c b

/-- The first result's entry of batch `b` after the batch's last point: the nearest-target distances summed over the
    batch's predicted points. -/
theorem after2_last (b : Fin 4) :
    (dats m 0 c).after 2 (TailValue.lastPt b) (ix3 (0 : Fin 1) (0 : Fin 8) (0 : Fin 128))
      = ∑ j : Fin 8192, Cert.Chamfer.colMin (m ((c : Thread nD τ).loc main_arg0)) (m ((c : Thread nD τ).loc main_arg1)) b j := by
  have h15 : (TailValue.lastPt b).val % 16 = 15 := by
    show (16 * b.val + 15) % 16 = 15
    omega
  have hb : b.val = (TailValue.lastPt b).val / 16 := by
    show b.val = (16 * b.val + 15) / 16
    omega
  have hb' : b.val = ((TailValue.lastPt b).val - 1) / 16 := by
    show b.val = (16 * b.val + 15 - 1) / 16
    omega
  have hq : ((TailValue.lastPt b).val - 1) % 16 + 1 = 15 := by
    show (16 * b.val + 15 - 1) % 16 + 1 = 15
    omega
  rw [after0_2]
  unfold o2At
  rw [dif_pos h15, caseC_out]
  show (_ : EReal) = _
  refine Finset.sum_congr rfl fun j _ => ?_
  obtain ⟨-, h2⟩ := state_at m c ((TailValue.lastPt b).val - 1) (Nat.lt_of_le_of_lt (Nat.sub_le _ _) (TailValue.lastPt b).isLt) b hb'
  rw [h2 j, tile_min_eq m c (TailValue.lastPt b) b hb j, h15, hq, ← Cert.Chamfer.Regroup.inf_range_succ]
  exact tiles_min m c b j

/-- The result buffer after the host lines that follow the region: the loss of the two clouds. -/
theorem result_loss :
    Pipeline.afterTail₀ cfgs (dats m) 0 (V0 m) [hostOps1] c main_v10
      = fun _ => Cert.Chamfer.loss (m ((c : Thread nD τ).loc main_arg0)) (m ((c : Thread nD τ).loc main_arg1)) := by
  rw [TailValue.result_of_dats m (dats m) c]
  funext _
  unfold Cert.Chamfer.loss
  simp only [after2_last m c, after3_last m c]

/-- Every weakly fair execution of the kernel program at the ideal instance terminates without a fault, with the
    result buffer at the loss of its two argument arrays and those arrays unchanged. -/
theorem run_loss (ρ : Dev nD → PrngReg) :
    θ_run (Cert.KernelIdeal.defs (F := Ideal)) (onTc (τ := τ) (Cert.KernelIdeal.main (F := Ideal))) ⟨m, fun _ => 0, ρ⟩
      (fun r => ∀ c : Dev nD,
        r.2.mem ((c.tc : Thread nD τ).loc main_v10)
            = (fun _ => Cert.Chamfer.loss (m ((c.tc : Thread nD τ).loc main_arg0)) (m ((c.tc : Thread nD τ).loc main_arg1)))
          ∧ r.2.mem ((c.tc : Thread nD τ).loc main_arg0) = m ((c.tc : Thread nD τ).loc main_arg0)
          ∧ r.2.mem ((c.tc : Thread nD τ).loc main_arg1) = m ((c.tc : Thread nD τ).loc main_arg1)) :=
  (θ_run defs _ _).mono (fun r h c =>
      ⟨((h c).2 main_v10 (Pipeline.mem_restRefs_of main_v10 (by decide) (by decide))).trans (result_loss m c),
       ((h c).2 main_arg0 (Pipeline.mem_restRefs_of main_arg0 (by decide) (by decide))).trans (W_main_arg0 m (dats m) c),
       ((h c).1 0).trans (((dats m 0 c).arrAt_in 0 rfl _).trans ((A_eq m c 0).trans (V_main_arg1 m c)))⟩)
    (run_main m ρ)

end Cert.KernelIdeal.RunValue

end
-- ==== Proof.RefAlgebra.lean ====
/-
  Two facts about extended reals behind the reference's arithmetic.

  * For REAL coordinates the squared distance written as "sum of squares of one point, plus sum of squares of
    the other, minus twice their inner product" is the sum of the squared coordinate differences.  (At an
    infinite coordinate this fails: `∞ + ∞ - 2·∞` is not `(∞ - ∞)²`; that is why the claim needs finite inputs.)
  * A minimum accumulated from +∞ over a finite index set is the infimum over that set.
-/
import Idealize.ShloMosaic.PureOps.Ideal
import Idealize.ShloMosaic.PureOps.Ideal.Laws
import Mathlib.Algebra.BigOperators.Fin

open scoped BigOperators

namespace Cert.Chamfer.RefAlgebra

open Idealize.ShloMosaic

/-- The f32 word of 2.0 is the real number 2. -/
theorem ofBits_two : Ideal.ofBits .f32 0x40000000#32 = ((2 : ℝ) : EReal) := by
  simp [Ideal.ofBits, Ideal.ieee, -EReal.coe_mul]; norm_num

/-- The f32 word of +∞ is the top of the extended reals. -/
theorem ofBits_inf : Ideal.ofBits .f32 0x7F800000#32 = (⊤ : EReal) := by simp [Ideal.ofBits, Ideal.ieee]

/-- `|a|² + |b|² - 2⟨a, b⟩ = |a - b|²` for points of ℝ³, each sum started from 0 and associated to the left as the
    programs write them. -/
theorem expand_sq (a0 a1 a2 b0 b1 b2 : ℝ) :
    ((0 + (((a0 : EReal) * a0 + (a1 : EReal) * a1) + (a2 : EReal) * a2))
        + (0 + (((b0 : EReal) * b0 + (b1 : EReal) * b1) + (b2 : EReal) * b2)))
      - ((2 : ℝ) : EReal) * ((((a0 : EReal) * b0 + (a1 : EReal) * b1) + (a2 : EReal) * b2))
    = (((a0 : EReal) - b0) * ((a0 : EReal) - b0) + ((a1 : EReal) - b1) * ((a1 : EReal) - b1))
        + ((a2 : EReal) - b2) * ((a2 : EReal) - b2) := by
  rw [zero_add, zero_add]
  simp only [← EReal.coe_mul, ← EReal.coe_add, ← EReal.coe_sub]
  rw [EReal.coe_eq_coe_iff]
  ring

/-- A minimum accumulated from +∞ over all of a finite index type is the infimum. -/
theorem fold_min_top {ι : Type*} [Fintype ι] (f : ι → EReal) :
    (Finset.univ : Finset ι).fold min (⊤ : EReal) f = ⨅ i, f i := by
  rw [← Finset.inf_univ_eq_iInf]
  rfl

/-- The same with the accumulator written as the f32 word of +∞ and the minimum as the float operation. -/
theorem fold_minimumf_inf {ι : Type*} [Fintype ι] (f : ι → EReal) :
    (Finset.univ : Finset ι).fold (FloatOps.minimumf (F := Ideal) (φ := .f32)) (Ideal.ofBits .f32 0x7F800000#32) f
      = ⨅ i, f i := by
  rw [ofBits_inf]
  exact fold_min_top f

end Cert.Chamfer.RefAlgebra
-- ==== Proof.RefStages.lean ====
/-
  The reference program, stage by stage, read at an index.

  With `p` the predicted cloud and `g` the target cloud, the reference builds the table
  `T[b, i, j] = (|g_{b,i}|² + |p_{b,j}|²) - 2·⟨g_{b,i}, p_{b,j}⟩` (each of the three sums over the coordinate axis,
  the squared norms accumulated from 0), takes its minimum from +∞ along `i` (for each predicted point) and along
  `j` (for each target point), and sums each table of minima over both remaining axes from 0.
-/
import proofs.«125768_j28200755266074_2_alg».proof.Proof.Gen.ReferenceIdeal.Read
import proofs.«125768_j28200755266074_2_alg».proof.Proof.RefAlgebra
import proofs.«125768_j28200755266074_2_alg».proof.Proof.Spec
import Idealize.ShloMosaic.Lib.ValueIdx

noncomputable section

open scoped BigOperators

namespace Cert.ReferenceIdeal.RefStages

open Cert.ReferenceIdeal Cert.ReferenceIdeal.Gen Cert.ReferenceIdeal.Read Idealize.ShloMosaic
  Idealize.ShloMosaic.ValueIdx Cert.Chamfer

/-! ## The table of pairwise values -/

/-- The table at `(b, i, j)`: squared norm of target point `i` plus squared norm of predicted point `j`, minus the
    word 2.0 times their inner product. -/
theorem table_apply (p g : FVec Ideal S4x8192x3 .f32) (b : Fin 4) (i j : Fin 8192) :
    val_main_v12 (F := Ideal) p g (ix3 b i j)
      = ((Ideal.ofBits .f32 0x00000000#32 + ∑ k : Fin 3, g (ix3 b i k) * g (ix3 b i k))
          + (Ideal.ofBits .f32 0x00000000#32 + ∑ k : Fin 3, p (ix3 b j k) * p (ix3 b j k)))
        - Ideal.ofBits .f32 0x40000000#32 * ∑ k : Fin 3, g (ix3 b i k) * p (ix3 b j k) := by
  have e1 : ∀ k, idx_main_v1 (idx_main_v5 (idx_main_v7 (ix3 b i j))) k = ix3 b i k := fun k =>
    funext fun a => Fin.ext (by match a with | ⟨0, _⟩ => rfl | ⟨1, _⟩ => rfl | ⟨2, _⟩ => rfl)
  have e2 : ∀ k, idx_main_v3 (idx_main_v6 (idx_main_v8 (ix3 b i j))) k = ix3 b j k := fun k =>
    funext fun a => Fin.ext (by match a with | ⟨0, _⟩ => rfl | ⟨1, _⟩ => rfl | ⟨2, _⟩ => rfl)
  have e3 : ∀ k, lidx_main_v4 (ix3 b i j) k = ix3 b i k := fun k =>
    funext fun a => Fin.ext (by match a with | ⟨0, _⟩ => rfl | ⟨1, _⟩ => rfl | ⟨2, _⟩ => rfl)
  have e4 : ∀ k, ridx_main_v4 (ix3 b i j) k = ix3 b j k := fun k =>
    funext fun a => Fin.ext (by match a with | ⟨0, _⟩ => rfl | ⟨1, _⟩ => rfl | ⟨2, _⟩ => rfl)
  rw [val_main_v12_apply, val_main_v9_apply, val_main_v7_apply, val_main_v5_apply, val_main_v1_apply,
    val_main_v8_apply, val_main_v6_apply, val_main_v3_apply, val_main_v11_apply, val_main_v10_apply,
    val_main_v4_apply]
  simp only [val_main_v0_apply, val_main_v2_apply, val_main_cst_apply, val_main_cst_0_apply, val_main_cst_1_apply,
    e1, e2, e3, e4, Ideal.mulf_def, Ideal.addf_def, Ideal.subf_def, Ideal.ofBits_def]

/-- For clouds of real numbers the table is the squared distance. -/
theorem table_real (P G : S4x8192x3.Idx → ℝ) (b : Fin 4) (i j : Fin 8192) :
    val_main_v12 (F := Ideal) (fun y => (P y : EReal)) (fun y => (G y : EReal)) (ix3 b i j)
      = sqd (fun y => (P y : EReal)) (fun y => (G y : EReal)) b i j := by
  rw [table_apply, Fin.sum_univ_three, Fin.sum_univ_three, Fin.sum_univ_three, Ideal.ofBits_zero_f32,
    RefAlgebra.ofBits_two]
  exact RefAlgebra.expand_sq _ _ _ _ _ _

/-! ## The two minimum reductions -/

/-- Putting coordinate `k` back on the middle axis of `(b, j)` gives `(b, k, j)`. -/
theorem lift_mid (h : S4x8192x8192.Reduces [1] S4x8192) (b : Fin 4) (j : Fin 8192) (k : Fin (S4x8192x8192.size 1)) :
    h.lift (ix2 b j) k = ix3 b (⟨k.val, k.isLt⟩ : Fin 8192) j := by
  funext c; apply Fin.ext
  fin_cases c <;> rfl

/-- Putting coordinate `k` back on the last axis of `(b, i)` gives `(b, i, k)`. -/
theorem lift_last (h : S4x8192x8192.Reduces [2] S4x8192) (b : Fin 4) (i : Fin 8192) (k : Fin (S4x8192x8192.size 2)) :
    h.lift (ix2 b i) k = ix3 b i (⟨k.val, k.isLt⟩ : Fin 8192) := by
  funext c; apply Fin.ext
  fin_cases c <;> rfl

/-- A minimum reduction from +∞ along the middle axis of a `[4, 8192, 8192]` array, at `(b, j)`, is the infimum over
    the middle coordinate. -/
theorem reduce_min_mid (y : FVec Ideal S4x8192x8192 .f32) (b : Fin 4) (j : Fin 8192) :
    Host.reduce FloatOps.minimumf y (constant (F := Ideal) S_ .f32 0x7F800000#32) reducesTo_S4x8192x8192_S4x8192_d1 h_S_
      (ix2 b j) = ⨅ i : Fin 8192, y (ix3 b i j) := by
  have hR : S4x8192x8192.Reduces [1] S4x8192 := by decide
  rw [Host.reduce_eq_fold_single FloatOps.minimumf y _ reducesTo_S4x8192x8192_S4x8192_d1 hR h_S_]
  refine Eq.trans ?_ (RefAlgebra.fold_minimumf_inf (fun i : Fin 8192 => y (ix3 b i j)))
  have hf : (y ∘ hR.lift (ix2 b j)) = fun k : Fin 8192 => y (ix3 b k j) :=
    funext fun k => congrArg y (lift_mid hR b j k)
  exact congrArg (fun f => Finset.fold (FloatOps.minimumf (F := Ideal) (φ := .f32))
    (Ideal.ofBits .f32 0x7F800000#32) f (Finset.univ : Finset (Fin 8192))) hf

/-- The same along the last axis, at `(b, i)`: the infimum over the last coordinate. -/
theorem reduce_min_last (y : FVec Ideal S4x8192x8192 .f32) (b : Fin 4) (i : Fin 8192) :
    Host.reduce FloatOps.minimumf y (constant (F := Ideal) S_ .f32 0x7F800000#32) reducesTo_S4x8192x8192_S4x8192_d2 h_S_
      (ix2 b i) = ⨅ j : Fin 8192, y (ix3 b i j) := by
  have hR : S4x8192x8192.Reduces [2] S4x8192 := by decide
  rw [Host.reduce_eq_fold_single FloatOps.minimumf y _ reducesTo_S4x8192x8192_S4x8192_d2 hR h_S_]
  refine Eq.trans ?_ (RefAlgebra.fold_minimumf_inf (fun j : Fin 8192 => y (ix3 b i j)))
  have hf : (y ∘ hR.lift (ix2 b i)) = fun k : Fin 8192 => y (ix3 b i k) :=
    funext fun k => congrArg y (lift_last hR b i k)
  exact congrArg (fun f => Finset.fold (FloatOps.minimumf (F := Ideal) (φ := .f32))
    (Ideal.ofBits .f32 0x7F800000#32) f (Finset.univ : Finset (Fin 8192))) hf

/-- The minimum along the target axis, at predicted point `(b, j)`, is the infimum of the table over the target
    points. -/
theorem min_over_targets (p g : FVec Ideal S4x8192x3 .f32) (b : Fin 4) (j : Fin 8192) :
    val_main_v13 (F := Ideal) p g (ix2 b j) = ⨅ i : Fin 8192, val_main_v12 (F := Ideal) p g (ix3 b i j) :=
  reduce_min_mid (val_main_v12 (F := Ideal) p g) b j

/-- The minimum along the predicted axis, at target point `(b, i)`, is the infimum of the table over the predicted
    points. -/
theorem min_over_preds (p g : FVec Ideal S4x8192x3 .f32) (b : Fin 4) (i : Fin 8192) :
    val_main_v16 (F := Ideal) p g (ix2 b i) = ⨅ j : Fin 8192, val_main_v12 (F := Ideal) p g (ix3 b i j) :=
  reduce_min_last (val_main_v12 (F := Ideal) p g) b i

/-! ## The two total sums -/

/-- The sum of the first table of minima over both axes, accumulated from 0. -/
theorem sum_over_preds (p g : FVec Ideal S4x8192x3 .f32) (i : S_.Idx) :
    val_main_v14 (F := Ideal) p g i = ∑ b : Fin 4, ∑ j : Fin 8192, val_main_v13 (F := Ideal) p g (ix2 b j) := by
  rw [val_main_v14_apply, val_main_cst_3_apply, sum_idx2]
  show Ideal.ofBits .f32 0x00000000#32 + _ = _
  rw [Ideal.ofBits_zero_f32, zero_add]

/-- The sum of the second table of minima over both axes, accumulated from 0. -/
theorem sum_over_targets (p g : FVec Ideal S4x8192x3 .f32) (i : S_.Idx) :
    val_main_v17 (F := Ideal) p g i = ∑ b : Fin 4, ∑ j : Fin 8192, val_main_v16 (F := Ideal) p g (ix2 b j) := by
  rw [val_main_v17_apply, val_main_cst_6_apply, sum_idx2]
  show Ideal.ofBits .f32 0x00000000#32 + _ = _
  rw [Ideal.ofBits_zero_f32, zero_add]

end Cert.ReferenceIdeal.RefStages

end
-- ==== Proof.RefValue.lean ====
/-
  The reference program's result is the Chamfer loss of the specification.

  For clouds of real numbers every entry of the reference's table of pairwise values is the squared distance
  (the expansion of the square, which needs finiteness), so the table's minima along either axis are the
  specification's infima, their totals the specification's double sums, and the two means added give the loss.
-/
import proofs.«125768_j28200755266074_2_alg».proof.Proof.Gen.ReferenceIdeal.Run
import proofs.«125768_j28200755266074_2_alg».proof.Proof.Gen.ReferenceIdeal.Read
import proofs.«125768_j28200755266074_2_alg».proof.Proof.Spec
import proofs.«125768_j28200755266074_2_alg».proof.Proof.RefStages

noncomputable section

open scoped BigOperators

namespace Cert.ReferenceIdeal.RefValue

open Cert.ReferenceIdeal Cert.ReferenceIdeal.Gen Cert.ReferenceIdeal.Read Cert.ReferenceIdeal.RefStages
  Idealize.ShloMosaic Idealize.ShloMosaic.ValueIdx

/-- The reference's last stage, as a function of the predicted cloud `p` and the target cloud `g` with real entries,
    is the loss at its one index. -/
theorem stage_eq (p g : FVec Ideal S4x8192x3 .f32)
    (hp : ∀ y, ∃ r : ℝ, p y = (r : EReal)) (hg : ∀ y, ∃ r : ℝ, g y = (r : EReal)) :
    val_main_v19 (F := Ideal) p g = fun _ => Cert.Chamfer.loss p g := by
  choose P hP using hp
  choose G hG using hg
  obtain rfl : p = fun y => (P y : EReal) := funext hP
  obtain rfl : g = fun y => (G y : EReal) := funext hG
  funext i
  rw [val_main_v19_apply, val_main_v15_apply, val_main_v18_apply, sum_over_preds, sum_over_targets,
    val_main_cst_4_apply, val_main_cst_7_apply]
  simp only [min_over_targets, min_over_preds, table_real]
  rfl

/-- The composed term the reference's run ends at, for real clouds, is the loss. -/
theorem result_eq (p g : FVec Ideal S4x8192x3 .f32)
    (hp : ∀ y, ∃ r : ℝ, p y = (r : EReal)) (hg : ∀ y, ∃ r : ℝ, g y = (r : EReal)) :
    addf (Host.divf (Host.reduceAdd (Host.reduce FloatOps.minimumf (subf (addf (broadcastInDim S4x8192x8192 ![0, 1, 2] bcast_S4x8192x1_S4x8192x8192_0_1_2 (broadcastInDim S4x8192x1 ![0, 1] bcast_S4x8192_S4x8192x1_0_1 (Host.reduceAdd (mulf g g) (constant (F := Ideal) S_ .f32 0x00000000#32) reducesTo_S4x8192x3_S4x8192_d2 h_S_))) (broadcastInDim S4x8192x8192 ![0, 1, 2] bcast_S4x1x8192_S4x8192x8192_0_1_2 (broadcastInDim S4x1x8192 ![0, 2] bcast_S4x8192_S4x1x8192_0_2 (Host.reduceAdd (mulf p p) (constant (F := Ideal) S_ .f32 0x00000000#32) reducesTo_S4x8192x3_S4x8192_d2 h_S_)))) (mulf (broadcastInDim S4x8192x8192 ![] bcast_S_S4x8192x8192 (constant (F := Ideal) S_ .f32 0x40000000#32)) (Host.dotGeneral dot_S4x8192x3_S4x8192x3_S4x8192x8192_2_2_1_1_0_0 none g p))) (constant (F := Ideal) S_ .f32 0x7F800000#32) reducesTo_S4x8192x8192_S4x8192_d1 h_S_) (constant (F := Ideal) S_ .f32 0x00000000#32) reducesTo_S4x8192_S_d0_1 h_S_) (constant (F := Ideal) S_ .f32 0x47000000#32)) (Host.divf (Host.reduceAdd (Host.reduce FloatOps.minimumf (subf (addf (broadcastInDim S4x8192x8192 ![0, 1, 2] bcast_S4x8192x1_S4x8192x8192_0_1_2 (broadcastInDim S4x8192x1 ![0, 1] bcast_S4x8192_S4x8192x1_0_1 (Host.reduceAdd (mulf g g) (constant (F := Ideal) S_ .f32 0x00000000#32) reducesTo_S4x8192x3_S4x8192_d2 h_S_))) (broadcastInDim S4x8192x8192 ![0, 1, 2] bcast_S4x1x8192_S4x8192x8192_0_1_2 (broadcastInDim S4x1x8192 ![0, 2] bcast_S4x8192_S4x1x8192_0_2 (Host.reduceAdd (mulf p p) (constant (F := Ideal) S_ .f32 0x00000000#32) reducesTo_S4x8192x3_S4x8192_d2 h_S_)))) (mulf (broadcastInDim S4x8192x8192 ![] bcast_S_S4x8192x8192 (constant (F := Ideal) S_ .f32 0x40000000#32)) (Host.dotGeneral dot_S4x8192x3_S4x8192x3_S4x8192x8192_2_2_1_1_0_0 none g p))) (constant (F := Ideal) S_ .f32 0x7F800000#32) reducesTo_S4x8192x8192_S4x8192_d2 h_S_) (constant (F := Ideal) S_ .f32 0x00000000#32) reducesTo_S4x8192_S_d0_1 h_S_) (constant (F := Ideal) S_ .f32 0x47000000#32))
      = fun _ => Cert.Chamfer.loss p g :=
  (val_main_v19_eq (F := Ideal) p g).trans (stage_eq p g hp hg)

end Cert.ReferenceIdeal.RefValue

end
-- ==== Proof.LibIsReal.lean ====
/-
  "This extended real is a real number", and what keeps it so.

  Distributing a product over a sum, cancelling, moving a factor across a sum: these laws of the reals fail
  at the infinities, so a proof that uses one first shows that the values involved are real.  The property
  is closed under sums, products, finite sums, maxima and minima, quotients by a nonzero real and the
  exponential; and the hyperbolic tangent of ANY extended real is real (it is -1 and 1 at the infinities),
  which is why a network whose layers end in tanh keeps finite values whatever it is fed.
-/
import Idealize.ShloMosaic.PureOps.Ideal
import Mathlib.Algebra.BigOperators.Fin

open Idealize.ShloMosaic

namespace Cert.Proof.LibIsReal

/-- The extended real `x` is (the coercion of) a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.max {x y : EReal} (hx : IsReal x) (hy : IsReal y) : IsReal (max x y) := by
  rcases max_choice x y with h | h <;> rw [h] <;> assumption

theorem IsReal.min {x y : EReal} (hx : IsReal x) (hy : IsReal y) : IsReal (min x y) := by
  rcases min_choice x y with h | h <;> rw [h] <;> assumption

/-- A finite sum of reals is real. -/
theorem isReal_sum {ι : Type*} (S : Finset ι) (f : ι → EReal) (h : ∀ i ∈ S, IsReal (f i)) : IsReal (∑ i ∈ S, f i) := by
  classical
  induction S using Finset.induction_on with
  | empty => simpa using isReal_zero
  | insert a S ha ih =>
    rw [Finset.sum_insert ha]
    exact (h a (Finset.mem_insert_self a S)).add (ih fun i hi => h i (Finset.mem_insert_of_mem hi))

/-- The hyperbolic tangent of any extended real is real. -/
theorem isReal_tanh (x : EReal) : IsReal (Ideal.tanh x) := by
  induction x using EReal.rec with
  | bot => exact ⟨-1, by rw [Ideal.tanh_bot, EReal.coe_neg, EReal.coe_one]⟩
  | coe r => exact ⟨Real.tanh r, rfl⟩
  | top => exact ⟨1, by rw [Ideal.tanh_top, EReal.coe_one]⟩

theorem IsReal.exp {x : EReal} (hx : IsReal x) : IsReal (Ideal.exp x) := by
  obtain ⟨a, rfl⟩ := hx
  exact ⟨Real.exp a, rfl⟩

/-- A quotient of a real by a nonzero real is real. -/
theorem IsReal.div {x : EReal} (hx : IsReal x) {d : ℝ} (hd : d ≠ 0) : IsReal (Ideal.div x (d : EReal)) := by
  rw [Ideal.div_coe hd]
  exact hx.mul (isReal_coe _)

/-- A real is neither infinity. -/
theorem IsReal.ne_top {x : EReal} (hx : IsReal x) : x ≠ ⊤ := by
  obtain ⟨a, rfl⟩ := hx; exact EReal.coe_ne_top a

theorem IsReal.ne_bot {x : EReal} (hx : IsReal x) : x ≠ ⊥ := by
  obtain ⟨a, rfl⟩ := hx; exact EReal.coe_ne_bot a

/-- … and conversely. -/
theorem isReal_of_ne {x : EReal} (ht : x ≠ ⊤) (hb : x ≠ ⊥) : IsReal x :=
  ⟨x.toReal, (EReal.coe_toReal ht hb).symm⟩

/-- A whole family of reals comes with its real-valued family (for stating a law over the reals). -/
theorem exists_real_family {ι : Type*} (f : ι → EReal) (h : ∀ i, IsReal (f i)) : ∃ g : ι → ℝ, ∀ i, f i = (g i : EReal) :=
  ⟨fun i => (h i).choose, fun i => (h i).choose_spec⟩

end Cert.Proof.LibIsReal
-- ==== Proof.LibIsRealVec.lean ====
/-
  Arrays of real numbers stay arrays of real numbers under the operations the printed programs use.

  `AllReal x`: every entry of the array `x` (over the extended reals) is a real.  Closed under the
  pointwise sum, difference, product, maximum and minimum; under a contraction (a finite sum of products)
  with or without a real accumulator; under a gather (whatever the indices) and an accumulating scatter of
  real updates; under a broadcast.  The hyperbolic tangent of ANY array is an array of reals, the host's
  as the vector unit's — so after a tanh layer everything is finite again, whatever came before.
-/
import proofs.«125768_j28200755266074_2_alg».proof.Proof.LibIsReal
import Idealize.ShloMosaic.PureOps.Ideal.Laws

open Idealize.ShloMosaic

namespace Cert.Proof.LibIsReal

variable {s : Shape} {φ : FTy}

/-- Every entry of the array is a real. -/
def AllReal (x : FVec Ideal s φ) : Prop := ∀ i, IsReal (x i)

theorem AllReal.addf {x y : FVec Ideal s φ} (hx : AllReal x) (hy : AllReal y) : AllReal (addf x y) :=
  fun i => (hx i).add (hy i)

theorem AllReal.subf {x y : FVec Ideal s φ} (hx : AllReal x) (hy : AllReal y) : AllReal (subf x y) :=
  fun i => (hx i).sub (hy i)

theorem AllReal.mulf {x y : FVec Ideal s φ} (hx : AllReal x) (hy : AllReal y) : AllReal (mulf x y) :=
  fun i => (hx i).mul (hy i)

theorem AllReal.maximumf {x y : FVec Ideal s φ} (hx : AllReal x) (hy : AllReal y) : AllReal (maximumf x y) :=
  fun i => (hx i).max (hy i)

theorem AllReal.minimumf {x y : FVec Ideal s φ} (hx : AllReal x) (hy : AllReal y) : AllReal (minimumf x y) :=
  fun i => (hx i).min (hy i)

/-- The vector unit's tanh of any array. -/
theorem allReal_tanh (x : FVec Ideal s φ) : AllReal (tanh x) := fun i => isReal_tanh (x i)

/-- The host's tanh of any array. -/
theorem allReal_host_tanh (x : FVec Ideal s φ) : AllReal (Host.tanh x) := fun i => isReal_tanh (x i)

theorem AllReal.exp {x : FVec Ideal s φ} (hx : AllReal x) : AllReal (exp x) := fun i => (hx i).exp

theorem AllReal.host_exp {x : FVec Ideal s φ} (hx : AllReal x) : AllReal (Host.exp x) := fun i => (hx i).exp

/-- A host contraction of real arrays. -/
theorem AllReal.dotGeneral {sl sr so : Shape} {φ₁ φ₂ : FTy} (d : DotDims sl sr so) (prec : Option ContractPrecision)
    (sched : HostSchedule) {lhs : FVec Ideal sl φ₁} {rhs : FVec Ideal sr φ₂} (hl : AllReal lhs) (hr : AllReal rhs) :
    AllReal (FloatOps.dotGeneral d prec sched lhs rhs : FVec Ideal so .f32) := fun j => by
  rw [Ideal.dotGeneral_apply]
  exact isReal_sum _ _ fun k _ => (hl _).mul (hr _)

/-- The matrix unit's product of real arrays onto a real accumulator. -/
theorem AllReal.matmul {sl sr so : Shape} {φ₁ φ₂ : FTy} (d : DotDims sl sr so) (prec : Option ContractPrecision)
    {lhs : FVec Ideal sl φ₁} {rhs : FVec Ideal sr φ₂} {acc : FVec Ideal so .f32}
    (hl : AllReal lhs) (hr : AllReal rhs) (ha : AllReal acc) :
    AllReal (FloatOps.matmul d prec lhs rhs acc : FVec Ideal so .f32) := fun j => by
  rw [Ideal.matmul_apply]
  exact (ha j).add (isReal_sum _ _ fun k _ => (hl _).mul (hr _))

/-- A gather reads entries of the operand: real whatever the indices are. -/
theorem AllReal.gather {si t : Shape} {w : Nat} (d : GatherDims s si t) {x : FVec Ideal s φ} (hx : AllReal x)
    (idx : IVec si w) : AllReal (Host.gather d x idx : FVec Ideal t φ) := fun _ => hx _

/-- An accumulating scatter of real updates into a real operand. -/
theorem AllReal.scatterAdd {si u : Shape} {w : Nat} (d : ScatterDims s si u) {x : FVec Ideal s φ} {upd : FVec Ideal u φ}
    (hx : AllReal x) (hu : AllReal upd) (idx : IVec si w) : AllReal (Host.scatterAdd (F := Ideal) d x idx upd) := fun i => by
  show IsReal (Ideal.hostScatterAdd d x idx upd i)
  unfold Ideal.hostScatterAdd
  exact (hx i).add (isReal_sum _ _ fun j _ => hu j)

/-- A broadcast repeats entries. -/
theorem AllReal.broadcastInDim {t : Shape} (dims : Fin s.rank → Fin t.rank) (h : s.BroadcastsInDim t dims)
    {x : FVec Ideal s φ} (hx : AllReal x) : AllReal (broadcastInDim t dims h x : FVec Ideal t φ) := fun _ => hx _

end Cert.Proof.LibIsReal
-- ==== Proof.LibPreDecode.lean ====
/-
  The element facts behind a precondition of the form "every float input finite, every integer input in
  its range".

  The precondition is printed as a conjunction of reductions `all (…)`; once a reduction is opened (the
  library's law for an all-reduce) one is left with a fact about ONE element: for a float, that its
  absolute value compares below the word of +infinity — which says exactly that it is a real number —; for
  an integer, that the conjunction of two signed compares holds — which bounds it, as a signed number and,
  when the lower bound is not negative, as a natural number.
-/
import proofs.«125768_j28200755266074_2_alg».proof.Proof.LibIsReal
import Idealize.ShloMosaic.Lib.Affine
import Idealize.ShloMosaic.Lib.ReduceAll
import proofs.«125768_j28200755266074_2_alg».proof.Proof.LibIsRealVec

open Idealize.ShloMosaic

namespace Cert.Proof.LibPreDecode

open LibIsReal

/-- The word of +infinity. -/
theorem ofBits_inf : Ideal.ofBits .f32 0x7F800000#32 = ⊤ := by simp [Ideal.ofBits, Ideal.ieee]

/-- The one-bit word of a decided proposition is `1` exactly when the proposition holds. -/
theorem ofBool_decide_eq_one (p : Prop) [Decidable p] : BitVec.ofBool (decide p) = 1#1 ↔ p := by
  by_cases h : p <;> simp [h]

/-- `|x| < +inf` holds exactly of the real numbers. -/
theorem abs_lt_inf_iff (x : EReal) :
    Ideal.cmp .olt (max x (-x)) (Ideal.ofBits .f32 0x7F800000#32) = 1#1 ↔ IsReal x := by
  rw [ofBits_inf]
  show BitVec.ofBool (decide (max x (-x) < ⊤)) = 1#1 ↔ IsReal x
  rw [ofBool_decide_eq_one]
  induction x using EReal.rec with
  | bot =>
    rw [EReal.neg_bot, max_eq_right bot_le]
    exact ⟨fun h => absurd h (lt_irrefl _), fun h => absurd rfl h.ne_bot⟩
  | coe r =>
    refine ⟨fun _ => isReal_coe r, fun _ => ?_⟩
    exact max_lt (EReal.coe_lt_top r) (by rw [← EReal.coe_neg]; exact EReal.coe_lt_top _)
  | top =>
    rw [max_eq_left le_top]
    exact ⟨fun h => absurd h (lt_irrefl _), fun h => absurd rfl h.ne_top⟩

/-- The two signed compares of a range check, together, bound the word as a signed number. -/
theorem range_iff (a lo hi : BitVec 32) :
    IntOp.andi (IntOp.cmpi .sge a lo) (IntOp.cmpi .sle a hi) = 1#1 ↔ lo.toInt ≤ a.toInt ∧ a.toInt ≤ hi.toInt :=
  IntOp.andi_eq_one.trans (and_congr IntOp.cmpi_sge IntOp.cmpi_sle)

/-- A word that is not negative as a signed number and at most `N` is at most `N` as a natural number:
    what an indexed access asks of its index. -/
theorem toNat_le_of_range (a : BitVec 32) (N : ℕ) (h0 : 0 ≤ a.toInt) (h1 : a.toInt ≤ (N : ℤ)) : a.toNat ≤ N := by
  rw [BitVec.toInt_eq_toNat_cond] at h0 h1
  split at h0 <;> omega

/-! ## The two kinds of conjunct, for a whole array of any shape -/

/-- The result shape of an all-reduce to a scalar has one index. -/
instance subsingleton_scalar_idx : Subsingleton (⟨0, ![]⟩ : Shape).Idx := ⟨fun _ _ => funext fun d => d.elim0⟩

section Whole

variable {s : Shape} {axes : List (Fin s.rank)}

/-- `all (|x| < +inf)` says every entry of `x` is real. -/
theorem allReal_of_all_finite (x : FVec Ideal s .f32) (inf : FVec Ideal s .f32)
    (hinf : ∀ i, inf i = Ideal.ofBits .f32 0x7F800000#32) (init : IVec ⟨0, ![]⟩ 1)
    (h : s.ReducesTo axes ⟨0, ![]⟩) (hu : 0 < (⟨0, ![]⟩ : Shape).numel) (j : (⟨0, ![]⟩ : Shape).Idx)
    (e : Host.reduce IntOp.andi (cmpf .olt (Host.absf x) inf) init h hu j = 1#1) : AllReal x := fun i => by
  have hi := Host.reduce_andi_all (cmpf .olt (Host.absf x) inf) init h hu j e i
  have : Ideal.cmp .olt (max (x i) (-(x i))) (Ideal.ofBits .f32 0x7F800000#32) = 1#1 := by
    rw [← hinf i]; exact hi
  exact (abs_lt_inf_iff (x i)).mp this

/-- `all (lo ≤ x ∧ x ≤ hi)` bounds every entry of `x` as a signed number. -/
theorem range_of_all (x lo hi : IVec s 32) (init : IVec ⟨0, ![]⟩ 1)
    (h : s.ReducesTo axes ⟨0, ![]⟩) (hu : 0 < (⟨0, ![]⟩ : Shape).numel) (j : (⟨0, ![]⟩ : Shape).Idx)
    (e : Host.reduce IntOp.andi (andi (cmpi .sge x lo) (cmpi .sle x hi)) init h hu j = 1#1) (i : s.Idx) :
    (lo i).toInt ≤ (x i).toInt ∧ (x i).toInt ≤ (hi i).toInt :=
  (range_iff (x i) (lo i) (hi i)).mp (Host.reduce_andi_all (andi (cmpi .sge x lo) (cmpi .sle x hi)) init h hu j e i)

end Whole

end Cert.Proof.LibPreDecode
-- ==== Proof.PreReal.lean ====
/-
  The precondition "every input is finite" says that every entry of both point clouds is a real number.

  The precondition is the conjunction of two reductions `all (|x| < +∞)`, one per cloud.  A reduction by
  `and` over a whole array that answers 1 gives the compared bit at every entry, and `|x| < +∞` holds of an
  extended real exactly when it is neither infinity.
-/
import proofs.«125768_j28200755266074_2_alg».proof.Pre_finite_inputs
import proofs.«125768_j28200755266074_2_alg».proof.Proof.Gen.Pre_finite_inputs
import proofs.«125768_j28200755266074_2_alg».proof.Proof.LibPreDecode
import Idealize.ShloMosaic.Lib.ValueIdx

namespace Cert.Chamfer

open Idealize.ShloMosaic Cert.Pre_finite_inputs Cert.Proof.LibIsReal Cert.Proof.LibPreDecode

/-- Under the finiteness precondition every entry of the predicted cloud `p` and of the target cloud `g` is a
    real number. -/
theorem real_of_pre (p g : FVec Ideal S4x8192x3 .f32)
    (h : Cert.Pre_finite_inputs.fn (F := Ideal) p g = fun _ => 1#1) :
    (∀ y, ∃ r : ℝ, p y = (r : EReal)) ∧ (∀ y, ∃ r : ℝ, g y = (r : EReal)) := by
  have h0 := congrFun h ValueIdx.ix0
  dsimp only [Cert.Pre_finite_inputs.fn] at h0
  obtain ⟨hp, hg⟩ := IntOp.andi_eq_one.mp h0
  exact ⟨allReal_of_all_finite p _ (fun _ => rfl) _ _ _ _ hp,
    allReal_of_all_finite g _ (fun _ => rfl) _ _ _ _ hg⟩

end Cert.Chamfer
-- ==== Proof.lean ====
/-
  Chamfer loss: a tiled kernel against the textbook formula, over the extended reals.

  THE TWO PROGRAMS.  Both take a cloud `p` of predicted points and a cloud `g` of target points, each 4 batches
  of 8192 points of ℝ³, and return one number.  With `d(b, i, j)` the squared distance between target point `i` and
  predicted point `j` of batch `b`, the number is

      (∑_b ∑_j min_i d(b, i, j)) / 32768  +  (∑_b ∑_i min_j d(b, i, j)) / 32768          (`Cert.Chamfer.loss`).

  The kernel walks a 4 × 16 grid: at point `(b, n)` it holds the 512 target points of tile `n` of batch `b` and all
  8192 predicted points of the batch (transposed beforehand, coordinates leading).  It forms the squared distances
  of the tile directly, as `(g₀ - p₀)² + (g₁ - p₁)² + (g₂ - p₂)²`, four chunks of 2048 predicted points at a time.
  Each chunk's minimum along the predicted axis is folded into a running minimum per target point; its minimum
  along the target axis is folded into a row of 8192 running minima that lives across the sixteen tiles of the
  batch.  After the chunks the tile's 512 minima are summed into the batch's second output block (reset at the
  batch's first tile); at the batch's last tile the row of 8192 minima is summed into the first output block.
  Each block is written back once, at the batch's last tile.  The lines after the call add the four batches'
  numbers of each output, divide by the word 32768.0 and add the two quotients.  So the kernel's result is the
  displayed formula with every minimum taken in pieces (a minimum over tiles of minima over a tile, a minimum
  over chunks of minima over a chunk) and every sum taken in pieces; minima and sums of extended reals regroup
  freely, so no finiteness is needed on this side.

  The reference builds the whole table as `(|g_i|² + |p_j|²) - 2·⟨g_i, p_j⟩`, takes its minima along either axis
  and averages them.

  THE LAW THAT JOINS THEM is the expansion of the square, `|g|² + |p|² - 2⟨g, p⟩ = |g - p|²`, coordinate by
  coordinate.  It holds for real numbers and FAILS at an infinite coordinate (`∞ + ∞ - 2·∞` is not `(∞ - ∞)²`), so
  it is used on the reference's side only, and there under the precondition, which says exactly that every entry
  of both clouds is a real number.  Both programs are thereby shown to end at the SAME term, the specification's
  loss of the argument arrays.

  THE FRAMES.  The reference is a straight line of array operations: its run is read off operation by operation
  and ends with the arguments untouched.  Each kernel program's run is the pipeline's: the windows' blocks staged
  in and out around the body at each of the 64 grid points, the body run once for each of its three control
  cases (first tile of a batch, middle tile, last tile) with its counted loop over the chunks carried by an
  invariant, and the row of running minima tracked from point to point; the argument arrays are only ever read.
  The word-level kernel and its idealization are one program text at two readings of the floats, and the same
  run serves both.  Nothing was rewritten in idealizing, so the idealization claim has no content.
-/
import proofs.«125768_j28200755266074_2_alg».proof.Defs
import proofs.«125768_j28200755266074_2_alg».proof.Proof.Gen.Kernel
import proofs.«125768_j28200755266074_2_alg».proof.Proof.Gen.KernelIdeal
import proofs.«125768_j28200755266074_2_alg».proof.Proof.Gen.ReferenceIdeal
import proofs.«125768_j28200755266074_2_alg».proof.Proof.Gen.Pre_finite_inputs
import proofs.«125768_j28200755266074_2_alg».proof.Proof.Gen.ReferenceIdeal.Run
import proofs.«125768_j28200755266074_2_alg».proof.Proof.KBFrame
import proofs.«125768_j28200755266074_2_alg».proof.Proof.KIFrame
import proofs.«125768_j28200755266074_2_alg».proof.Proof.KIValue
import proofs.«125768_j28200755266074_2_alg».proof.Proof.RefValue
import proofs.«125768_j28200755266074_2_alg».proof.Proof.PreReal

noncomputable section

open Idealize.ShloMosaic Idealize.ShloMosaic.TcCoe Idealize.SL.Sem

namespace Cert.Proof

/-- The word-level kernel runs and leaves its arguments unchanged. -/
theorem frame_kernel : Cert.frame_Kernel := fun m ρ _ => Cert.Kernel.Gen.frame (F := Bits) m ρ

/-- So does its idealization: the same run at the extended reals. -/
theorem frame_kernelIdeal : Cert.frame_KernelIdeal := fun m ρ _ => Cert.KernelIdeal.Gen.frame (F := Ideal) m ρ

/-- The reference runs and leaves its arguments unchanged: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Idealizing rewrote nothing. -/
theorem preserves : Cert.preserves_Kernel_KernelIdeal := trivial

/-- From memories that agree on the two clouds, both idealized programs end at the loss of the clouds: the kernel
    for any contents, the reference because the precondition makes every entry real, where the expansion of the
    squared distance holds. -/
theorem algebraic : Cert.algebraic_KernelIdeal_ReferenceIdeal := by
  intro m ρ m' ρ' hpre hagree
  refine ⟨fun c _ => Cert.Chamfer.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RunValue.run_loss m ρ, ?_⟩
  refine (θ_run Cert.ReferenceIdeal.defs _ _).mono (fun _ h c => ⟨(h c).1.trans ?_, (h c).2⟩)
    (Cert.ReferenceIdeal.Value.run (F := Ideal) m' ρ')
  obtain ⟨hp, hg⟩ := Cert.Chamfer.real_of_pre _ _ (hpre c)
  rw [(hagree c).1, (hagree c).2]
  exact Cert.ReferenceIdeal.RefValue.result_eq _ _ hp hg

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
